-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048 : Shape := ⟨2, ![8, 2048]⟩
abbrev S8x1024 : Shape := ⟨2, ![8, 1024]⟩
abbrev S1024 : Shape := ⟨1, ![1024]⟩
abbrev S1024x1024 : Shape := ⟨2, ![1024, 1024]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S16x1024x2048 : S_.BroadcastsInDim S16x1024x2048 (![] : Fin 0 → Fin S16x1024x2048.rank)
  reducesTo_S16x1024x2048_S_d0_1_2 : S16x1024x2048.ReducesTo [0, 1, 2] S_
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn_part1 {F : FTy → Type} [FloatOps F] (main_arg5 : FVec F S1024x1024 .f32) (main_arg6 : FVec F S16x1024x2048 .f32) (main_arg7 : FVec F S16x2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S16x1024x2048 .f32 := Host.absf main_arg6
  let main_cst_8 : FVec F S_ .f32 := constant S_ .f32 0x7F800000#32
  let main_v25 : FVec F S16x1024x2048 .f32 := broadcastInDim S16x1024x2048 ![] bcast_S_S16x1024x2048 main_cst_8
  let main_v26 : IVec S16x1024x2048 1 := cmpf .olt main_v24 main_v25
  let main_c_9 : IVec S_ 1 := constantI S_ 1 1#1
  let main_v27 : IVec S_ 1 := (fun x v => Host.reduce IntOp.andi x v reducesTo_S16x1024x2048_S_d0_1_2 h_S_) main_v26 main_c_9
  let main_v28 : IVec S_ 1 := andi main_v23 main_v27
  let main_v29 : FVec F S16x2048x1024 .f32 := Host.absf main_arg7
  let main_cst_10 : FVec F S_ .f32 := constant S_ .f32 0x7F800000#32
  let main_v30 : FVec F S16x2048x1024 .f32 := broadcastInDim S16x2048x1024 ![] bcast_S_S16x2048x1024 main_cst_10
  let main_v31 : IVec S16x2048x1024 1 := cmpf .olt main_v29 main_v30
  let main_c_11 : IVec S_ 1 := constantI S_ 1 1#1
  let main_v32 : IVec S_ 1 := (fun x v => Host.reduce IntOp.andi x v reducesTo_S16x2048x1024_S_d0_1_2 h_S_) main_v31 main_c_11
  let main_v33 : IVec S_ 1 := andi main_v28 main_v32
  main_v33

def fn {F : FTy → Type} [FloatOps F] (main_arg0 : FVec F S8x2048x1024 .f32) (main_arg1 : IVec S8x2048 32) (main_arg2 : FVec F S8x1024 .f32) (main_arg3 : FVec F S1024 .f32) (main_arg4 : FVec F S1024 .f32) (main_arg5 : FVec F S1024x1024 .f32) (main_arg6 : FVec F S16x1024x2048 .f32) (main_arg7 : FVec F S16x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_v13 main_v16
-- ==== Kernel.lean ====
abbrev S8x2048x1024 : Shape := ⟨3, ![8, 2048, 1024]⟩
abbrev S8x2048 : Shape := ⟨2, ![8, 2048]⟩
abbrev S8x1024 : Shape := ⟨2, ![8, 1024]⟩
abbrev S1024 : Shape := ⟨1, ![1024]⟩
abbrev S1024x1024 : Shape := ⟨2, ![1024, 1024]⟩
abbrev S16x1024x2048 : Shape := ⟨3, ![16, 1024, 2048]⟩
abbrev S16x2048x1024 : Shape := ⟨3, ![16, 2048, 1024]⟩
abbrev S8x1x1024 : Shape := ⟨3, ![8, 1, 1024]⟩
abbrev S8x2047x1024 : Shape := ⟨3, ![8, 2047, 1024]⟩
abbrev S1x1x1024 : Shape := ⟨3, ![1, 1, 1024]⟩
abbrev S16384 : Shape := ⟨1, ![16384]⟩
abbrev S_ : Shape := ⟨0, ![]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x1x1 : Shape := ⟨3, ![16384, 1, 1]⟩
abbrev S1 : Shape := ⟨1, ![1]⟩
abbrev S1x1x1 : Shape := ⟨3, ![1, 1, 1]⟩
abbrev S16385 : Shape := ⟨1, ![16385]⟩
abbrev S16384x1024 : Shape := ⟨2, ![16384, 1024]⟩
abbrev S1x1024 : Shape := ⟨2, ![1, 1024]⟩
abbrev S16385x1024 : Shape := ⟨2, ![16385, 1024]⟩
abbrev S16x1024x1024 : Shape := ⟨3, ![16, 1024, 1024]⟩
abbrev S1x512x1024 : Shape := ⟨3, ![1, 512, 1024]⟩
abbrev S1x1024x2048 : Shape := ⟨3, ![1, 1024, 2048]⟩
abbrev S1x2048x1024 : Shape := ⟨3, ![1, 2048, 1024]⟩
abbrev S512x1024 : Shape := ⟨2, ![512, 1024]⟩
abbrev S1024x2048 : Shape := ⟨2, ![1024, 2048]⟩
abbrev S512x2048 : Shape := ⟨2, ![512, 2048]⟩
abbrev S2048x1024 : Shape := ⟨2, ![2048, 1024]⟩

abbrev nBuf : Space → Nat
  | .hbm => 139
  | .vmem => 15
  | .smem => 0
  | _ => 0

abbrev hbmTy0_0 (i : Nat) : BufTy := match i % 128 with
  | 0 => ⟨S8x2048x1024, .f32⟩
  | 1 => ⟨S8x2048, .i32⟩
  | 2 => ⟨S8x1024, .f32⟩
  | 3 => ⟨S1024, .f32⟩
  | 4 => ⟨S1024, .f32⟩
  | 5 => ⟨S1024x1024, .f32⟩
  | 6 => ⟨S16x1024x2048, .f32⟩
  | 7 => ⟨S16x2048x1024, .f32⟩
  | 8 => ⟨S8x1x1024, .f32⟩
  | 9 => ⟨S8x2047x1024, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | 19 => ⟨S8x2048x1024, .f32⟩
  | 20 => ⟨S16384, .i32⟩
  | 21 => ⟨S_, .i32⟩
  | 22 => ⟨S16384, .i32⟩
  | 23 => ⟨S16384, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i1⟩
  | 38 => ⟨S_, .i32⟩
  | 39 => ⟨S_, .i1⟩
  | 40 => ⟨S16384, .i1⟩
  | 41 => ⟨S16384, .i1⟩
  | 42 => ⟨S16384, .i1⟩
  | 43 => ⟨S16384, .i32⟩
  | 44 => ⟨S16384, .i32⟩
  | 45 => ⟨S16384, .i32⟩
  | 46 => ⟨S16384x1, .i32⟩
  | 47 => ⟨S16, .i32⟩
  | 48 => ⟨S1x16, .i32⟩
  | 49 => ⟨S16384x16, .i32⟩
  | 50 => ⟨S16384x16, .i32⟩
  | 51 => ⟨S16384x16, .i1⟩
  | 52 => ⟨S16384x16, .i32⟩
  | 53 => ⟨S_, .i32⟩
  | 54 => ⟨S_, .i32⟩
  | 55 => ⟨S16384x16, .i32⟩
  | 56 => ⟨S16384x1, .i32⟩
  | 57 => ⟨S_, .i32⟩
  | 58 => ⟨S16384x1, .i32⟩
  | 59 => ⟨S16384x1, .i1⟩
  | 60 => ⟨S_, .i32⟩
  | 61 => ⟨S16384x1, .i32⟩
  | 62 => ⟨S16384x1, .i32⟩
  | 63 => ⟨S16384x1, .i32⟩
  | 64 => ⟨S16384x1x1, .i32⟩
  | 65 => ⟨S1, .i32⟩
  | 66 => ⟨S_, .i32⟩
  | 67 => ⟨S16384x1x1, .i32⟩
  | 68 => ⟨S16384x1x1, .i1⟩
  | 69 => ⟨S1x1x1, .i32⟩
  | 70 => ⟨S16384x1x1, .i32⟩
  | 71 => ⟨S16384x1x1, .i1⟩
  | 72 => ⟨S16384x1x1, .i1⟩
  | 73 => ⟨S_, .i1⟩
  | 74 => ⟨S16384x1, .i1⟩
  | 75 => ⟨S16384x1, .i32⟩
  | 76 => ⟨S_, .i32⟩
  | 77 => ⟨S16384x1, .i32⟩
  | 78 => ⟨S16384x1, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S_, .i32⟩
  | 91 => ⟨S_, .i32⟩
  | 92 => ⟨S16384, .i32⟩
  | 93 => ⟨S16384, .i32⟩
  | 94 => ⟨S16384, .i32⟩
  | 95 => ⟨S_, .i32⟩
  | 96 => ⟨S16385, .i32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16385, .i32⟩
  | 106 => ⟨S16384, .i32⟩
  | 107 => ⟨S16384x1024, .f32⟩
  | 108 => ⟨S16384x1024, .bf16⟩
  | 109 => ⟨S_, .bf16⟩
  | 110 => ⟨S1x1024, .bf16⟩
  | 111 => ⟨S16385x1024, .bf16⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x1024, .bf16⟩
  | 121 => ⟨S16x1024x1024, .bf16⟩
  | 122 => ⟨S16x1024x1024, .bf16⟩
  | 123 => ⟨S16384x1024, .bf16⟩
  | 124 => ⟨S_, .bf16⟩
  | 125 => ⟨S1x1024, .bf16⟩
  | 126 => ⟨S16385x1024, .bf16⟩
  | 127 => ⟨S_, .i32⟩
  | _ => ⟨S8x2048x1024, .f32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S16384x1024, .bf16⟩
  | 8 => ⟨S16384x1024, .f32⟩
  | 9 => ⟨S16384x1024, .f32⟩
  | 10 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_call0_c : Ref sig .tc := ⟨.hbm, 53, rfl⟩
abbrev main_call1_call0_v0 : Ref sig .tc := ⟨.hbm, 54, rfl⟩
abbrev main_v23 : Ref sig .tc := ⟨.hbm, 55, rfl⟩
abbrev main_v24 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_c_4 : Ref sig .tc := ⟨.hbm, 76, rfl⟩
abbrev main_call2_v14 : Ref sig .tc := ⟨.hbm, 77, rfl⟩
abbrev main_v25 : Ref sig .tc := ⟨.hbm, 78, rfl⟩
abbrev main_v26 : Ref sig .tc := ⟨.hbm, 79, rfl⟩
abbrev main_c_1 : Ref sig .tc := ⟨.hbm, 80, rfl⟩
abbrev main_v27 : Ref sig .tc := ⟨.hbm, 81, rfl⟩
abbrev main_v28 : Ref sig .tc := ⟨.hbm, 82, rfl⟩
abbrev main_c_2 : Ref sig .tc := ⟨.hbm, 83, rfl⟩
abbrev main_v29 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_c_4 : Ref sig .tc := ⟨.hbm, 90, rfl⟩
abbrev main_call3_v0 : Ref sig .tc := ⟨.hbm, 91, rfl⟩
abbrev main_call3_v1 : Ref sig .tc := ⟨.hbm, 92, rfl⟩
abbrev main_v34 : Ref sig .tc := ⟨.hbm, 93, rfl⟩
abbrev main_v35 : Ref sig .tc := ⟨.hbm, 94, rfl⟩
abbrev main_c_5 : Ref sig .tc := ⟨.hbm, 95, rfl⟩
abbrev main_v36 : Ref sig .tc := ⟨.hbm, 96, rfl⟩
abbrev main_c_6 : Ref sig .tc := ⟨.hbm, 97, rfl⟩
abbrev main_v37 : Ref sig .tc := ⟨.hbm, 98, rfl⟩
abbrev main_v38 : Ref sig .tc := ⟨.hbm, 99, rfl⟩
abbrev main_c_7 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst : Ref sig .tc := ⟨.hbm, 109, rfl⟩
abbrev main_v47 : Ref sig .tc := ⟨.hbm, 110, rfl⟩
abbrev main_v48 : Ref sig .tc := ⟨.hbm, 111, rfl⟩
abbrev main_c_8 : Ref sig .tc := ⟨.hbm, 112, rfl⟩
abbrev main_v49 : Ref sig .tc := ⟨.hbm, 113, rfl⟩
abbrev main_v50 : Ref sig .tc := ⟨.hbm, 114, rfl⟩
abbrev main_c_9 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_cst_10 : Ref sig .tc := ⟨.hbm, 124, rfl⟩
abbrev main_v59 : Ref sig .tc := ⟨.hbm, 125, rfl⟩
abbrev main_v60 : Ref sig .tc := ⟨.hbm, 126, rfl⟩
abbrev main_c_11 : Ref sig .tc := ⟨.hbm, 127, rfl⟩
abbrev main_v61 : Ref sig .tc := ⟨.hbm, 128, rfl⟩
abbrev main_v62 : Ref sig .tc := ⟨.hbm, 129, rfl⟩
abbrev main_c_12 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S8x1024_S8x1x1024_0_2 : S8x1024.BroadcastsInDim S8x1x1024 (![0, 2] : Fin 2 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  bcast_S_S_ : S_.BroadcastsInDim S_ (![] : Fin 0 → Fin S_.rank)
  reduceWindows_S16384x16_S16384x16_w16384s1p16383_0_w1s1p0_0 : S16384x16.ReduceWindows (![16384, 1] : Fin 2 → Nat) ![1, 1] ![16383, 0] ![0, 0] S16384x16
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16385 : S_.BroadcastsInDim S16385 (![] : Fin 0 → Fin S16385.rank)
  slices_S16385_S16384_0 : S16385.Slices ![0] S16384
  shapeCasts_S8x2048x1024_S16384x1024 : S8x2048x1024.ShapeCasts S16384x1024
  bitsLt_bf16_f32 : FTy.bits .bf16 < FTy.bits .f32
  bcast_S_S1x1024 : S_.BroadcastsInDim S1x1024 (![] : Fin 0 → Fin S1x1024.rank)
  concatenates_S16384x1024_S1x1024_S16385x1024_d0 : Shape.Concatenates [S16384x1024, S1x1024] S16385x1024 0
  shapeCasts_S16384x1024_S16x1024x1024 : S16384x1024.ShapeCasts S16x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S16x1024x1024_S16384x1024 : S16x1024x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S8x2048x1024 : S16384x1024.ShapeCasts S8x2048x1024
  gather_S16384x16_S16384x1x1_S16384x1_n_1_0_0_1_2_11_wf : GatherDims.WF S16384x16 S16384x1x1 S16384x1 [] [1] [0] [1] [0] 2 ![1, 1]
  scatter_S16385_S16384x1_S16384_n_0_0_1_wf : ScatterDims.WF S16385 S16384x1 S16384 [] [0] [0] 1
  gather_S16385x1024_S16384x1_S16384x1024_1_0_n_n_0_1_11024_wf : GatherDims.WF S16385x1024 S16384x1 S16384x1024 [1] [0] [] [0] [] 1 ![1, 1024]
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .bf16 = 32 ∨ (Rect.block (s := S16x1024x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S16x1024x2048.size a
  hwx0_1 : ∀ i : grid0.Coords, EltTy.bits .f32 = 32 ∨ (Rect.block (s := S16x1024x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x1024.size a
  hwx0_2 : ∀ i : grid0.Coords, EltTy.bits .f32 = 32 ∨ (Rect.block (s := S16x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x1024x1024.size a
  hwx0_3 : ∀ i : grid0.Coords, EltTy.bits .bf16 = 32 ∨ (Rect.block (s := S16x1024x1024) S1x512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x1024.size a
  hwx1_2 : ∀ i : grid1.Coords, EltTy.bits .bf16 = 32 ∨ (Rect.block (s := S16384x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)

variable [Facts₀]

def gather_S16384x16_S16384x1x1_S16384x1_n_1_0_0_1_2_11 : GatherDims S16384x16 S16384x1x1 S16384x1 where
  offsetDims := []
  collapsedSliceDims := [1]
  operandBatchingDims := [0]
  startIndicesBatchingDims := [0]
  startIndexMap := [1]
  indexVectorDim := 2
  sliceSizes := ![1, 1]
  wf := gather_S16384x16_S16384x1x1_S16384x1_n_1_0_0_1_2_11_wf
def scatter_S16385_S16384x1_S16384_n_0_0_1 : ScatterDims S16385 S16384x1 S16384 where
  updateWindowDims := []
  insertedWindowDims := [0]
  scatterDimsToOperandDims := [0]
  indexVectorDim := 1
  wf := scatter_S16385_S16384x1_S16384_n_0_0_1_wf
def gather_S16385x1024_S16384x1_S16384x1024_1_0_n_n_0_1_11024 : GatherDims S16385x1024 S16384x1 S16384x1024 where
  offsetDims := [1]
  collapsedSliceDims := [0]
  operandBatchingDims := []
  startIndicesBatchingDims := []
  startIndexMap := [0]
  indexVectorDim := 1
  sliceSizes := ![1, 1024]
  wf := gather_S16385x1024_S16384x1_S16384x1024_1_0_n_n_0_1_11024_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v56) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v68) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x2048 : Shape := ⟨2, ![8, 2048]⟩
abbrev S8x1024 : Shape := ⟨2, ![8, 1024]⟩
abbrev S1024 : Shape := ⟨1, ![1024]⟩
abbrev S1024x1024 : Shape := ⟨2, ![1024, 1024]⟩
abbrev S16x1024x2048 : Shape := ⟨3, ![16, 1024, 2048]⟩
abbrev S16x2048x1024 : Shape := ⟨3, ![16, 2048, 1024]⟩
abbrev S8x1x1024 : Shape := ⟨3, ![8, 1, 1024]⟩
abbrev S8x2047x1024 : Shape := ⟨3, ![8, 2047, 1024]⟩
abbrev S1x1x1024 : Shape := ⟨3, ![1, 1, 1024]⟩
abbrev S16384 : Shape := ⟨1, ![16384]⟩
abbrev S_ : Shape := ⟨0, ![]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x1x1 : Shape := ⟨3, ![16384, 1, 1]⟩
abbrev S1 : Shape := ⟨1, ![1]⟩
abbrev S1x1x1 : Shape := ⟨3, ![1, 1, 1]⟩
abbrev S16384x1024 : Shape := ⟨2, ![16384, 1024]⟩
abbrev S16385x1024 : Shape := ⟨2, ![16385, 1024]⟩
abbrev S16x1024x1024 : Shape := ⟨3, ![16, 1024, 1024]⟩
abbrev S1x1024 : Shape := ⟨2, ![1, 1024]⟩

abbrev nBuf : Space → Nat
  | .hbm => 138
  | .vmem => 0
  | .smem => 0
  | _ => 0

abbrev hbmTy0_0 (i : Nat) : BufTy := match i % 128 with
  | 0 => ⟨S8x2048x1024, .f32⟩
  | 1 => ⟨S8x2048, .i32⟩
  | 2 => ⟨S8x1024, .f32⟩
  | 3 => ⟨S1024, .f32⟩
  | 4 => ⟨S1024, .f32⟩
  | 5 => ⟨S1024x1024, .f32⟩
  | 6 => ⟨S16x1024x2048, .f32⟩
  | 7 => ⟨S16x2048x1024, .f32⟩
  | 8 => ⟨S8x1x1024, .f32⟩
  | 9 => ⟨S8x2047x1024, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | 19 => ⟨S8x2048x1024, .f32⟩
  | 20 => ⟨S16384, .i32⟩
  | 21 => ⟨S_, .i32⟩
  | 22 => ⟨S16384, .i32⟩
  | 23 => ⟨S16384, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i1⟩
  | 38 => ⟨S_, .i32⟩
  | 39 => ⟨S_, .i1⟩
  | 40 => ⟨S16384, .i1⟩
  | 41 => ⟨S16384, .i1⟩
  | 42 => ⟨S16384, .i1⟩
  | 43 => ⟨S16384, .i32⟩
  | 44 => ⟨S16384, .i32⟩
  | 45 => ⟨S16384, .i32⟩
  | 46 => ⟨S16384x1, .i32⟩
  | 47 => ⟨S16, .i32⟩
  | 48 => ⟨S1x16, .i32⟩
  | 49 => ⟨S16384x16, .i32⟩
  | 50 => ⟨S16384x16, .i32⟩
  | 51 => ⟨S16384x16, .i1⟩
  | 52 => ⟨S16384x16, .i32⟩
  | 53 => ⟨S_, .i32⟩
  | 54 => ⟨S_, .i32⟩
  | 55 => ⟨S16384x16, .i32⟩
  | 56 => ⟨S16384x1, .i32⟩
  | 57 => ⟨S_, .i32⟩
  | 58 => ⟨S16384x1, .i32⟩
  | 59 => ⟨S16384x1, .i1⟩
  | 60 => ⟨S_, .i32⟩
  | 61 => ⟨S16384x1, .i32⟩
  | 62 => ⟨S16384x1, .i32⟩
  | 63 => ⟨S16384x1, .i32⟩
  | 64 => ⟨S16384x1x1, .i32⟩
  | 65 => ⟨S1, .i32⟩
  | 66 => ⟨S_, .i32⟩
  | 67 => ⟨S16384x1x1, .i32⟩
  | 68 => ⟨S16384x1x1, .i1⟩
  | 69 => ⟨S1x1x1, .i32⟩
  | 70 => ⟨S16384x1x1, .i32⟩
  | 71 => ⟨S16384x1x1, .i1⟩
  | 72 => ⟨S16384x1x1, .i1⟩
  | 73 => ⟨S_, .i1⟩
  | 74 => ⟨S16384x1, .i1⟩
  | 75 => ⟨S16384x1, .i32⟩
  | 76 => ⟨S_, .i32⟩
  | 77 => ⟨S16384x1, .i32⟩
  | 78 => ⟨S16384x1, .i32⟩
  | 79 => ⟨S16384, .i32⟩
  | 80 => ⟨S_, .i32⟩
  | 81 => ⟨S16384, .i32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S_, .i32⟩
  | 91 => ⟨S_, .i32⟩
  | 92 => ⟨S16384, .i32⟩
  | 93 => ⟨S16384, .i32⟩
  | 94 => ⟨S16384x1024, .f32⟩
  | 95 => ⟨S_, .f32⟩
  | 96 => ⟨S16385x1024, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16385x1024, .f32⟩
  | 106 => ⟨S16384x1024, .f32⟩
  | 107 => ⟨S16x1024x1024, .f32⟩
  | 108 => ⟨S16x1024x2048, .f32⟩
  | 109 => ⟨S_, .f32⟩
  | 110 => ⟨S16x1024x2048, .f32⟩
  | 111 => ⟨S16x1024x2048, .f32⟩
  | 112 => ⟨S16x1024x2048, .f32⟩
  | 113 => ⟨S16x1024x1024, .f32⟩
  | 114 => ⟨S16384x1024, .f32⟩
  | 115 => ⟨S_, .f32⟩
  | 116 => ⟨S1x1024, .f32⟩
  | 117 => ⟨S16385x1024, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S_, .f32⟩
  | 4 => ⟨S8x2048x1024, .f32⟩
  | 5 => ⟨S8x2048x1024, .f32⟩
  | 6 => ⟨S_, .f32⟩
  | 7 => ⟨S8x2048x1024, .f32⟩
  | 8 => ⟨S8x2048x1024, .f32⟩
  | 9 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_call1_call0_c : Ref sig .tc := ⟨.hbm, 53, rfl⟩
abbrev main_call1_call0_v0 : Ref sig .tc := ⟨.hbm, 54, rfl⟩
abbrev main_v23 : Ref sig .tc := ⟨.hbm, 55, rfl⟩
abbrev main_v24 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_c_4 : Ref sig .tc := ⟨.hbm, 76, rfl⟩
abbrev main_call2_v14 : Ref sig .tc := ⟨.hbm, 77, rfl⟩
abbrev main_v25 : Ref sig .tc := ⟨.hbm, 78, rfl⟩
abbrev main_v26 : Ref sig .tc := ⟨.hbm, 79, rfl⟩
abbrev main_c_1 : Ref sig .tc := ⟨.hbm, 80, rfl⟩
abbrev main_v27 : Ref sig .tc := ⟨.hbm, 81, rfl⟩
abbrev main_v28 : Ref sig .tc := ⟨.hbm, 82, rfl⟩
abbrev main_c_2 : Ref sig .tc := ⟨.hbm, 83, rfl⟩
abbrev main_v29 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_c_4 : Ref sig .tc := ⟨.hbm, 90, rfl⟩
abbrev main_call3_v0 : Ref sig .tc := ⟨.hbm, 91, rfl⟩
abbrev main_call3_v1 : Ref sig .tc := ⟨.hbm, 92, rfl⟩
abbrev main_v34 : Ref sig .tc := ⟨.hbm, 93, rfl⟩
abbrev main_v35 : Ref sig .tc := ⟨.hbm, 94, rfl⟩
abbrev main_cst : Ref sig .tc := ⟨.hbm, 95, rfl⟩
abbrev main_v36 : Ref sig .tc := ⟨.hbm, 96, rfl⟩
abbrev main_c_5 : Ref sig .tc := ⟨.hbm, 97, rfl⟩
abbrev main_v37 : Ref sig .tc := ⟨.hbm, 98, rfl⟩
abbrev main_v38 : Ref sig .tc := ⟨.hbm, 99, rfl⟩
abbrev main_c_6 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_call4_cst : Ref sig .tc := ⟨.hbm, 109, rfl⟩
abbrev main_call4_v0 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_cst_7 : Ref sig .tc := ⟨.hbm, 115, rfl⟩
abbrev main_v51 : Ref sig .tc := ⟨.hbm, 116, rfl⟩
abbrev main_v52 : Ref sig .tc := ⟨.hbm, 117, rfl⟩
abbrev main_c_8 : Ref sig .tc := ⟨.hbm, 118, rfl⟩
abbrev main_v53 : Ref sig .tc := ⟨.hbm, 119, rfl⟩
abbrev main_v54 : Ref sig .tc := ⟨.hbm, 120, rfl⟩
abbrev main_c_9 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_cst_10 : Ref sig .tc := ⟨.hbm, 131, rfl⟩
abbrev main_v64 : Ref sig .tc := ⟨.hbm, 132, rfl⟩
abbrev main_v65 : Ref sig .tc := ⟨.hbm, 133, rfl⟩
abbrev main_cst_11 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  slices_S8x2048x1024_S8x2047x1024_0_0_0 : S8x2048x1024.Slices ![0, 0, 0] S8x2047x1024
  concatenates_S8x1x1024_S8x2047x1024_S8x2048x1024_d1 : Shape.Concatenates [S8x1x1024, S8x2047x1024] S8x2048x1024 1
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  bcast_S_S_ : S_.BroadcastsInDim S_ (![] : Fin 0 → Fin S_.rank)
  reduceWindows_S16384x16_S16384x16_w16384s1p16383_0_w1s1p0_0 : S16384x16.ReduceWindows (![16384, 1] : Fin 2 → Nat) ![1, 1] ![16383, 0] ![0, 0] S16384x16
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  shapeCasts_S8x2048x1024_S16384x1024 : S8x2048x1024.ShapeCasts S16384x1024
  bcast_S_S16385x1024 : S_.BroadcastsInDim S16385x1024 (![] : Fin 0 → Fin S16385x1024.rank)
  slices_S16385x1024_S16384x1024_0_0 : S16385x1024.Slices ![0, 0] S16384x1024
  shapeCasts_S16384x1024_S16x1024x1024 : S16384x1024.ShapeCasts S16x1024x1024
  bcast_S_S16x1024x2048 : S_.BroadcastsInDim S16x1024x2048 (![] : Fin 0 → Fin S16x1024x2048.rank)
  shapeCasts_S16x1024x1024_S16384x1024 : S16x1024x1024.ShapeCasts S16384x1024
  bcast_S_S1x1024 : S_.BroadcastsInDim S1x1024 (![] : Fin 0 → Fin S1x1024.rank)
  concatenates_S16384x1024_S1x1024_S16385x1024_d0 : Shape.Concatenates [S16384x1024, S1x1024] S16385x1024 0
  shapeCasts_S16384x1024_S8x2048x1024 : S16384x1024.ShapeCasts S8x2048x1024
  bcast_S_S8x2048x1024 : S_.BroadcastsInDim S8x2048x1024 (![] : Fin 0 → Fin S8x2048x1024.rank)
  gather_S16384x16_S16384x1x1_S16384x1_n_1_0_0_1_2_11_wf : GatherDims.WF S16384x16 S16384x1x1 S16384x1 [] [1] [0] [1] [0] 2 ![1, 1]
  scatter_S16385x1024_S16384x1_S16384x1024_1_0_0_1_wf : ScatterDims.WF S16385x1024 S16384x1 S16384x1024 [1] [0] [0] 1
  dot_S16x1024x1024_S16x1024x2048_S16x1024x2048_2_1_1_2_0_0_wf : DotDims.WF S16x1024x1024 S16x1024x2048 S16x1024x2048 [2] [1] [1] [2] [0] [0]
  dot_S16x1024x2048_S16x2048x1024_S16x1024x1024_2_1_1_2_0_0_wf : DotDims.WF S16x1024x2048 S16x2048x1024 S16x1024x1024 [2] [1] [1] [2] [0] [0]
  gather_S16385x1024_S16384x1_S16384x1024_1_0_n_n_0_1_11024_wf : GatherDims.WF S16385x1024 S16384x1 S16384x1024 [1] [0] [] [0] [] 1 ![1, 1024]
  dot_S8x2048x1024_S1024x1024_S8x2048x1024_2_1_01_0_n_n_wf : DotDims.WF S8x2048x1024 S1024x1024 S8x2048x1024 [2] [1] [0, 1] [0] [] []

variable [Facts₀]

def gather_S16384x16_S16384x1x1_S16384x1_n_1_0_0_1_2_11 : GatherDims S16384x16 S16384x1x1 S16384x1 where
  offsetDims := []
  collapsedSliceDims := [1]
  operandBatchingDims := [0]
  startIndicesBatchingDims := [0]
  startIndexMap := [1]
  indexVectorDim := 2
  sliceSizes := ![1, 1]
  wf := gather_S16384x16_S16384x1x1_S16384x1_n_1_0_0_1_2_11_wf
def scatter_S16385x1024_S16384x1_S16384x1024_1_0_0_1 : ScatterDims S16385x1024 S16384x1 S16384x1024 where
  updateWindowDims := [1]
  insertedWindowDims := [0]
  scatterDimsToOperandDims := [0]
  indexVectorDim := 1
  wf := scatter_S16385x1024_S16384x1_S16384x1024_1_0_0_1_wf
def dot_S16x1024x1024_S16x1024x2048_S16x1024x2048_2_1_1_2_0_0 : DotDims S16x1024x1024 S16x1024x2048 S16x1024x2048 where
  lhsContracting := [2]
  rhsContracting := [1]
  lhsNonContracting := [1]
  rhsNonContracting := [2]
  lhsBatch := [0]
  rhsBatch := [0]
  wf := dot_S16x1024x1024_S16x1024x2048_S16x1024x2048_2_1_1_2_0_0_wf
def dot_S16x1024x2048_S16x2048x1024_S16x1024x1024_2_1_1_2_0_0 : DotDims S16x1024x2048 S16x2048x1024 S16x1024x1024 where
  lhsContracting := [2]
  rhsContracting := [1]
  lhsNonContracting := [1]
  rhsNonContracting := [2]
  lhsBatch := [0]
  rhsBatch := [0]
  wf := dot_S16x1024x2048_S16x2048x1024_S16x1024x1024_2_1_1_2_0_0_wf
def gather_S16385x1024_S16384x1_S16384x1024_1_0_n_n_0_1_11024 : GatherDims S16385x1024 S16384x1 S16384x1024 where
  offsetDims := [1]
  collapsedSliceDims := [0]
  operandBatchingDims := []
  startIndicesBatchingDims := []
  startIndexMap := [0]
  indexVectorDim := 1
  sliceSizes := ![1, 1024]
  wf := gather_S16385x1024_S16384x1_S16384x1024_1_0_n_n_0_1_11024_wf
def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf

class Facts : Prop extends Facts₀ where

variable [Facts]
-- ==== Proof.KRun.lean ====
/-
  The idealized kernel program's run with its result NAMED.

  The program is nine stretches of host operations, the first pallas_call, a stretch, the second pallas_call and a last
  stretch. Its run is the chain of these segments; the buffer contents at each segment boundary are a fold from the
  launch memory (the contents after a stretch: the stretch's operations applied in order; after a region: its arrays
  at what the grid's write-backs leave, everything else untouched). Every weakly fair execution therefore ends with
  EVERY unscoped buffer at the last boundary's contents; read at the result buffer this names the program's result,
  and read at an argument it gives the argument back.
-/
import proofs.«162617_j10591389352191_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the eight argument arrays as launched. -/
theorem run_named : θ_run defs (onTc (τ := τ) (main (F := F))) ⟨m, fun _ => 0, ρ⟩ (fun r => ∀ c : Dev nD,
      r.2.mem ((c.tc : Thread nD τ).loc main_v70) = W13 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v70 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.KRun

end
-- ==== Proof.KRead.lean ====
/-
  The idealized kernel program's host stretches, read one named buffer at a time.

  Between the routing prefix and the first pallas_call the program builds the experts' input: the slot table
  (token numbers scattered over the sentinel 16384), the token matrix extended by a zero row, and the gather of
  its rows through the table. Between the two pallas_calls it gathers the experts' output rows, extended by a zero row,
  back to token order through the slot indices, and flattens the receptance input. After the second it restores the
  batch shape. Each stretch's results are stated here as functions of the buffers the stretch starts from.
-/
import proofs.«162617_j10591389352191_2_alg».proof.Proof.Gen.KernelIdeal.Frame

set_option maxRecDepth 16384

noncomputable section

namespace Cert.KernelIdeal.KRead

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]

/-- Rewrites each remaining operation result at a named buffer to the operation's function of its operands. -/
local macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-- A slot vector as gather / scatter start indices: a negative entry wrapped once by 16385, then one column. -/
def idxCol (s : IVec S16384 32) : IVec S16384x1 32 :=
  broadcastInDim S16384x1 ![0] bcast_S16384_S16384x1_0
    (select (cmpi .slt s (broadcastInDim S16384 ![] bcast_S_S16384 (constantI S_ 32 0#32)))
      (addi s (broadcastInDim S16384 ![] bcast_S_S16384 (constantI S_ 32 16385#32))) s)

/-- The slot table: token numbers scattered to their slots over the sentinel 16384, the trash slot cut off. -/
def slotTable (s : IVec S16384 32) : IVec S16384 32 :=
  extractStridedSlice S16384 ![0]
    (Host.scatter scatter_S16385_S16384x1_S16384_n_0_0_1 (fun _ b => b)
      (broadcastInDim S16385 ![] bcast_S_S16385 (constantI S_ 32 16384#32)) (idxCol s) (iotaInDim S16384 32 0))
    slices_S16385_S16384_0

/-- Rows of a [16384, 1024] matrix extended by one zero row, gathered through start indices. -/
def gatherPadded (x : FVec F S16384x1024 .bf16) (i : IVec S16384x1 32) : FVec F S16384x1024 .bf16 :=
  Host.gather gather_S16385x1024_S16384x1_S16384x1024_1_0_n_n_0_1_11024
    (concatenate S16385x1024 0 [⟨S16384x1024, x⟩, ⟨S1x1024, broadcastInDim S1x1024 ![] bcast_S_S1x1024 (constant S_ .bf16 0x0000#16)⟩]
      concatenates_S16384x1024_S1x1024_S16385x1024_d0) i

/-- The experts' input from the slot vector and the mixed tokens. -/
def dispatchK (s : IVec S16384 32) (xk : FVec F S8x2048x1024 .f32) : FVec F S16x1024x1024 .bf16 :=
  shapeCast S16x1024x1024
    (gatherPadded (truncf .bf16 (shapeCast S16384x1024 xk shapeCasts_S8x2048x1024_S16384x1024) bitsLt_bf16_f32) (idxCol (slotTable s)))
    shapeCasts_S16384x1024_S16x1024x1024

/-- The experts' output rows back in token order. -/
def combineK (s : IVec S16384 32) (eo : FVec F S16x1024x1024 .bf16) : FVec F S16384x1024 .bf16 :=
  gatherPadded (shapeCast S16384x1024 eo shapeCasts_S16x1024x1024_S16384x1024) (idxCol s)

set_option maxHeartbeats 4000000 in
theorem read56 (X : Valuation τ sig (Elt F)) :
    StableHlo.after hostOps0_8 X (Proc.devRef .tc main_v56) = dispatchK (X (Proc.devRef .tc main_v34)) (X (Proc.devRef .tc main_v7)) := by
  after_results_simp
  results_rw
  rfl

set_option maxHeartbeats 4000000 in
theorem keep8_v34 (X : Valuation τ sig (Elt F)) : StableHlo.after hostOps0_8 X (Proc.devRef .tc main_v34) = X (Proc.devRef .tc main_v34) := by
  after_results_simp
set_option maxHeartbeats 4000000 in
theorem keep8_v11 (X : Valuation τ sig (Elt F)) : StableHlo.after hostOps0_8 X (Proc.devRef .tc main_v11) = X (Proc.devRef .tc main_v11) := by
  after_results_simp
set_option maxHeartbeats 4000000 in
theorem keep8_arg6 (X : Valuation τ sig (Elt F)) : StableHlo.after hostOps0_8 X (Proc.devRef .tc main_arg6) = X (Proc.devRef .tc main_arg6) := by
  after_results_simp
set_option maxHeartbeats 4000000 in
theorem keep8_arg7 (X : Valuation τ sig (Elt F)) : StableHlo.after hostOps0_8 X (Proc.devRef .tc main_arg7) = X (Proc.devRef .tc main_arg7) := by
  after_results_simp

set_option maxHeartbeats 4000000 in
theorem read67 (X : Valuation τ sig (Elt F)) :
    StableHlo.after hostOps1 X (Proc.devRef .tc main_v67) = combineK (X (Proc.devRef .tc main_v34)) (X (Proc.devRef .tc main_v57)) := by
  after_results
  rfl

set_option maxHeartbeats 4000000 in
theorem read68 (X : Valuation τ sig (Elt F)) :
    StableHlo.after hostOps1 X (Proc.devRef .tc main_v68)
      = shapeCast S16384x1024 (X (Proc.devRef .tc main_v11)) shapeCasts_S8x2048x1024_S16384x1024 := by
  after_results
  rfl

set_option maxHeartbeats 4000000 in
theorem keep1_arg5 (X : Valuation τ sig (Elt F)) : StableHlo.after hostOps1 X (Proc.devRef .tc main_arg5) = X (Proc.devRef .tc main_arg5) := by
  after_results_simp
set_option maxHeartbeats 4000000 in
theorem keep1_arg6 (X : Valuation τ sig (Elt F)) : StableHlo.after hostOps1 X (Proc.devRef .tc main_arg6) = X (Proc.devRef .tc main_arg6) := by
  after_results_simp
set_option maxHeartbeats 4000000 in
theorem keep1_arg7 (X : Valuation τ sig (Elt F)) : StableHlo.after hostOps1 X (Proc.devRef .tc main_arg7) = X (Proc.devRef .tc main_arg7) := by
  after_results_simp

theorem read70 (X : Valuation τ sig (Elt F)) :
    StableHlo.after hostOps2 X (Proc.devRef .tc main_v70)
      = shapeCast S8x2048x1024 (X (Proc.devRef .tc main_v69)) shapeCasts_S16384x1024_S8x2048x1024 := by
  after_results
  rfl
theorem keep2_arg5 (X : Valuation τ sig (Elt F)) : StableHlo.after hostOps2 X (Proc.devRef .tc main_arg5) = X (Proc.devRef .tc main_arg5) := by
  after_results
theorem keep2_arg6 (X : Valuation τ sig (Elt F)) : StableHlo.after hostOps2 X (Proc.devRef .tc main_arg6) = X (Proc.devRef .tc main_arg6) := by
  after_results
theorem keep2_arg7 (X : Valuation τ sig (Elt F)) : StableHlo.after hostOps2 X (Proc.devRef .tc main_arg7) = X (Proc.devRef .tc main_arg7) := by
  after_results

end Cert.KernelIdeal.KRead

end
-- ==== Proof.ReceptSpec.lean ====
/-
  The receptance stage as one function of its three arrays, index by index.

  For a token row `n` and an output channel `e`, the gate is the logistic function of the inner product of row `n`
  of the receptance input with row `e` of the receptance weight (the weight is applied transposed), and the result
  is the gate times the combined expert output at the same index:

      recept xr wr y (n, e) = σ(∑ d, xr (n, d) · wr (e, d)) · y (n, e),     σ(x) = 1 / (1 + exp (−x)).

  Everything is over the extended reals; the sum is a plain finite sum over the 1024 channels.
-/
import Idealize.ShloMosaic.PureOps.Ideal
import Idealize.ShloMosaic.Lib.ValueIdx

noncomputable section

open scoped BigOperators

namespace Cert.KernelIdeal.ReceptValue

open Idealize.ShloMosaic Idealize.ShloMosaic.ValueIdx

/-- The gated output: `σ(xr · wrᵀ) ⊙ y` on a [16384, 1024] array of rows, with a [1024, 1024] weight. -/
def recept (xr : (⟨2, ![16384, 1024]⟩ : Shape).Idx → EReal) (wr : (⟨2, ![1024, 1024]⟩ : Shape).Idx → EReal)
    (y : (⟨2, ![16384, 1024]⟩ : Shape).Idx → EReal) : (⟨2, ![16384, 1024]⟩ : Shape).Idx → EReal :=
  fun i => Ideal.logistic (∑ d : Fin 1024, xr (ix2 (i 0) d) * wr (ix2 (i 1) d)) * y i

/-- The same at an index given by its coordinates. -/
theorem recept_ix2 (xr : (⟨2, ![16384, 1024]⟩ : Shape).Idx → EReal) (wr : (⟨2, ![1024, 1024]⟩ : Shape).Idx → EReal)
    (y : (⟨2, ![16384, 1024]⟩ : Shape).Idx → EReal) (n : Fin 16384) (e : Fin 1024) :
    recept xr wr y (ix2 n e) = Ideal.logistic (∑ d : Fin 1024, xr (ix2 n d) * wr (ix2 e d)) * y (ix2 n e) := rfl

end Cert.KernelIdeal.ReceptValue

end
-- ==== Proof.ReceptPayload.lean ====
/-
  The body of the receptance stage at one element of its [1024, 1024] block.

  The body narrows the two f32 operands to bf16, multiplies the row block of the receptance input by the TRANSPOSED
  weight on the matrix unit into a zero accumulator, applies the logistic function, widens the bf16 block of combined
  expert outputs to f32 and multiplies.  Over the extended reals the narrowing and the widening are the identity and
  the product into zero is the plain inner product, so element (p, q) of what the body stores is

      σ(∑ d, x (p, d) · w (q, d)) · y (p, q).

  The one non-pointwise step is the matrix product: its dimension numbers contract axis 1 of BOTH operands, so the
  left operand is read at (row of the output, d) and the right operand at (column of the output, d).
-/
import proofs.«162617_j10591389352191_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.ReceptValue

open Cert.KernelIdeal Cert.KernelIdeal.Gen Idealize.ShloMosaic Idealize.ShloMosaic.ValueIdx

/-- The product's dimension numbers: axis 1 of each operand contracted, axis 0 of each kept. -/
abbrev dotT : DotDims S1024x1024 S1024x1024 S1024x1024 := dot_S1024x1024_S1024x1024_S1024x1024_1_1_0_0_n_n

/-! ## Where the product reads its operands -/

/-- The left operand's row is the output's row. -/
theorem lhs_row (i : S1024x1024.Idx) (k : dotT.contr.Idx) : (dotT.lhsIdx i k 0).val = (i 0).val := by
  unfold DotDims.lhsIdx
  rw [dif_neg (show ¬(0 : Fin S1024x1024.rank) ∈ dotT.lhsBatch by decide),
    dif_pos (show (0 : Fin S1024x1024.rank) ∈ dotT.lhsNonContracting by decide)]
  rfl

/-- The left operand's column is the contraction position. -/
theorem lhs_col (i : S1024x1024.Idx) (k : dotT.contr.Idx) : (dotT.lhsIdx i k 1).val = (k ⟨0, by decide⟩).val :=
  dotT.lhsIdx_val_of_single rfl i k

/-- The right operand's row is the output's COLUMN: the weight is applied transposed. -/
theorem rhs_row (i : S1024x1024.Idx) (k : dotT.contr.Idx) : (dotT.rhsIdx i k 0).val = (i 1).val := by
  unfold DotDims.rhsIdx
  rw [dif_neg (show ¬(0 : Fin S1024x1024.rank) ∈ dotT.rhsBatch by decide),
    dif_pos (show (0 : Fin S1024x1024.rank) ∈ dotT.rhsNonContracting by decide)]
  rfl

/-- The right operand's column is the contraction position. -/
theorem rhs_col (i : S1024x1024.Idx) (k : dotT.contr.Idx) : (dotT.rhsIdx i k 1).val = (k ⟨0, by decide⟩).val :=
  dotT.rhsIdx_val_of_single rfl i k

/-- The product into a zero accumulator at (p, q): the inner product of row p of the left operand with row q of the
    right operand. -/
theorem matmulT_at (a b : FVec Ideal S1024x1024 .bf16) (p q : Fin 1024) :
    FloatOps.matmul dotT none a b (constant (F := Ideal) S1024x1024 .f32 0x00000000#32) (ix2 p q)
      = ∑ d : Fin 1024, a (ix2 p d) * b (ix2 q d) := by
  rw [Ideal.matmul_constant_zero_apply, ← Equiv.sum_comp (contrEquiv1 dotT 1024 rfl rfl).symm]
  refine Finset.sum_congr rfl fun d _ => ?_
  have hd := contrEquiv1_symm_val dotT 1024 rfl rfl d
  have el : dotT.lhsIdx (ix2 p q) ((contrEquiv1 dotT 1024 rfl rfl).symm d) = ix2 p d := funext fun a => Fin.ext (by
    match a with
    | ⟨0, _⟩ => exact lhs_row _ _
    | ⟨1, _⟩ => exact (lhs_col _ _).trans hd)
  have er : dotT.rhsIdx (ix2 p q) ((contrEquiv1 dotT 1024 rfl rfl).symm d) = ix2 q d := funext fun a => Fin.ext (by
    match a with
    | ⟨0, _⟩ => exact rhs_row _ _
    | ⟨1, _⟩ => exact (rhs_col _ _).trans hd)
  rw [el, er]

/-! ## The body's stored value -/

/-- The body's value as a function of its three loaded blocks: the two casts between equal shapes drop, the format
    changes are the identity, and what is left is logistic of the product, times the third block. -/
theorem pay_eq (x0 x1 : Vec Ideal S1024x1024 .f32) (x2 : Vec Ideal S1024x1024 .bf16) :
    k1_pay1 (F := Ideal) x0 x1 x2 = fun j : S1024x1024.Idx =>
      Ideal.logistic (FloatOps.matmul (φ₁ := .bf16) (φ₂ := .bf16) dotT none x0 x1
        (constant (F := Ideal) S1024x1024 .f32 0x00000000#32) j) * x2 j := by
  unfold k1_pay1
  simp only [shapeCast_self]
  rfl

/-- Element (p, q) of what the body stores. -/
theorem pay_at (x0 x1 : Vec Ideal S1024x1024 .f32) (x2 : Vec Ideal S1024x1024 .bf16) (p q : Fin 1024) :
    k1_pay1 (F := Ideal) x0 x1 x2 (ix2 p q)
      = Ideal.logistic (∑ d : Fin 1024, x0 (ix2 p d) * x1 (ix2 q d)) * x2 (ix2 p q) := by
  rw [pay_eq]
  show Ideal.logistic (FloatOps.matmul (φ₁ := .bf16) (φ₂ := .bf16) dotT none x0 x1
        (constant (F := Ideal) S1024x1024 .f32 0x00000000#32) (ix2 p q)) * x2 (ix2 p q) = _
  rw [matmulT_at]

end Cert.KernelIdeal.ReceptValue

end
-- ==== Proof.ReceptBlocks.lean ====
/-
  From the blocks of the receptance stage to its whole output array.

  The stage runs over 16 grid points.  At point `t` it is handed rows `1024·t … 1024·t + 1023` of the receptance
  input and of the combined expert output (all 1024 columns of each), the WHOLE [1024, 1024] receptance weight, and
  it writes rows `1024·t … 1024·t + 1023` of the output.  Row `n` of the output is therefore written exactly once, by
  the point `n / 1024`, and the value written at (n, e) depends only on row `n` of the input, row `e` of the
  weight and element (n, e) of the expert output: it is `recept` at (n, e).  Since the sixteen row blocks cover the
  array, the array after the stage is `recept` of the three arrays the stage found, whatever those are.
-/
import proofs.«162617_j10591389352191_2_alg».proof.Proof.Gen.KernelIdeal.Frame
import proofs.«162617_j10591389352191_2_alg».proof.Proof.ReceptSpec
import proofs.«162617_j10591389352191_2_alg».proof.Proof.ReceptPayload
import Idealize.ShloMosaic.Lib.Pipeline.Value

noncomputable section

open scoped BigOperators

namespace Cert.KernelIdeal.ReceptValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses start at the origin of their buffers. -/
theorem zeros2 : (![0, 0] : Fin 2 → Nat) = fun _ => 0 := funext fun a => by fin_cases a <;> rfl

/-- Which block each window is on at point `t`: the row windows (input, expert output, result) on row block `t`,
    column block 0; the weight window always on its one block. There are 16 points. -/
theorem index_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ t.val < 16 :=
  (by decide +kernel : ∀ t : Fin grid1.N, _)

/-! ## The three input blocks, read where the output's row says -/

/-- Row `p` of the input block at point `t` is row `1024·t + p` of the input array. -/
theorem xr_block (c : Dev nD) (t : Fin cfg1.N) (p d : Fin 1024) (n : Fin 16384) (hn : n.val = t.val * 1024 + p.val) :
    (iblk1 V c 0 t : Vec Ideal S1024x1024 .f32) (ix2 p d)
      = (V c (Pipeline.arrRef spec1 0) : S16384x1024.Idx → EReal) (ix2 n d) := by
  obtain ⟨e0, e1, -⟩ := index_facts t
  show V c (Pipeline.arrRef spec1 0) (((cfg1.win 0).blk t).view.emb (ix2 p d)) = V c (Pipeline.arrRef spec1 0) (ix2 n d)
  refine congrArg _ ?_
  funext a; apply Fin.ext
  match a with
  | ⟨0, _⟩ => show win1_0.index t (0 : Fin 2) * 1024 + 1 * p.val = n.val; omega
  | ⟨1, _⟩ => show win1_0.index t (1 : Fin 2) * 1024 + 1 * d.val = d.val; omega

/-- The weight block at every point is the whole weight. -/
theorem wr_block (c : Dev nD) (t : Fin cfg1.N) (q d : Fin 1024) :
    (iblk1 V c 1 t : Vec Ideal S1024x1024 .f32) (ix2 q d)
      = (V c (Pipeline.arrRef spec1 1) : S1024x1024.Idx → EReal) (ix2 q d) := by
  obtain ⟨-, -, e2, e3, -⟩ := index_facts t
  show V c (Pipeline.arrRef spec1 1) (((cfg1.win 1).blk t).view.emb (ix2 q d)) = V c (Pipeline.arrRef spec1 1) (ix2 q d)
  refine congrArg _ ?_
  funext a; apply Fin.ext
  match a with
  | ⟨0, _⟩ => show win1_1.index t (0 : Fin 2) * 1024 + 1 * q.val = q.val; omega
  | ⟨1, _⟩ => show win1_1.index t (1 : Fin 2) * 1024 + 1 * d.val = d.val; omega

/-- Row `p` of the expert-output block at point `t` is row `1024·t + p` of that array. -/
theorem y_block (c : Dev nD) (t : Fin cfg1.N) (p q : Fin 1024) (n : Fin 16384) (hn : n.val = t.val * 1024 + p.val) :
    (iblk1 V c 2 t : Vec Ideal S1024x1024 .bf16) (ix2 p q)
      = (V c (Pipeline.arrRef spec1 2) : S16384x1024.Idx → EReal) (ix2 n q) := by
  obtain ⟨-, -, -, -, e4, e5, -⟩ := index_facts t
  show V c (Pipeline.arrRef spec1 2) (((cfg1.win 2).blk t).view.emb (ix2 p q)) = V c (Pipeline.arrRef spec1 2) (ix2 n q)
  refine congrArg _ ?_
  funext a; apply Fin.ext
  match a with
  | ⟨0, _⟩ => show win1_2.index t (0 : Fin 2) * 1024 + 1 * p.val = n.val; omega
  | ⟨1, _⟩ => show win1_2.index t (1 : Fin 2) * 1024 + 1 * q.val = q.val; omega

/-! ## One element of one block -/

/-- If the three blocks hold row `n` of the input (in block row `p`), the weight, and row `n` of the expert
    output, the body's value at (p, q) is `recept` at (n, q). -/
theorem point_eq (X0 : S16384x1024.Idx → EReal) (X1 : S1024x1024.Idx → EReal) (X2 : S16384x1024.Idx → EReal)
    (x0 x1 : Vec Ideal S1024x1024 .f32) (x2 : Vec Ideal S1024x1024 .bf16) (p q : Fin 1024) (n : Fin 16384)
    (h0 : ∀ d : Fin 1024, x0 (ix2 p d) = X0 (ix2 n d)) (h1 : ∀ d : Fin 1024, x1 (ix2 q d) = X1 (ix2 q d))
    (h2 : x2 (ix2 p q) = X2 (ix2 n q)) :
    k1_pay1 (F := Ideal) x0 x1 x2 (ix2 p q) = recept X0 X1 X2 (ix2 n q) := by
  rw [pay_at, recept_ix2, h2]
  refine congrArg (fun s => Ideal.logistic s * X2 (ix2 n q)) ?_
  exact Finset.sum_congr rfl fun d _ => by rw [h0 d, h1 d]

/-! ## What a point writes back, and the cover -/

/-- What point `t` writes back is block `t` of `recept` of the arrays the stage found. -/
theorem flushed_eq (c : Dev nD) (t : Fin cfg1.N) :
    (dat1 (F := Ideal) V c).flushed 3 t = ((cfg1.win 3).blk t).view.read (Elt Ideal)
      (recept (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeros2]
  simp only [View.ld_unit_zero (S := S1024x1024) zeros2]
  obtain ⟨-, -, -, -, -, -, e6, e7, ht⟩ := index_facts t
  funext j
  have hj0 : (j 0).val < 1024 := (j 0).isLt
  have hj1 : (j 1).val < 1024 := (j 1).isLt
  have hn : t.val * 1024 + (j 0).val < 16384 := by omega
  have hx : (cfg1.win 3).xinj (grid1.coords t) j = ix2 (⟨(j 0).val, hj0⟩ : Fin 1024) (⟨(j 1).val, hj1⟩ : Fin 1024) :=
    funext fun a => by match a with | ⟨0, _⟩ => rfl | ⟨1, _⟩ => rfl
  show k1_pay1 (F := Ideal) (iblk1 V c 0 t) (iblk1 V c 1 t) (iblk1 V c 2 t) ((cfg1.win 3).xinj (grid1.coords t) j)
    = recept (V c (Pipeline.arrRef spec1 0)) (V c (Pipeline.arrRef spec1 1)) (V c (Pipeline.arrRef spec1 2))
        (((cfg1.win 3).blk t).view.emb j)
  refine (congrArg (k1_pay1 (F := Ideal) (iblk1 V c 0 t) (iblk1 V c 1 t) (iblk1 V c 2 t)) hx).trans ?_
  refine (point_eq (V c (Pipeline.arrRef spec1 0)) (V c (Pipeline.arrRef spec1 1)) (V c (Pipeline.arrRef spec1 2))
    (iblk1 V c 0 t) (iblk1 V c 1 t) (iblk1 V c 2 t) ⟨(j 0).val, hj0⟩ ⟨(j 1).val, hj1⟩ ⟨t.val * 1024 + (j 0).val, hn⟩
    (fun d => xr_block V c t ⟨(j 0).val, hj0⟩ d ⟨t.val * 1024 + (j 0).val, hn⟩ rfl)
    (fun d => wr_block V c t ⟨(j 1).val, hj1⟩ d)
    (y_block V c t ⟨(j 0).val, hj0⟩ ⟨(j 1).val, hj1⟩ ⟨t.val * 1024 + (j 0).val, hn⟩ rfl)).trans ?_
  refine congrArg (recept (V c (Pipeline.arrRef spec1 0)) (V c (Pipeline.arrRef spec1 1)) (V c (Pipeline.arrRef spec1 2))) ?_
  funext a; apply Fin.ext
  match a with
  | ⟨0, _⟩ => show t.val * 1024 + (j 0).val = win1_3.index t (0 : Fin 2) * 1024 + 1 * (j 0).val; omega
  | ⟨1, _⟩ => show (j 1).val = win1_3.index t (1 : Fin 2) * 1024 + 1 * (j 1).val; omega

/-- An index of the output array is in point `t`'s block iff each coordinate is in the block's range on its axis. -/
theorem mem_blk (t : Fin cfg1.N) (i : S16384x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v69).slice (win1_3.rect t)).set ↔ _
  rw [View.set_slice_whole, Rect.mem_set_unit]
  exact Iff.rfl

/-- Every index of the output array is written: row `n` by the point `n / 1024`. -/
theorem cover (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  have hN : grid1.N = 16 := N_1
  obtain ⟨t, ht⟩ : ∃ t : Fin cfg1.N, t.val = (i 0).val / 1024 :=
    ⟨⟨(i 0).val / 1024, by show (i 0).val / 1024 < grid1.N; rw [hN]; omega⟩, rfl⟩
  obtain ⟨-, -, -, -, -, -, e6, e7, -⟩ := index_facts t
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-! ## The array after the stage -/

/-- THE OUTPUT ARRAY after the stage, for arbitrary contents `V` at its entry: `recept` of the receptance input,
    the receptance weight and the combined expert output as the stage found them. -/
theorem final1 (c : Dev nD) :
    (dat1 (F := Ideal) V c).arrAt 3 cfg1.N
      = recept (V c (Pipeline.arrRef spec1 0)) (V c (Pipeline.arrRef spec1 1)) (V c (Pipeline.arrRef spec1 2)) :=
  (dat1 (F := Ideal) V c).arrAt_eq_of_cover 3 _ (fun t _ => flushed_eq V c t) cover

end Cert.KernelIdeal.ReceptValue

end
-- ==== Proof.FfnSpec.lean ====
/-
  The per-expert feed-forward value, as ONE function of the three arrays it reads, index by index.

  For expert `e`, row `r` and output column `d`:
    hidden e r f = max (∑ k, x[e, r, k] · wk[e, k, f]) 0            (the first product, clamped below at zero)
    ffn   [e, r, d] = ∑ f, (hidden e r f · hidden e r f) · wv[e, f, d]   (its square against the second weight)
  over the extended reals. Nothing here depends on a program: the shapes are literal.
-/
import Idealize.ShloMosaic.PureOps.Ideal
import Idealize.ShloMosaic.Lib.ValueIdx

noncomputable section

open scoped BigOperators

namespace Cert.KernelIdeal.FfnValue

open Idealize.ShloMosaic Idealize.ShloMosaic.ValueIdx

/-- The clamped first product: row `r` of expert `e`'s input against column `f` of its key weight, below by zero. -/
def hidden (x : (⟨3, ![16, 1024, 1024]⟩ : Shape).Idx → EReal) (wk : (⟨3, ![16, 1024, 2048]⟩ : Shape).Idx → EReal)
    (e : Fin 16) (r : Fin 1024) (f : Fin 2048) : EReal :=
  max (∑ k : Fin 1024, x (ix3 e r k) * wk (ix3 e k f)) 0

/-- One entry of the result: the squared clamped product summed against column `d` of expert `e`'s value weight. -/
def ffnAt (x : (⟨3, ![16, 1024, 1024]⟩ : Shape).Idx → EReal) (wk : (⟨3, ![16, 1024, 2048]⟩ : Shape).Idx → EReal)
    (wv : (⟨3, ![16, 2048, 1024]⟩ : Shape).Idx → EReal) (e : Fin 16) (r : Fin 1024) (d : Fin 1024) : EReal :=
  ∑ f : Fin 2048, (hidden x wk e r f * hidden x wk e r f) * wv (ix3 e f d)

/-- The whole result array. -/
def ffn (x : (⟨3, ![16, 1024, 1024]⟩ : Shape).Idx → EReal) (wk : (⟨3, ![16, 1024, 2048]⟩ : Shape).Idx → EReal)
    (wv : (⟨3, ![16, 2048, 1024]⟩ : Shape).Idx → EReal) : (⟨3, ![16, 1024, 1024]⟩ : Shape).Idx → EReal :=
  fun i => ffnAt x wk wv (i 0) (i 1) (i 2)

/-- The result at an index given by its coordinates. -/
theorem ffn_ix3 (x : (⟨3, ![16, 1024, 1024]⟩ : Shape).Idx → EReal) (wk : (⟨3, ![16, 1024, 2048]⟩ : Shape).Idx → EReal)
    (wv : (⟨3, ![16, 2048, 1024]⟩ : Shape).Idx → EReal) (e : Fin 16) (r : Fin 1024) (d : Fin 1024) :
    ffn x wk wv (ix3 e r d) = ffnAt x wk wv e r d := rfl

/-- Written out: a sum over the 2048 hidden columns of the squared clamped sum over the 1024 input columns. -/
theorem ffn_apply (x : (⟨3, ![16, 1024, 1024]⟩ : Shape).Idx → EReal) (wk : (⟨3, ![16, 1024, 2048]⟩ : Shape).Idx → EReal)
    (wv : (⟨3, ![16, 2048, 1024]⟩ : Shape).Idx → EReal) (e : Fin 16) (r : Fin 1024) (d : Fin 1024) :
    ffn x wk wv (ix3 e r d)
      = ∑ f : Fin 2048, (max (∑ k : Fin 1024, x (ix3 e r k) * wk (ix3 e k f)) 0
          * max (∑ k : Fin 1024, x (ix3 e r k) * wk (ix3 e k f)) 0) * wv (ix3 e f d) := rfl

end Cert.KernelIdeal.FfnValue

end
-- ==== Proof.KOut.lean ====
/-
  The idealized kernel program's result as one term of its prefix values and its weight arguments.

  Reading the boundaries backwards from the result: the last stretch reshapes the second region's output; the second
  region's output is the gate function of the flattened second mix, the receptance matrix and the combined rows; the
  combined rows are the first region's output gathered through the slots; the first region's output is the experts'
  feed-forward function of the dispatched rows and the two weight arrays; and no stretch or region before them writes an
  argument, the slots or the two mixes.
-/
import proofs.«162617_j10591389352191_2_alg».proof.Proof.KRead
import proofs.«162617_j10591389352191_2_alg».proof.Proof.ReceptBlocks
import proofs.«162617_j10591389352191_2_alg».proof.Proof.FfnSpec

set_option maxRecDepth 16384

noncomputable section

namespace Cert.KernelIdeal.KOut

open Cert.KernelIdeal Cert.KernelIdeal.Gen Cert.KernelIdeal.KRead
open Cert.KernelIdeal.ReceptValue Cert.KernelIdeal.FfnValue
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg)

/-- The weight arguments are still the launch contents at every boundary that reads them. -/
theorem W11_arg5 (c : Dev nD) : W11 m ρ c (Proc.devRef .tc main_arg5) = m ((c : Thread nD τ).loc main_arg5) :=
  ((keep2_arg5 (W12 m ρ c)).trans ((W12_arr m ρ c 1).trans (((dat1 (V11 m ρ) c).arrAt_in 1 rfl _).trans (A_eq1 (V11 m ρ) c 1)))).symm.trans
    (W13_main_arg5 m ρ c)
theorem W9_arg6 (c : Dev nD) : W9 m ρ c (Proc.devRef .tc main_arg6) = m ((c : Thread nD τ).loc main_arg6) :=
  ((((keep2_arg6 (W12 m ρ c)).trans (W12_of_ne m ρ c main_arg6 (by decide))).trans (keep1_arg6 (W10 m ρ c))).trans
    ((W10_arr m ρ c 1).trans (((dat0 (V9 m ρ) c).arrAt_in 1 rfl _).trans (A_eq0 (V9 m ρ) c 1)))).symm.trans (W13_main_arg6 m ρ c)
theorem W9_arg7 (c : Dev nD) : W9 m ρ c (Proc.devRef .tc main_arg7) = m ((c : Thread nD τ).loc main_arg7) :=
  ((((keep2_arg7 (W12 m ρ c)).trans (W12_of_ne m ρ c main_arg7 (by decide))).trans (keep1_arg7 (W10 m ρ c))).trans
    ((W10_arr m ρ c 2).trans (((dat0 (V9 m ρ) c).arrAt_in 2 rfl _).trans (A_eq0 (V9 m ρ) c 2)))).symm.trans (W13_main_arg7 m ρ c)

/-- THE RESULT, given the first region's value (`hffn`). -/
theorem out_eq
    (hffn : ∀ (V : (c : Dev nD) → (b : Ref sig .tc) → Buf (Elt Ideal) ((c : Thread nD τ).loc b)) (c : Dev nD),
      (dat0 (F := Ideal) V c).arrAt 3 cfg0.N
        = ffn (V c (Pipeline.arrRef spec0 0)) (V c (Pipeline.arrRef spec0 1)) (V c (Pipeline.arrRef spec0 2)))
    (c : Dev nD) :
    W13 m ρ c (Proc.devRef .tc main_v70)
      = shapeCast S8x2048x1024
          (recept (shapeCast S16384x1024 (W8 m ρ c (Proc.devRef .tc main_v11)) shapeCasts_S8x2048x1024_S16384x1024)
            (m ((c : Thread nD τ).loc main_arg5))
            (combineK (F := Ideal) (W8 m ρ c (Proc.devRef .tc main_v34))
              (ffn (dispatchK (F := Ideal) (W8 m ρ c (Proc.devRef .tc main_v34)) (W8 m ρ c (Proc.devRef .tc main_v7)))
                (m ((c : Thread nD τ).loc main_arg6)) (m ((c : Thread nD τ).loc main_arg7)))))
          shapeCasts_S16384x1024_S8x2048x1024 := by
  have e70 : W13 m ρ c (Proc.devRef .tc main_v70)
      = shapeCast S8x2048x1024 (W12 m ρ c (Proc.devRef .tc main_v69)) shapeCasts_S16384x1024_S8x2048x1024 := read70 (W12 m ρ c)
  have e69 : W12 m ρ c (Proc.devRef .tc main_v69) = (dat1 (V11 m ρ) c).arrAt 3 cfg1.N := W12_arr m ρ c 3
  have e1 := final1 (V11 m ρ) c
  have e68 : V11 m ρ c (Pipeline.arrRef spec1 0)
      = shapeCast S16384x1024 (W10 m ρ c (Proc.devRef .tc main_v11)) shapeCasts_S8x2048x1024_S16384x1024 := read68 (W10 m ρ c)
  have e11 : W10 m ρ c (Proc.devRef .tc main_v11) = W8 m ρ c (Proc.devRef .tc main_v11) :=
    (W10_of_ne m ρ c main_v11 (by decide)).trans (keep8_v11 (W8 m ρ c))
  have e5 : V11 m ρ c (Pipeline.arrRef spec1 1) = m ((c : Thread nD τ).loc main_arg5) := W11_arg5 m ρ c
  have e67 : V11 m ρ c (Pipeline.arrRef spec1 2)
      = combineK (F := Ideal) (W10 m ρ c (Proc.devRef .tc main_v34)) (W10 m ρ c (Proc.devRef .tc main_v57)) := read67 (W10 m ρ c)
  have e34 : W10 m ρ c (Proc.devRef .tc main_v34) = W8 m ρ c (Proc.devRef .tc main_v34) :=
    (W10_of_ne m ρ c main_v34 (by decide)).trans (keep8_v34 (W8 m ρ c))
  have e57 : W10 m ρ c (Proc.devRef .tc main_v57) = (dat0 (V9 m ρ) c).arrAt 3 cfg0.N := W10_arr m ρ c 3
  have e0 := hffn (V9 m ρ) c
  have e56 : V9 m ρ c (Pipeline.arrRef spec0 0)
      = dispatchK (F := Ideal) (W8 m ρ c (Proc.devRef .tc main_v34)) (W8 m ρ c (Proc.devRef .tc main_v7)) := read56 (W8 m ρ c)
  have e6 : V9 m ρ c (Pipeline.arrRef spec0 1) = m ((c : Thread nD τ).loc main_arg6) := W9_arg6 m ρ c
  have e7 : V9 m ρ c (Pipeline.arrRef spec0 2) = m ((c : Thread nD τ).loc main_arg7) := W9_arg7 m ρ c
  rw [e70, e69, e1, e68, e11, e5, e67, e34, e57, e0, e56, e6, e7]

end Cert.KernelIdeal.KOut

end
-- ==== Proof.FfnPayload.lean ====
/-
  The feed-forward body's stored value at one index of its block.

  The body reads three whole blocks — x0 : [1,512,1024] (512 rows of one expert's input), x1 : [1,1024,2048] (that
  expert's key weight) and x2 : [1,2048,1024] (its value weight) — drops their unit axis, multiplies x0 by x1 into a
  zero accumulator, clamps the product below at zero, squares it, multiplies the square by x2 into a zero accumulator
  and puts the unit axis back. Over the extended reals a change of float format is the identity and a product into a
  zero accumulator is the plain sum over the contracted coordinate, so at (u, r, d) the stored value is
    ∑ f, (max (∑ k, x0[0, r, k] · x1[0, k, f]) 0)² · x2[0, f, d].
-/
import proofs.«162617_j10591389352191_2_alg».proof.Proof.Gen.KernelIdeal.Skeleton
import proofs.«162617_j10591389352191_2_alg».proof.Proof.FfnSpec
import Idealize.ShloMosaic.PureOps.Ideal.Laws
import Idealize.ShloMosaic.Lib.ValueIdx
import Idealize.ShloMosaic.Lib.ValueLayout

noncomputable section

open scoped BigOperators

namespace Cert.KernelIdeal.FfnValue

open Cert.KernelIdeal Cert.KernelIdeal.Gen Idealize.ShloMosaic Idealize.ShloMosaic.ValueIdx

/-- The first product (512×1024 by 1024×2048, contracting the 1024 axis) into the zero accumulator, at (r, f): the sum
    over the contracted coordinate of the products of the entries. -/
theorem matmul_key_apply {φ₁ φ₂ : FTy} (A : FVec Ideal S512x1024 φ₁) (B : FVec Ideal S1024x2048 φ₂)
    (r : Fin 512) (f : Fin 2048) :
    matmul dot_S512x1024_S1024x2048_S512x2048_1_0_0_1_n_n none A B (constant (F := Ideal) S512x2048 .f32 0x00000000#32) (ix2 r f)
      = ∑ k : Fin 1024, A (ix2 r k) * B (ix2 k f) := by
  show FloatOps.matmul dot_S512x1024_S1024x2048_S512x2048_1_0_0_1_n_n none A B (constant (F := Ideal) S512x2048 .f32 0x00000000#32) (ix2 r f) = _
  rw [Ideal.matmul_constant_zero_apply,
    ← Equiv.sum_comp (contrEquiv1 dot_S512x1024_S1024x2048_S512x2048_1_0_0_1_n_n 1024 rfl rfl).symm]
  refine Finset.sum_congr rfl fun k _ => ?_
  have c2 := contrEquiv1_symm_val dot_S512x1024_S1024x2048_S512x2048_1_0_0_1_n_n 1024 rfl rfl k
  have l2 : (dot_S512x1024_S1024x2048_S512x2048_1_0_0_1_n_n).lhsIdx (ix2 r f) ((contrEquiv1 dot_S512x1024_S1024x2048_S512x2048_1_0_0_1_n_n 1024 rfl rfl).symm k) = ix2 r k := by
    funext ax; apply Fin.ext
    match ax with
    | ⟨0, _⟩ => simp [DotDims.lhsIdx, dot_S512x1024_S1024x2048_S512x2048_1_0_0_1_n_n]; rfl
    | ⟨1, _⟩ => simp [DotDims.lhsIdx, dot_S512x1024_S1024x2048_S512x2048_1_0_0_1_n_n]; exact c2
  have r2 : (dot_S512x1024_S1024x2048_S512x2048_1_0_0_1_n_n).rhsIdx (ix2 r f) ((contrEquiv1 dot_S512x1024_S1024x2048_S512x2048_1_0_0_1_n_n 1024 rfl rfl).symm k) = ix2 k f := by
    funext ax; apply Fin.ext
    match ax with
    | ⟨0, _⟩ => simp [DotDims.rhsIdx, dot_S512x1024_S1024x2048_S512x2048_1_0_0_1_n_n]; exact c2
    | ⟨1, _⟩ => simp [DotDims.rhsIdx, dot_S512x1024_S1024x2048_S512x2048_1_0_0_1_n_n]; rfl
  rw [l2, r2]

/-- The second product (512×2048 by 2048×1024, contracting the 2048 axis) into the zero accumulator, at (r, d). -/
theorem matmul_value_apply {φ₁ φ₂ : FTy} (A : FVec Ideal S512x2048 φ₁) (B : FVec Ideal S2048x1024 φ₂)
    (r : Fin 512) (d : Fin 1024) :
    matmul dot_S512x2048_S2048x1024_S512x1024_1_0_0_1_n_n none A B (constant (F := Ideal) S512x1024 .f32 0x00000000#32) (ix2 r d)
      = ∑ f : Fin 2048, A (ix2 r f) * B (ix2 f d) := by
  show FloatOps.matmul dot_S512x2048_S2048x1024_S512x1024_1_0_0_1_n_n none A B (constant (F := Ideal) S512x1024 .f32 0x00000000#32) (ix2 r d) = _
  rw [Ideal.matmul_constant_zero_apply,
    ← Equiv.sum_comp (contrEquiv1 dot_S512x2048_S2048x1024_S512x1024_1_0_0_1_n_n 2048 rfl rfl).symm]
  refine Finset.sum_congr rfl fun f _ => ?_
  have c2 := contrEquiv1_symm_val dot_S512x2048_S2048x1024_S512x1024_1_0_0_1_n_n 2048 rfl rfl f
  have l2 : (dot_S512x2048_S2048x1024_S512x1024_1_0_0_1_n_n).lhsIdx (ix2 r d) ((contrEquiv1 dot_S512x2048_S2048x1024_S512x1024_1_0_0_1_n_n 2048 rfl rfl).symm f) = ix2 r f := by
    funext ax; apply Fin.ext
    match ax with
    | ⟨0, _⟩ => simp [DotDims.lhsIdx, dot_S512x2048_S2048x1024_S512x1024_1_0_0_1_n_n]; rfl
    | ⟨1, _⟩ => simp [DotDims.lhsIdx, dot_S512x2048_S2048x1024_S512x1024_1_0_0_1_n_n]; exact c2
  have r2 : (dot_S512x2048_S2048x1024_S512x1024_1_0_0_1_n_n).rhsIdx (ix2 r d) ((contrEquiv1 dot_S512x2048_S2048x1024_S512x1024_1_0_0_1_n_n 2048 rfl rfl).symm f) = ix2 f d := by
    funext ax; apply Fin.ext
    match ax with
    | ⟨0, _⟩ => simp [DotDims.rhsIdx, dot_S512x2048_S2048x1024_S512x1024_1_0_0_1_n_n]; exact c2
    | ⟨1, _⟩ => simp [DotDims.rhsIdx, dot_S512x2048_S2048x1024_S512x1024_1_0_0_1_n_n]; rfl
  rw [l2, r2]

/-- The body's stored value at (u, r, d) of its [1,512,1024] block, from the three blocks it loads. -/
theorem payload_apply (x0 : Vec Ideal S1x512x1024 .bf16) (x1 : Vec Ideal S1x1024x2048 .f32)
    (x2 : Vec Ideal S1x2048x1024 .f32) (u : Fin 1) (r : Fin 512) (d : Fin 1024) :
    k0_pay1 (F := Ideal) x0 x1 x2 (ix3 u r d)
      = ∑ f : Fin 2048, (max (∑ k : Fin 1024, x0 (ix3 (0 : Fin 1) r k) * x1 (ix3 (0 : Fin 1) k f)) 0
          * max (∑ k : Fin 1024, x0 (ix3 (0 : Fin 1) r k) * x1 (ix3 (0 : Fin 1) k f)) 0) * x2 (ix3 (0 : Fin 1) f d) := by
  unfold k0_pay1
  refine (shapeCast_ab_1ab_apply _ _ u r d).trans ?_
  refine (truncf_apply (ψ := .bf16) _ bitsLt_bf16_f32 (ix2 r d)).trans ?_
  refine (matmul_value_apply _ _ r d).trans ?_
  refine Finset.sum_congr rfl fun f _ => ?_
  refine congrArg₂ (· * ·) ?_ ?_
  · refine (truncf_apply (ψ := .bf16) _ bitsLt_bf16_f32 (ix2 r f)).trans ?_
    refine (mulf_apply _ _ (ix2 r f)).trans ?_
    have hmax : ∀ (a : FVec Ideal S512x2048 .f32),
        maximumf a (broadcast S512x2048 (Scalar.ofBits (F := Ideal) .f32 0x00000000#32)) (ix2 r f) = max (a (ix2 r f)) 0 := by
      intro a
      refine (maximumf_apply _ _ _).trans ?_
      rw [broadcast_apply]
      show max _ (Ideal.ofBits .f32 0x00000000#32) = _
      rw [Ideal.ofBits_zero_f32]
    rw [hmax, matmul_key_apply]
    have hx0 : ∀ k : Fin 1024, shapeCast S512x1024 x0 shapeCasts_S1x512x1024_S512x1024 (ix2 r k) = x0 (ix3 (0 : Fin 1) r k) :=
      fun k => shapeCast_1ab_ab_apply x0 shapeCasts_S1x512x1024_S512x1024 r k
    have hx1 : ∀ k : Fin 1024, (truncf .bf16 (shapeCast S1024x2048 x1 shapeCasts_S1x1024x2048_S1024x2048 : FVec Ideal S1024x2048 .f32)
        bitsLt_bf16_f32 : FVec Ideal S1024x2048 .bf16) (ix2 k f) = x1 (ix3 (0 : Fin 1) k f) :=
      fun k => (truncf_apply (ψ := .bf16) (shapeCast S1024x2048 x1 shapeCasts_S1x1024x2048_S1024x2048 : FVec Ideal S1024x2048 .f32)
        bitsLt_bf16_f32 (ix2 k f)).trans (shapeCast_1ab_ab_apply x1 shapeCasts_S1x1024x2048_S1024x2048 k f)
    simp only [hx0, hx1]
  · refine (truncf_apply (ψ := .bf16) (shapeCast S2048x1024 x2 shapeCasts_S1x2048x1024_S2048x1024 : FVec Ideal S2048x1024 .f32)
      bitsLt_bf16_f32 (ix2 f d)).trans ?_
    exact shapeCast_1ab_ab_apply x2 shapeCasts_S1x2048x1024_S2048x1024 f d

/-- So when the three loaded blocks are pieces of whole arrays `X`, `WK`, `WV` — row `r` of the first block is row `r'`
    of expert `e`'s input, the other two blocks are expert `e`'s two weights, and column `d` is column `d'` — the stored
    value at (u, r, d) is the feed-forward value at (e, r', d'). -/
theorem block_entry (X : (⟨3, ![16, 1024, 1024]⟩ : Shape).Idx → EReal) (WK : (⟨3, ![16, 1024, 2048]⟩ : Shape).Idx → EReal)
    (WV : (⟨3, ![16, 2048, 1024]⟩ : Shape).Idx → EReal)
    (x0 : Vec Ideal S1x512x1024 .bf16) (x1 : Vec Ideal S1x1024x2048 .f32) (x2 : Vec Ideal S1x2048x1024 .f32)
    (e : Fin 16) (r' : Fin 1024) (d' : Fin 1024) (u : Fin 1) (r : Fin 512) (d : Fin 1024)
    (h0 : ∀ k : Fin 1024, x0 (ix3 (0 : Fin 1) r k) = X (ix3 e r' k))
    (h1 : ∀ (k : Fin 1024) (f : Fin 2048), x1 (ix3 (0 : Fin 1) k f) = WK (ix3 e k f))
    (h2 : ∀ f : Fin 2048, x2 (ix3 (0 : Fin 1) f d) = WV (ix3 e f d')) :
    k0_pay1 (F := Ideal) x0 x1 x2 (ix3 u r d) = ffn X WK WV (ix3 e r' d') := by
  rw [payload_apply, ffn_apply]
  simp only [h0, h1, h2]

end Cert.KernelIdeal.FfnValue

end
-- ==== Proof.FfnBlocks.lean ====
/-
  From the feed-forward body's blocks to the whole output array.

  The grid is 16 experts × 2 row halves. At the point (e, h) the body is given rows 512·h … 512·h + 511 of expert e's
  input, all of expert e's key weight and all of its value weight, and its result is written back to rows
  512·h … 512·h + 511 of expert e's slice of the output. Every entry (e, r, d) of the output lies in exactly the block
  of the point (e, r / 512), and what that point writes there is the feed-forward value of the three arrays at (e, r, d):
  so after the last point the output array is that function of the arrays as the region found them.
-/
import proofs.«162617_j10591389352191_2_alg».proof.Proof.Gen.KernelIdeal.Frame
import proofs.«162617_j10591389352191_2_alg».proof.Proof.FfnPayload
import Idealize.ShloMosaic.Lib.Pipeline.Value

set_option maxRecDepth 16384

noncomputable section

namespace Cert.KernelIdeal.FfnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl

/-- The block indices at a grid point, decided over the 32 points: the input rows move with the output rows (same
    expert, same half), both weights follow the expert alone, and no window moves along its last axis. -/
theorem block_indices : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 1 ∧ win0_3.index t (2 : Fin 3) = 0 :=
  (by decide +kernel : ∀ t : Fin grid0.N, _)

/-- Every (expert, half) is some grid point's output block. -/
theorem block_onto : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-- Row `r`, column `k` of the input block at point `t` is row `512·(half) + r` of the point's expert in the input array. -/
theorem read_input (c : Dev nD) (t : Fin cfg0.N) (r : Fin 512) (k : Fin 1024) (e : Fin 16) (r' : Fin 1024)
    (he : e.val = win0_3.index t (0 : Fin 3)) (hr' : r'.val = win0_3.index t (1 : Fin 3) * 512 + r.val) :
    iblk0 V c 0 t (ix3 (0 : Fin 1) r k) = V c (Pipeline.arrRef spec0 0) (ix3 e r' k) := by
  obtain ⟨e00, e01, e02, -⟩ := block_indices t
  show V c (Pipeline.arrRef spec0 0) (((cfg0.win 0).blk t).view.emb (ix3 (0 : Fin 1) r k)) = _
  refine congrArg _ ?_
  funext a; apply Fin.ext
  match a with
  | ⟨0, _⟩ => show win0_0.index t (0 : Fin 3) * 1 + 1 * 0 = e.val; omega
  | ⟨1, _⟩ => show win0_0.index t (1 : Fin 3) * 512 + 1 * r.val = r'.val; omega
  | ⟨2, _⟩ => show win0_0.index t (2 : Fin 3) * 1024 + 1 * k.val = k.val; omega

/-- The key-weight block at point `t` is the point's expert's whole key weight. -/
theorem read_key (c : Dev nD) (t : Fin cfg0.N) (k : Fin 1024) (f : Fin 2048) (e : Fin 16)
    (he : e.val = win0_3.index t (0 : Fin 3)) :
    iblk0 V c 1 t (ix3 (0 : Fin 1) k f) = V c (Pipeline.arrRef spec0 1) (ix3 e k f) := by
  obtain ⟨-, -, -, e10, e11, e12, -⟩ := block_indices t
  show V c (Pipeline.arrRef spec0 1) (((cfg0.win 1).blk t).view.emb (ix3 (0 : Fin 1) k f)) = _
  refine congrArg _ ?_
  funext a; apply Fin.ext
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 2048 + 1 * f.val = f.val; omega

/-- The value-weight block at point `t` is the point's expert's whole value weight. -/
theorem read_value (c : Dev nD) (t : Fin cfg0.N) (f : Fin 2048) (d : Fin 1024) (e : Fin 16)
    (he : e.val = win0_3.index t (0 : Fin 3)) :
    iblk0 V c 2 t (ix3 (0 : Fin 1) f d) = V c (Pipeline.arrRef spec0 2) (ix3 e f d) := by
  obtain ⟨-, -, -, -, -, -, e20, e21, e22, -⟩ := block_indices t
  show V c (Pipeline.arrRef spec0 2) (((cfg0.win 2).blk t).view.emb (ix3 (0 : Fin 1) f d)) = _
  refine congrArg _ ?_
  funext a; apply Fin.ext
  match a with
  | ⟨0, _⟩ => show win0_2.index t (0 : Fin 3) * 1 + 1 * 0 = e.val; omega
  | ⟨1, _⟩ => show win0_2.index t (1 : Fin 3) * 2048 + 1 * f.val = f.val; omega
  | ⟨2, _⟩ => show win0_2.index t (2 : Fin 3) * 1024 + 1 * d.val = d.val; omega

/-- Where entry (u, r, d) of point `t`'s output block sits in the output array. -/
theorem out_index (t : Fin cfg0.N) (u : Fin 1) (r : Fin 512) (d : Fin 1024) (e : Fin 16) (r' : Fin 1024)
    (he : e.val = win0_3.index t (0 : Fin 3)) (hr' : r'.val = win0_3.index t (1 : Fin 3) * 512 + r.val) :
    ((cfg0.win 3).blk t).view.emb (ix3 u r d) = ix3 e r' d := by
  obtain ⟨-, -, -, -, -, -, -, -, -, b0, b1, b2⟩ := block_indices t
  have hu : u.val = 0 := by omega
  funext a; apply Fin.ext
  match a with
  | ⟨0, _⟩ => show win0_3.index t (0 : Fin 3) * 1 + 1 * u.val = e.val; omega
  | ⟨1, _⟩ => show win0_3.index t (1 : Fin 3) * 512 + 1 * r.val = r'.val; omega
  | ⟨2, _⟩ => show win0_3.index t (2 : Fin 3) * 1024 + 1 * d.val = d.val; omega

/-- What the point `t` writes back is block `t` of the feed-forward value of the arrays as the region finds them. -/
theorem flushed_eq (c : Dev nD) (t : Fin cfg0.N) :
    (dat0 (F := Ideal) V c).flushed 3 t = ((cfg0.win 3).blk t).view.read (Elt Ideal)
      (ffn (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zero3]
  simp only [View.ld_unit_zero (S := S1x512x1024) zero3, View.ld_unit_zero (S := S1x1024x2048) zero3,
    View.ld_unit_zero (S := S1x2048x1024) zero3]
  obtain ⟨-, -, -, -, -, -, -, -, -, b0, b1, b2⟩ := block_indices t
  funext j
  obtain ⟨u, r, d, rfl⟩ : ∃ (u : Fin 1) (r : Fin 512) (d : Fin 1024), (j : S1x512x1024.Idx) = ix3 u r d :=
    ⟨j 0, j 1, j 2, eq_ix3 j⟩
  have hr : r.val < 512 := r.isLt
  show k0_pay1 (F := Ideal) (iblk0 V c 0 t) (iblk0 V c 1 t) (iblk0 V c 2 t) (ix3 u r d)
    = ffn (V c (Pipeline.arrRef spec0 0)) (V c (Pipeline.arrRef spec0 1)) (V c (Pipeline.arrRef spec0 2))
        (((cfg0.win 3).blk t).view.emb (ix3 u r d))
  exact (block_entry (V c (Pipeline.arrRef spec0 0)) (V c (Pipeline.arrRef spec0 1)) (V c (Pipeline.arrRef spec0 2))
    (iblk0 V c 0 t) (iblk0 V c 1 t) (iblk0 V c 2 t) ⟨win0_3.index t (0 : Fin 3), by omega⟩
    ⟨win0_3.index t (1 : Fin 3) * 512 + r.val, by omega⟩ d u r d
    (fun k => read_input V c t r k _ _ rfl rfl) (fun k f => read_key V c t k f _ rfl)
    (fun f => read_value V c t f d _ rfl)).trans
    (congrArg _ (out_index t u r d _ _ rfl rfl).symm)

/-- An index of the output array is in point `t`'s block iff each coordinate is in the block's range on its axis. -/
theorem mem_block (t : Fin cfg0.N) (i : S16x1024x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v57).slice (win0_3.rect t)).set ↔ _
  rw [View.set_slice_whole, Rect.mem_set_unit]
  exact Iff.rfl

/-- Every entry (e, r, d) of the output is in the block of the point for expert `e` and half `r / 512`, which writes back. -/
theorem covered (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  obtain ⟨t, ht⟩ := block_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE OUTPUT ARRAY of the feed-forward region after its last point: the feed-forward value of the three arrays it
    reads, as the region found them — whatever those contents are. -/
theorem final0 (c : Dev nD) :
    (dat0 (F := Ideal) V c).arrAt 3 cfg0.N
      = ffn (V c (Pipeline.arrRef spec0 0)) (V c (Pipeline.arrRef spec0 1)) (V c (Pipeline.arrRef spec0 2)) :=
  (dat0 (F := Ideal) V c).arrAt_eq_of_cover 3
    (ffn (V c (Pipeline.arrRef spec0 0)) (V c (Pipeline.arrRef spec0 1)) (V c (Pipeline.arrRef spec0 2)))
    (fun t _ => flushed_eq V c t) covered

end Cert.KernelIdeal.FfnValue

end
-- ==== Proof.RefRun.lean ====
import proofs.«162617_j10591389352191_2_alg».proof.Proof.Gen.ReferenceIdeal
import Idealize.ShloMosaic.Lib.StableHlo.Run
import Idealize.ShloMosaic.Lib.Pipeline.Regions

/-!
# The reference program as a list of operations, and its run

The reference's entry function is a straight line of tensor operations, some of them inside outlined
functions (an integer remainder with its sign correction, a cumulative sum, a gather along an axis, two
selections, a rectifier). Here the whole line is written out as ONE list of operations over the
program's buffers, each outlined function's operations listed in place over that call's buffers, cut into
three consecutive stretches:

* `opsA` — the token-shift mixes and the routing slot of every token (through the buffer `main_v34`);
* `opsB` — the scatter into expert rows, the two expert matrix products around the squared rectifier, and the
  reshape back to rows (through `main_v50`);
* `opsC` — the gather back to token order, the sigmoid gate and the final product (through `main_v68`).

`main_eq` says the entry function IS that line; `run` says every weakly fair execution terminates with every
buffer at the fold of the operations' results over the launch contents; `after_ops_main_argK` say the line
writes no argument buffer.
-/

set_option maxRecDepth 16384

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The line, item by item: a new item opens and closes at every outlined function's call -/

/-- 17 operations (the entry function's own), in order. -/
abbrev item0 : List (HloOp τ sig (Elt F)) :=
  [ StableHlo.unary main_arg2 main_v0 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_arg0 main_v1 ((extractStridedSlice S8x2047x1024 ![0, 0, 0] · slices_S8x2048x1024_S8x2047x1024_0_0_0) : (⟨S8x2048x1024, .f32⟩ : BufTy).Contents (Elt F) → (⟨S8x2047x1024, .f32⟩ : BufTy).Contents (Elt F)),
    StableHlo.binary main_v0 main_v1 main_v2 ((fun a b => concatenate S8x2048x1024 1 [⟨S8x1x1024, a⟩, ⟨S8x2047x1024, b⟩] concatenates_S8x1x1024_S8x2047x1024_S8x2048x1024_d1) : (⟨S8x1x1024, .f32⟩ : BufTy).Contents (Elt F) → (⟨S8x2047x1024, .f32⟩ : BufTy).Contents (Elt F) → (⟨S8x2048x1024, .f32⟩ : BufTy).Contents (Elt F)),
    StableHlo.binary main_v2 main_arg0 main_v3 (subf : (⟨S8x2048x1024, .f32⟩ : BufTy).Contents (Elt F) → (⟨S8x2048x1024, .f32⟩ : BufTy).Contents (Elt F) → (⟨S8x2048x1024, .f32⟩ : BufTy).Contents (Elt F)),
    StableHlo.unary main_arg3 main_v4 (broadcastInDim S1x1x1024 ![2] bcast_S1024_S1x1x1024_2 : (⟨S1024, .f32⟩ : BufTy).Contents (Elt F) → (⟨S1x1x1024, .f32⟩ : BufTy).Contents (Elt F)),
    StableHlo.unary main_v4 main_v5 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v5 main_v6 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v6 main_v7 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_arg4 main_v8 (broadcastInDim S1x1x1024 ![2] bcast_S1024_S1x1x1024_2 : (⟨S1024, .f32⟩ : BufTy).Contents (Elt F) → (⟨S1x1x1024, .f32⟩ : BufTy).Contents (Elt F)),
    StableHlo.unary main_v8 main_v9 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v9 main_v10 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v10 main_v11 (addf : (⟨S8x2048x1024, .f32⟩ : BufTy).Contents (Elt F) → (⟨S8x2048x1024, .f32⟩ : BufTy).Contents (Elt F) → (⟨S8x2048x1024, .f32⟩ : BufTy).Contents (Elt F)),
    StableHlo.reshape main_arg1 main_v12 rfl shapeCasts_S8x2048_S16384,
    StableHlo.nullary main_c (constantI S_ 32 5099#32),
    StableHlo.unary main_c main_v13 (broadcastInDim S16384 ![] bcast_S_S16384 : (⟨S_, .i32⟩ : BufTy).Contents (Elt F) → (⟨S16384, .i32⟩ : BufTy).Contents (Elt F)),
    StableHlo.binary main_v12 main_v13 main_v14 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 16#32) ]

/-- 21 operations (the body of @remainder, over the call's buffers), in order. -/
abbrev item1 : List (HloOp τ sig (Elt F)) :=
  [ StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S16384, .i32⟩) (broadcastInDim S16384 ![] bcast_S_S16384),
    StableHlo.TRef.binary (.of main_v14 : StableHlo.TRef sig ⟨S16384, .i32⟩) (.of main_call0_v3 : StableHlo.TRef sig ⟨S16384, .i32⟩) (.of main_call0_v4 : StableHlo.TRef sig ⟨S16384, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S16384, .i32⟩) (broadcastInDim S16384 ![] bcast_S_S16384),
    StableHlo.TRef.binary (.of main_call0_v4 : StableHlo.TRef sig ⟨S16384, .i32⟩) (.of main_call0_v5 : StableHlo.TRef sig ⟨S16384, .i32⟩) (.of main_call0_v6 : StableHlo.TRef sig ⟨S16384, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S16384, .i32⟩) (broadcastInDim S16384 ![] bcast_S_S16384),
    StableHlo.TRef.binary (.of main_call0_v4 : StableHlo.TRef sig ⟨S16384, .i32⟩) (.of main_call0_v7 : StableHlo.TRef sig ⟨S16384, .i32⟩) (.of main_call0_v8 : StableHlo.TRef sig ⟨S16384, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S16384, .i1⟩) (broadcastInDim S16384 ![] bcast_S_S16384),
    StableHlo.TRef.binary (.of main_call0_v8 : StableHlo.TRef sig ⟨S16384, .i1⟩) (.of main_call0_v10 : StableHlo.TRef sig ⟨S16384, .i1⟩) (.of main_call0_v11 : StableHlo.TRef sig ⟨S16384, .i1⟩) (cmpi .ne),
    StableHlo.TRef.binary (.of main_call0_v11 : StableHlo.TRef sig ⟨S16384, .i1⟩) (.of main_call0_v6 : StableHlo.TRef sig ⟨S16384, .i1⟩) (.of main_call0_v12 : StableHlo.TRef sig ⟨S16384, .i1⟩) andi,
    StableHlo.TRef.unary main_call0_call0.v0 (.of main_call0_v13 : StableHlo.TRef sig ⟨S16384, .i32⟩) (broadcastInDim S16384 ![] bcast_S_S16384),
    StableHlo.TRef.binary (.of main_call0_v4 : StableHlo.TRef sig ⟨S16384, .i32⟩) (.of main_call0_v13 : StableHlo.TRef sig ⟨S16384, .i32⟩) (.of main_call0_v14 : StableHlo.TRef sig ⟨S16384, .i32⟩) addi,
    StableHlo.TRef.ternary (.of main_call0_v12 : StableHlo.TRef sig ⟨S16384, .i1⟩) (.of main_call0_v14 : StableHlo.TRef sig ⟨S16384, .i32⟩) (.of main_call0_v4 : StableHlo.TRef sig ⟨S16384, .i32⟩) (.of main_v15 : StableHlo.TRef sig ⟨S16384, .i32⟩) select ]

/-- 7 operations (the entry function's own), in order. -/
abbrev item2 : List (HloOp τ sig (Elt F)) :=
  [ StableHlo.unary main_v15 main_v16 (broadcastInDim S16384x1 ![0] bcast_S16384_S16384x1_0 : (⟨S16384, .i32⟩ : BufTy).Contents (Elt F) → (⟨S16384x1, .i32⟩ : BufTy).Contents (Elt F)),
    StableHlo.nullary main_v17 (iotaInDim S16 32 0),
    StableHlo.unary main_v17 main_v18 (broadcastInDim S1x16 ![1] bcast_S16_S1x16_1 : (⟨S16, .i32⟩ : BufTy).Contents (Elt F) → (⟨S1x16, .i32⟩ : BufTy).Contents (Elt F)),
    StableHlo.unary main_v16 main_v19 (broadcastInDim S16384x16 ![0, 1] bcast_S16384x1_S16384x16_0_1 : (⟨S16384x1, .i32⟩ : BufTy).Contents (Elt F) → (⟨S16384x16, .i32⟩ : BufTy).Contents (Elt F)),
    StableHlo.unary main_v18 main_v20 (broadcastInDim S16384x16 ![0, 1] bcast_S1x16_S16384x16_0_1 : (⟨S1x16, .i32⟩ : BufTy).Contents (Elt F) → (⟨S16384x16, .i32⟩ : BufTy).Contents (Elt F)),
    StableHlo.binary main_v19 main_v20 main_v21 (cmpi .eq : (⟨S16384x16, .i32⟩ : BufTy).Contents (Elt F) → (⟨S16384x16, .i32⟩ : BufTy).Contents (Elt F) → (⟨S16384x16, .i1⟩ : BufTy).Contents (Elt F)),
    StableHlo.unary main_v21 main_v22 ((extui 32 · natLt_1_32) : (⟨S16384x16, .i1⟩ : BufTy).Contents (Elt F) → (⟨S16384x16, .i32⟩ : BufTy).Contents (Elt F)) ]

/-- 3 operations (the body of @cumsum, over the call's buffers), in order. -/
abbrev item3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v22 : StableHlo.TRef sig ⟨S16384x16, .i32⟩) (.of main_call1_call0_v0 : StableHlo.TRef sig ⟨S_, .i32⟩) (.of main_v23 : StableHlo.TRef sig ⟨S16384x16, .i32⟩) (fun x v => Host.reduceWindow IntOp.addi ![16384, 1] ![1, 1] ![16383, 0] ![0, 0] x v reduceWindows_S16384x16_S16384x16_w16384s1p16383_0_w1s1p0_0 h_S_) ]

/-- 1 operations (the entry function's own), in order. -/
abbrev item4 : List (HloOp τ sig (Elt F)) :=
  [ StableHlo.unary main_v15 main_v24 (broadcastInDim S16384x1 ![0] bcast_S16384_S16384x1_0 : (⟨S16384, .i32⟩ : BufTy).Contents (Elt F) → (⟨S16384x1, .i32⟩ : BufTy).Contents (Elt F)) ]

/-- 22 operations (the body of @take_along_axis, over the call's buffers), in order. -/
abbrev item5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16384x1, .i32⟩) (broadcastInDim S16384x1 ![] bcast_S_S16384x1),
    StableHlo.TRef.binary (.of main_v24 : StableHlo.TRef sig ⟨S16384x1, .i32⟩) (.of main_call2_v0 : StableHlo.TRef sig ⟨S16384x1, .i32⟩) (.of main_call2_v1 : StableHlo.TRef sig ⟨S16384x1, .i1⟩) (cmpi .slt),
    StableHlo.TRef.nullary (.of main_call2_c_0 : StableHlo.TRef sig ⟨S_, .i32⟩) (constantI S_ 32 16#32),
    StableHlo.TRef.unary (.of main_call2_c_0 : StableHlo.TRef sig ⟨S_, .i32⟩) (.of main_call2_v2 : StableHlo.TRef sig ⟨S16384x1, .i32⟩) (broadcastInDim S16384x1 ![] bcast_S_S16384x1),
    StableHlo.TRef.binary (.of main_v24 : StableHlo.TRef sig ⟨S16384x1, .i32⟩) (.of main_call2_v2 : StableHlo.TRef sig ⟨S16384x1, .i32⟩) (.of main_call2_v3 : StableHlo.TRef sig ⟨S16384x1, .i32⟩) addi,
    StableHlo.TRef.ternary (.of main_call2_v1 : StableHlo.TRef sig ⟨S16384x1, .i1⟩) (.of main_call2_v3 : StableHlo.TRef sig ⟨S16384x1, .i32⟩) (.of main_v24 : StableHlo.TRef sig ⟨S16384x1, .i32⟩) (.of main_call2_v4 : StableHlo.TRef sig ⟨S16384x1, .i32⟩) select,
    StableHlo.TRef.reshape (.of main_call2_v4 : StableHlo.TRef sig ⟨S16384x1, .i32⟩) (.of main_call2_v5 : StableHlo.TRef sig ⟨S16384x1x1, .i32⟩) rfl shapeCasts_S16384x1_S16384x1x1,
    StableHlo.TRef.nullary (.of main_call2_c_1 : StableHlo.TRef sig ⟨S1, .i32⟩) (constantI S1 32 15#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16384x1x1, .i32⟩) (broadcastInDim S16384x1x1 ![] bcast_S_S16384x1x1),
    StableHlo.TRef.binary (.of main_call2_v5 : StableHlo.TRef sig ⟨S16384x1x1, .i32⟩) (.of main_call2_v6 : StableHlo.TRef sig ⟨S16384x1x1, .i32⟩) (.of main_call2_v7 : StableHlo.TRef sig ⟨S16384x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S16384x1x1, .i32⟩) (broadcastInDim S16384x1x1 ![0, 1, 2] bcast_S1x1x1_S16384x1x1_0_1_2),
    StableHlo.TRef.binary (.of main_call2_v5 : StableHlo.TRef sig ⟨S16384x1x1, .i32⟩) (.of main_call2_v9 : StableHlo.TRef sig ⟨S16384x1x1, .i32⟩) (.of main_call2_v10 : StableHlo.TRef sig ⟨S16384x1x1, .i1⟩) (cmpi .sle),
    StableHlo.TRef.binary (.of main_call2_v7 : StableHlo.TRef sig ⟨S16384x1x1, .i1⟩) (.of main_call2_v10 : StableHlo.TRef sig ⟨S16384x1x1, .i1⟩) (.of main_call2_v11 : StableHlo.TRef sig ⟨S16384x1x1, .i1⟩) andi,
    StableHlo.TRef.nullary (.of main_call2_c_3 : StableHlo.TRef sig ⟨S_, .i1⟩) (constantI S_ 1 1#1),
    StableHlo.TRef.binary (.of main_call2_v11 : StableHlo.TRef sig ⟨S16384x1x1, .i1⟩) (.of main_call2_c_3 : StableHlo.TRef sig ⟨S_, .i1⟩) (.of main_call2_v12 : StableHlo.TRef sig ⟨S16384x1, .i1⟩) (fun x v => Host.reduce IntOp.andi x v reducesTo_S16384x1x1_S16384x1_d2 h_S_),
    StableHlo.TRef.binary (.of main_v23 : StableHlo.TRef sig ⟨S16384x16, .i32⟩) (.of main_call2_v5 : StableHlo.TRef sig ⟨S16384x1x1, .i32⟩) (.of main_call2_v13 : StableHlo.TRef sig ⟨S16384x1, .i32⟩) (fun x i => Host.gather gather_S16384x16_S16384x1x1_S16384x1_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S16384x1, .i32⟩) (broadcastInDim S16384x1 ![] bcast_S_S16384x1),
    StableHlo.TRef.ternary (.of main_call2_v12 : StableHlo.TRef sig ⟨S16384x1, .i1⟩) (.of main_call2_v13 : StableHlo.TRef sig ⟨S16384x1, .i32⟩) (.of main_call2_v14 : StableHlo.TRef sig ⟨S16384x1, .i32⟩) (.of main_v25 : StableHlo.TRef sig ⟨S16384x1, .i32⟩) select ]

/-- 12 operations (the entry function's own), in order. -/
abbrev item6 : List (HloOp τ sig (Elt F)) :=
  [ StableHlo.reshape main_v25 main_v26 rfl shapeCasts_S16384x1_S16384,
    StableHlo.nullary main_c_1 (constantI S_ 32 1#32),
    StableHlo.unary main_c_1 main_v27 (broadcastInDim S16384 ![] bcast_S_S16384 : (⟨S_, .i32⟩ : BufTy).Contents (Elt F) → (⟨S16384, .i32⟩ : BufTy).Contents (Elt F)),
    StableHlo.binary main_v26 main_v27 main_v28 (subi : (⟨S16384, .i32⟩ : BufTy).Contents (Elt F) → (⟨S16384, .i32⟩ : BufTy).Contents (Elt F) → (⟨S16384, .i32⟩ : BufTy).Contents (Elt F)),
    StableHlo.nullary main_c_2 (constantI S_ 32 1024#32),
    StableHlo.unary main_c_2 main_v29 (broadcastInDim S16384 ![] bcast_S_S16384 : (⟨S_, .i32⟩ : BufTy).Contents (Elt F) → (⟨S16384, .i32⟩ : BufTy).Contents (Elt F)),
    StableHlo.binary main_v28 main_v29 main_v30 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 1024#32),
    StableHlo.unary main_c_3 main_v31 (broadcastInDim S16384 ![] bcast_S_S16384 : (⟨S_, .i32⟩ : BufTy).Contents (Elt F) → (⟨S16384, .i32⟩ : BufTy).Contents (Elt F)),
    StableHlo.binary main_v15 main_v31 main_v32 (muli : (⟨S16384, .i32⟩ : BufTy).Contents (Elt F) → (⟨S16384, .i32⟩ : BufTy).Contents (Elt F) → (⟨S16384, .i32⟩ : BufTy).Contents (Elt F)),
    StableHlo.binary main_v32 main_v28 main_v33 (addi : (⟨S16384, .i32⟩ : BufTy).Contents (Elt F) → (⟨S16384, .i32⟩ : BufTy).Contents (Elt F) → (⟨S16384, .i32⟩ : BufTy).Contents (Elt F)),
    StableHlo.nullary main_c_4 (constantI S_ 32 16384#32) ]

/-- 3 operations (the body of @where_1, over the call's buffers), in order. -/
abbrev item7 : List (HloOp τ sig (Elt F)) :=
  [ StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16384, .i32⟩) (broadcastInDim S16384 ![] bcast_S_S16384),
    StableHlo.TRef.ternary (.of main_v30 : StableHlo.TRef sig ⟨S16384, .i1⟩) (.of main_v33 : StableHlo.TRef sig ⟨S16384, .i32⟩) (.of main_call3_v1 : StableHlo.TRef sig ⟨S16384, .i32⟩) (.of main_v34 : StableHlo.TRef sig ⟨S16384, .i32⟩) select ]

/-- 15 operations (the entry function's own), in order. -/
abbrev item8 : List (HloOp τ sig (Elt F)) :=
  [ StableHlo.reshape main_v7 main_v35 rfl shapeCasts_S8x2048x1024_S16384x1024,
    StableHlo.nullary main_cst (constant S_ .f32 0x00000000#32),
    StableHlo.unary main_cst main_v36 (broadcastInDim S16385x1024 ![] bcast_S_S16385x1024 : (⟨S_, .f32⟩ : BufTy).Contents (Elt F) → (⟨S16385x1024, .f32⟩ : BufTy).Contents (Elt F)),
    StableHlo.nullary main_c_5 (constantI S_ 32 0#32),
    StableHlo.unary main_c_5 main_v37 (broadcastInDim S16384 ![] bcast_S_S16384 : (⟨S_, .i32⟩ : BufTy).Contents (Elt F) → (⟨S16384, .i32⟩ : BufTy).Contents (Elt F)),
    StableHlo.binary main_v34 main_v37 main_v38 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16385#32),
    StableHlo.unary main_c_6 main_v39 (broadcastInDim S16384 ![] bcast_S_S16384 : (⟨S_, .i32⟩ : BufTy).Contents (Elt F) → (⟨S16384, .i32⟩ : BufTy).Contents (Elt F)),
    StableHlo.binary main_v34 main_v39 main_v40 (addi : (⟨S16384, .i32⟩ : BufTy).Contents (Elt F) → (⟨S16384, .i32⟩ : BufTy).Contents (Elt F) → (⟨S16384, .i32⟩ : BufTy).Contents (Elt F)),
    StableHlo.ternary main_v38 main_v40 main_v34 main_v41 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v41 main_v42 (broadcastInDim S16384x1 ![0] bcast_S16384_S16384x1_0 : (⟨S16384, .i32⟩ : BufTy).Contents (Elt F) → (⟨S16384x1, .i32⟩ : BufTy).Contents (Elt F)),
    StableHlo.ternary main_v36 main_v42 main_v35 main_v43 ((fun x i u => Host.scatter scatter_S16385x1024_S16384x1_S16384x1024_1_0_0_1 (fun _ b => b) x i u) : (⟨S16385x1024, .f32⟩ : BufTy).Contents (Elt F) → (⟨S16384x1, .i32⟩ : BufTy).Contents (Elt F) → (⟨S16384x1024, .f32⟩ : BufTy).Contents (Elt F) → (⟨S16385x1024, .f32⟩ : BufTy).Contents (Elt F)),
    StableHlo.unary main_v43 main_v44 ((extractStridedSlice S16384x1024 ![0, 0] · slices_S16385x1024_S16384x1024_0_0) : (⟨S16385x1024, .f32⟩ : BufTy).Contents (Elt F) → (⟨S16384x1024, .f32⟩ : BufTy).Contents (Elt F)),
    StableHlo.reshape main_v44 main_v45 rfl shapeCasts_S16384x1024_S16x1024x1024,
    StableHlo.binary main_v45 main_arg6 main_v46 ((fun l r => Host.dotGeneral dot_S16x1024x1024_S16x1024x2048_S16x1024x2048_2_1_1_2_0_0 none l r) : (⟨S16x1024x1024, .f32⟩ : BufTy).Contents (Elt F) → (⟨S16x1024x2048, .f32⟩ : BufTy).Contents (Elt F) → (⟨S16x1024x2048, .f32⟩ : BufTy).Contents (Elt F)) ]

/-- 3 operations (the body of @relu, over the call's buffers), in order. -/
abbrev item9 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S16x1024x2048, .f32⟩) (broadcastInDim S16x1024x2048 ![] bcast_S_S16x1024x2048),
    StableHlo.TRef.binary (.of main_v46 : StableHlo.TRef sig ⟨S16x1024x2048, .f32⟩) (.of main_call4_v0 : StableHlo.TRef sig ⟨S16x1024x2048, .f32⟩) (.of main_v47 : StableHlo.TRef sig ⟨S16x1024x2048, .f32⟩) maximumf ]

/-- 3 operations (the entry function's own), in order. -/
abbrev item10 : List (HloOp τ sig (Elt F)) :=
  [ StableHlo.binary main_v47 main_v47 main_v48 (mulf : (⟨S16x1024x2048, .f32⟩ : BufTy).Contents (Elt F) → (⟨S16x1024x2048, .f32⟩ : BufTy).Contents (Elt F) → (⟨S16x1024x2048, .f32⟩ : BufTy).Contents (Elt F)),
    StableHlo.binary main_v48 main_arg7 main_v49 ((fun l r => Host.dotGeneral dot_S16x1024x2048_S16x2048x1024_S16x1024x1024_2_1_1_2_0_0 none l r) : (⟨S16x1024x2048, .f32⟩ : BufTy).Contents (Elt F) → (⟨S16x2048x1024, .f32⟩ : BufTy).Contents (Elt F) → (⟨S16x1024x1024, .f32⟩ : BufTy).Contents (Elt F)),
    StableHlo.reshape main_v49 main_v50 rfl shapeCasts_S16x1024x1024_S16384x1024 ]

/-- 23 operations (the entry function's own), in order. -/
abbrev item11 : List (HloOp τ sig (Elt F)) :=
  [ StableHlo.nullary main_cst_7 (constant S_ .f32 0x00000000#32),
    StableHlo.unary main_cst_7 main_v51 (broadcastInDim S1x1024 ![] bcast_S_S1x1024 : (⟨S_, .f32⟩ : BufTy).Contents (Elt F) → (⟨S1x1024, .f32⟩ : BufTy).Contents (Elt F)),
    StableHlo.binary main_v50 main_v51 main_v52 ((fun a b => concatenate S16385x1024 0 [⟨S16384x1024, a⟩, ⟨S1x1024, b⟩] concatenates_S16384x1024_S1x1024_S16385x1024_d0) : (⟨S16384x1024, .f32⟩ : BufTy).Contents (Elt F) → (⟨S1x1024, .f32⟩ : BufTy).Contents (Elt F) → (⟨S16385x1024, .f32⟩ : BufTy).Contents (Elt F)),
    StableHlo.nullary main_c_8 (constantI S_ 32 0#32),
    StableHlo.unary main_c_8 main_v53 (broadcastInDim S16384 ![] bcast_S_S16384 : (⟨S_, .i32⟩ : BufTy).Contents (Elt F) → (⟨S16384, .i32⟩ : BufTy).Contents (Elt F)),
    StableHlo.binary main_v34 main_v53 main_v54 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 16385#32),
    StableHlo.unary main_c_9 main_v55 (broadcastInDim S16384 ![] bcast_S_S16384 : (⟨S_, .i32⟩ : BufTy).Contents (Elt F) → (⟨S16384, .i32⟩ : BufTy).Contents (Elt F)),
    StableHlo.binary main_v34 main_v55 main_v56 (addi : (⟨S16384, .i32⟩ : BufTy).Contents (Elt F) → (⟨S16384, .i32⟩ : BufTy).Contents (Elt F) → (⟨S16384, .i32⟩ : BufTy).Contents (Elt F)),
    StableHlo.ternary main_v54 main_v56 main_v34 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v57 main_v58 (broadcastInDim S16384x1 ![0] bcast_S16384_S16384x1_0 : (⟨S16384, .i32⟩ : BufTy).Contents (Elt F) → (⟨S16384x1, .i32⟩ : BufTy).Contents (Elt F)),
    StableHlo.binary main_v52 main_v58 main_v59 ((fun x i => Host.gather gather_S16385x1024_S16384x1_S16384x1024_1_0_n_n_0_1_11024 x i) : (⟨S16385x1024, .f32⟩ : BufTy).Contents (Elt F) → (⟨S16384x1, .i32⟩ : BufTy).Contents (Elt F) → (⟨S16384x1024, .f32⟩ : BufTy).Contents (Elt F)),
    StableHlo.reshape main_v59 main_v60 rfl shapeCasts_S16384x1024_S8x2048x1024,
    StableHlo.binary main_v11 main_arg5 main_v61 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    StableHlo.unary main_v61 main_v62 (Host.negf : (⟨S8x2048x1024, .f32⟩ : BufTy).Contents (Elt F) → (⟨S8x2048x1024, .f32⟩ : BufTy).Contents (Elt F)),
    StableHlo.unary main_v62 main_v63 (Host.exp : (⟨S8x2048x1024, .f32⟩ : BufTy).Contents (Elt F) → (⟨S8x2048x1024, .f32⟩ : BufTy).Contents (Elt F)),
    StableHlo.nullary main_cst_10 (constant S_ .f32 0x3F800000#32),
    StableHlo.unary main_cst_10 main_v64 (broadcastInDim S8x2048x1024 ![] bcast_S_S8x2048x1024 : (⟨S_, .f32⟩ : BufTy).Contents (Elt F) → (⟨S8x2048x1024, .f32⟩ : BufTy).Contents (Elt F)),
    StableHlo.binary main_v64 main_v63 main_v65 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_11 (constant S_ .f32 0x3F800000#32),
    StableHlo.unary main_cst_11 main_v66 (broadcastInDim S8x2048x1024 ![] bcast_S_S8x2048x1024 : (⟨S_, .f32⟩ : BufTy).Contents (Elt F) → (⟨S8x2048x1024, .f32⟩ : BufTy).Contents (Elt F)),
    StableHlo.binary main_v66 main_v65 main_v67 (Host.divf : (⟨S8x2048x1024, .f32⟩ : BufTy).Contents (Elt F) → (⟨S8x2048x1024, .f32⟩ : BufTy).Contents (Elt F) → (⟨S8x2048x1024, .f32⟩ : BufTy).Contents (Elt F)),
    StableHlo.binary main_v67 main_v60 main_v68 (mulf : (⟨S8x2048x1024, .f32⟩ : BufTy).Contents (Elt F) → (⟨S8x2048x1024, .f32⟩ : BufTy).Contents (Elt F) → (⟨S8x2048x1024, .f32⟩ : BufTy).Contents (Elt F)) ]

/-! ## The three stretches -/

/-- The 86 operations up to and including the one that writes the routing slot `main_v34`. -/
abbrev opsA : List (HloOp τ sig (Elt F)) :=
  [ StableHlo.unary main_arg2 main_v0 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_arg0 main_v1 ((extractStridedSlice S8x2047x1024 ![0, 0, 0] · slices_S8x2048x1024_S8x2047x1024_0_0_0) : (⟨S8x2048x1024, .f32⟩ : BufTy).Contents (Elt F) → (⟨S8x2047x1024, .f32⟩ : BufTy).Contents (Elt F)),
    StableHlo.binary main_v0 main_v1 main_v2 ((fun a b => concatenate S8x2048x1024 1 [⟨S8x1x1024, a⟩, ⟨S8x2047x1024, b⟩] concatenates_S8x1x1024_S8x2047x1024_S8x2048x1024_d1) : (⟨S8x1x1024, .f32⟩ : BufTy).Contents (Elt F) → (⟨S8x2047x1024, .f32⟩ : BufTy).Contents (Elt F) → (⟨S8x2048x1024, .f32⟩ : BufTy).Contents (Elt F)),
    StableHlo.binary main_v2 main_arg0 main_v3 (subf : (⟨S8x2048x1024, .f32⟩ : BufTy).Contents (Elt F) → (⟨S8x2048x1024, .f32⟩ : BufTy).Contents (Elt F) → (⟨S8x2048x1024, .f32⟩ : BufTy).Contents (Elt F)),
    StableHlo.unary main_arg3 main_v4 (broadcastInDim S1x1x1024 ![2] bcast_S1024_S1x1x1024_2 : (⟨S1024, .f32⟩ : BufTy).Contents (Elt F) → (⟨S1x1x1024, .f32⟩ : BufTy).Contents (Elt F)),
    StableHlo.unary main_v4 main_v5 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v5 main_v6 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v6 main_v7 (addf : (⟨S8x2048x1024, .f32⟩ : BufTy).Contents (Elt F) → (⟨S8x2048x1024, .f32⟩ : BufTy).Contents (Elt F) → (⟨S8x2048x1024, .f32⟩ : BufTy).Contents (Elt F)),
    StableHlo.unary main_arg4 main_v8 (broadcastInDim S1x1x1024 ![2] bcast_S1024_S1x1x1024_2 : (⟨S1024, .f32⟩ : BufTy).Contents (Elt F) → (⟨S1x1x1024, .f32⟩ : BufTy).Contents (Elt F)),
    StableHlo.unary main_v8 main_v9 (broadcastInDim S8x2048x1024 ![0, 1, 2] bcast_S1x1x1024_S8x2048x1024_0_1_2 : (⟨S1x1x1024, .f32⟩ : BufTy).Contents (Elt F) → (⟨S8x2048x1024, .f32⟩ : BufTy).Contents (Elt F)),
    StableHlo.binary main_v3 main_v9 main_v10 (mulf : (⟨S8x2048x1024, .f32⟩ : BufTy).Contents (Elt F) → (⟨S8x2048x1024, .f32⟩ : BufTy).Contents (Elt F) → (⟨S8x2048x1024, .f32⟩ : BufTy).Contents (Elt F)),
    StableHlo.binary main_arg0 main_v10 main_v11 (addf : (⟨S8x2048x1024, .f32⟩ : BufTy).Contents (Elt F) → (⟨S8x2048x1024, .f32⟩ : BufTy).Contents (Elt F) → (⟨S8x2048x1024, .f32⟩ : BufTy).Contents (Elt F)),
    StableHlo.reshape main_arg1 main_v12 rfl shapeCasts_S8x2048_S16384,
    StableHlo.nullary main_c (constantI S_ 32 5099#32),
    StableHlo.unary main_c main_v13 (broadcastInDim S16384 ![] bcast_S_S16384 : (⟨S_, .i32⟩ : BufTy).Contents (Elt F) → (⟨S16384, .i32⟩ : BufTy).Contents (Elt F)),
    StableHlo.binary main_v12 main_v13 main_v14 (muli : (⟨S16384, .i32⟩ : BufTy).Contents (Elt F) → (⟨S16384, .i32⟩ : BufTy).Contents (Elt F) → (⟨S16384, .i32⟩ : BufTy).Contents (Elt F)),
    StableHlo.nullary main_c_0 (constantI S_ 32 16#32),
    StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S16384, .i32⟩) (broadcastInDim S16384 ![] bcast_S_S16384),
    StableHlo.TRef.binary (.of main_v14 : StableHlo.TRef sig ⟨S16384, .i32⟩) (.of main_call0_v3 : StableHlo.TRef sig ⟨S16384, .i32⟩) (.of main_call0_v4 : StableHlo.TRef sig ⟨S16384, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S16384, .i32⟩) (broadcastInDim S16384 ![] bcast_S_S16384),
    StableHlo.TRef.binary (.of main_call0_v4 : StableHlo.TRef sig ⟨S16384, .i32⟩) (.of main_call0_v5 : StableHlo.TRef sig ⟨S16384, .i32⟩) (.of main_call0_v6 : StableHlo.TRef sig ⟨S16384, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S16384, .i32⟩) (broadcastInDim S16384 ![] bcast_S_S16384),
    StableHlo.TRef.binary (.of main_call0_v4 : StableHlo.TRef sig ⟨S16384, .i32⟩) (.of main_call0_v7 : StableHlo.TRef sig ⟨S16384, .i32⟩) (.of main_call0_v8 : StableHlo.TRef sig ⟨S16384, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S16384, .i1⟩) (broadcastInDim S16384 ![] bcast_S_S16384),
    StableHlo.TRef.binary (.of main_call0_v8 : StableHlo.TRef sig ⟨S16384, .i1⟩) (.of main_call0_v10 : StableHlo.TRef sig ⟨S16384, .i1⟩) (.of main_call0_v11 : StableHlo.TRef sig ⟨S16384, .i1⟩) (cmpi .ne),
    StableHlo.TRef.binary (.of main_call0_v11 : StableHlo.TRef sig ⟨S16384, .i1⟩) (.of main_call0_v6 : StableHlo.TRef sig ⟨S16384, .i1⟩) (.of main_call0_v12 : StableHlo.TRef sig ⟨S16384, .i1⟩) andi,
    StableHlo.TRef.unary main_call0_call0.v0 (.of main_call0_v13 : StableHlo.TRef sig ⟨S16384, .i32⟩) (broadcastInDim S16384 ![] bcast_S_S16384),
    StableHlo.TRef.binary (.of main_call0_v4 : StableHlo.TRef sig ⟨S16384, .i32⟩) (.of main_call0_v13 : StableHlo.TRef sig ⟨S16384, .i32⟩) (.of main_call0_v14 : StableHlo.TRef sig ⟨S16384, .i32⟩) addi,
    StableHlo.TRef.ternary (.of main_call0_v12 : StableHlo.TRef sig ⟨S16384, .i1⟩) (.of main_call0_v14 : StableHlo.TRef sig ⟨S16384, .i32⟩) (.of main_call0_v4 : StableHlo.TRef sig ⟨S16384, .i32⟩) (.of main_v15 : StableHlo.TRef sig ⟨S16384, .i32⟩) select,
    StableHlo.unary main_v15 main_v16 (broadcastInDim S16384x1 ![0] bcast_S16384_S16384x1_0 : (⟨S16384, .i32⟩ : BufTy).Contents (Elt F) → (⟨S16384x1, .i32⟩ : BufTy).Contents (Elt F)),
    StableHlo.nullary main_v17 (iotaInDim S16 32 0),
    StableHlo.unary main_v17 main_v18 (broadcastInDim S1x16 ![1] bcast_S16_S1x16_1 : (⟨S16, .i32⟩ : BufTy).Contents (Elt F) → (⟨S1x16, .i32⟩ : BufTy).Contents (Elt F)),
    StableHlo.unary main_v16 main_v19 (broadcastInDim S16384x16 ![0, 1] bcast_S16384x1_S16384x16_0_1 : (⟨S16384x1, .i32⟩ : BufTy).Contents (Elt F) → (⟨S16384x16, .i32⟩ : BufTy).Contents (Elt F)),
    StableHlo.unary main_v18 main_v20 (broadcastInDim S16384x16 ![0, 1] bcast_S1x16_S16384x16_0_1 : (⟨S1x16, .i32⟩ : BufTy).Contents (Elt F) → (⟨S16384x16, .i32⟩ : BufTy).Contents (Elt F)),
    StableHlo.binary main_v19 main_v20 main_v21 (cmpi .eq : (⟨S16384x16, .i32⟩ : BufTy).Contents (Elt F) → (⟨S16384x16, .i32⟩ : BufTy).Contents (Elt F) → (⟨S16384x16, .i1⟩ : BufTy).Contents (Elt F)),
    StableHlo.unary main_v21 main_v22 ((extui 32 · natLt_1_32) : (⟨S16384x16, .i1⟩ : BufTy).Contents (Elt F) → (⟨S16384x16, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v22 : StableHlo.TRef sig ⟨S16384x16, .i32⟩) (.of main_call1_call0_v0 : StableHlo.TRef sig ⟨S_, .i32⟩) (.of main_v23 : StableHlo.TRef sig ⟨S16384x16, .i32⟩) (fun x v => Host.reduceWindow IntOp.addi ![16384, 1] ![1, 1] ![16383, 0] ![0, 0] x v reduceWindows_S16384x16_S16384x16_w16384s1p16383_0_w1s1p0_0 h_S_),
    StableHlo.unary main_v15 main_v24 (broadcastInDim S16384x1 ![0] bcast_S16384_S16384x1_0 : (⟨S16384, .i32⟩ : BufTy).Contents (Elt F) → (⟨S16384x1, .i32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16384x1, .i32⟩) (broadcastInDim S16384x1 ![] bcast_S_S16384x1),
    StableHlo.TRef.binary (.of main_v24 : StableHlo.TRef sig ⟨S16384x1, .i32⟩) (.of main_call2_v0 : StableHlo.TRef sig ⟨S16384x1, .i32⟩) (.of main_call2_v1 : StableHlo.TRef sig ⟨S16384x1, .i1⟩) (cmpi .slt),
    StableHlo.TRef.nullary (.of main_call2_c_0 : StableHlo.TRef sig ⟨S_, .i32⟩) (constantI S_ 32 16#32),
    StableHlo.TRef.unary (.of main_call2_c_0 : StableHlo.TRef sig ⟨S_, .i32⟩) (.of main_call2_v2 : StableHlo.TRef sig ⟨S16384x1, .i32⟩) (broadcastInDim S16384x1 ![] bcast_S_S16384x1),
    StableHlo.TRef.binary (.of main_v24 : StableHlo.TRef sig ⟨S16384x1, .i32⟩) (.of main_call2_v2 : StableHlo.TRef sig ⟨S16384x1, .i32⟩) (.of main_call2_v3 : StableHlo.TRef sig ⟨S16384x1, .i32⟩) addi,
    StableHlo.TRef.ternary (.of main_call2_v1 : StableHlo.TRef sig ⟨S16384x1, .i1⟩) (.of main_call2_v3 : StableHlo.TRef sig ⟨S16384x1, .i32⟩) (.of main_v24 : StableHlo.TRef sig ⟨S16384x1, .i32⟩) (.of main_call2_v4 : StableHlo.TRef sig ⟨S16384x1, .i32⟩) select,
    StableHlo.TRef.reshape (.of main_call2_v4 : StableHlo.TRef sig ⟨S16384x1, .i32⟩) (.of main_call2_v5 : StableHlo.TRef sig ⟨S16384x1x1, .i32⟩) rfl shapeCasts_S16384x1_S16384x1x1,
    StableHlo.TRef.nullary (.of main_call2_c_1 : StableHlo.TRef sig ⟨S1, .i32⟩) (constantI S1 32 15#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S16384x1x1, .i32⟩) (broadcastInDim S16384x1x1 ![] bcast_S_S16384x1x1),
    StableHlo.TRef.binary (.of main_call2_v5 : StableHlo.TRef sig ⟨S16384x1x1, .i32⟩) (.of main_call2_v6 : StableHlo.TRef sig ⟨S16384x1x1, .i32⟩) (.of main_call2_v7 : StableHlo.TRef sig ⟨S16384x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S16384x1x1, .i32⟩) (broadcastInDim S16384x1x1 ![0, 1, 2] bcast_S1x1x1_S16384x1x1_0_1_2),
    StableHlo.TRef.binary (.of main_call2_v5 : StableHlo.TRef sig ⟨S16384x1x1, .i32⟩) (.of main_call2_v9 : StableHlo.TRef sig ⟨S16384x1x1, .i32⟩) (.of main_call2_v10 : StableHlo.TRef sig ⟨S16384x1x1, .i1⟩) (cmpi .sle),
    StableHlo.TRef.binary (.of main_call2_v7 : StableHlo.TRef sig ⟨S16384x1x1, .i1⟩) (.of main_call2_v10 : StableHlo.TRef sig ⟨S16384x1x1, .i1⟩) (.of main_call2_v11 : StableHlo.TRef sig ⟨S16384x1x1, .i1⟩) andi,
    StableHlo.TRef.nullary (.of main_call2_c_3 : StableHlo.TRef sig ⟨S_, .i1⟩) (constantI S_ 1 1#1),
    StableHlo.TRef.binary (.of main_call2_v11 : StableHlo.TRef sig ⟨S16384x1x1, .i1⟩) (.of main_call2_c_3 : StableHlo.TRef sig ⟨S_, .i1⟩) (.of main_call2_v12 : StableHlo.TRef sig ⟨S16384x1, .i1⟩) (fun x v => Host.reduce IntOp.andi x v reducesTo_S16384x1x1_S16384x1_d2 h_S_),
    StableHlo.TRef.binary (.of main_v23 : StableHlo.TRef sig ⟨S16384x16, .i32⟩) (.of main_call2_v5 : StableHlo.TRef sig ⟨S16384x1x1, .i32⟩) (.of main_call2_v13 : StableHlo.TRef sig ⟨S16384x1, .i32⟩) (fun x i => Host.gather gather_S16384x16_S16384x1x1_S16384x1_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S16384x1, .i32⟩) (broadcastInDim S16384x1 ![] bcast_S_S16384x1),
    StableHlo.TRef.ternary (.of main_call2_v12 : StableHlo.TRef sig ⟨S16384x1, .i1⟩) (.of main_call2_v13 : StableHlo.TRef sig ⟨S16384x1, .i32⟩) (.of main_call2_v14 : StableHlo.TRef sig ⟨S16384x1, .i32⟩) (.of main_v25 : StableHlo.TRef sig ⟨S16384x1, .i32⟩) select,
    StableHlo.reshape main_v25 main_v26 rfl shapeCasts_S16384x1_S16384,
    StableHlo.nullary main_c_1 (constantI S_ 32 1#32),
    StableHlo.unary main_c_1 main_v27 (broadcastInDim S16384 ![] bcast_S_S16384 : (⟨S_, .i32⟩ : BufTy).Contents (Elt F) → (⟨S16384, .i32⟩ : BufTy).Contents (Elt F)),
    StableHlo.binary main_v26 main_v27 main_v28 (subi : (⟨S16384, .i32⟩ : BufTy).Contents (Elt F) → (⟨S16384, .i32⟩ : BufTy).Contents (Elt F) → (⟨S16384, .i32⟩ : BufTy).Contents (Elt F)),
    StableHlo.nullary main_c_2 (constantI S_ 32 1024#32),
    StableHlo.unary main_c_2 main_v29 (broadcastInDim S16384 ![] bcast_S_S16384 : (⟨S_, .i32⟩ : BufTy).Contents (Elt F) → (⟨S16384, .i32⟩ : BufTy).Contents (Elt F)),
    StableHlo.binary main_v28 main_v29 main_v30 (cmpi .slt : (⟨S16384, .i32⟩ : BufTy).Contents (Elt F) → (⟨S16384, .i32⟩ : BufTy).Contents (Elt F) → (⟨S16384, .i1⟩ : BufTy).Contents (Elt F)),
    StableHlo.nullary main_c_3 (constantI S_ 32 1024#32),
    StableHlo.unary main_c_3 main_v31 (broadcastInDim S16384 ![] bcast_S_S16384 : (⟨S_, .i32⟩ : BufTy).Contents (Elt F) → (⟨S16384, .i32⟩ : BufTy).Contents (Elt F)),
    StableHlo.binary main_v15 main_v31 main_v32 (muli : (⟨S16384, .i32⟩ : BufTy).Contents (Elt F) → (⟨S16384, .i32⟩ : BufTy).Contents (Elt F) → (⟨S16384, .i32⟩ : BufTy).Contents (Elt F)),
    StableHlo.binary main_v32 main_v28 main_v33 (addi : (⟨S16384, .i32⟩ : BufTy).Contents (Elt F) → (⟨S16384, .i32⟩ : BufTy).Contents (Elt F) → (⟨S16384, .i32⟩ : BufTy).Contents (Elt F)),
    StableHlo.nullary main_c_4 (constantI S_ 32 16384#32),
    StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16384, .i32⟩) (broadcastInDim S16384 ![] bcast_S_S16384),
    StableHlo.TRef.ternary (.of main_v30 : StableHlo.TRef sig ⟨S16384, .i1⟩) (.of main_v33 : StableHlo.TRef sig ⟨S16384, .i32⟩) (.of main_call3_v1 : StableHlo.TRef sig ⟨S16384, .i32⟩) (.of main_v34 : StableHlo.TRef sig ⟨S16384, .i32⟩) select ]

/-- The 21 operations from the reshape of the first mix to the expert outputs as rows, `main_v50`. -/
abbrev opsB : List (HloOp τ sig (Elt F)) :=
  [ StableHlo.reshape main_v7 main_v35 rfl shapeCasts_S8x2048x1024_S16384x1024,
    StableHlo.nullary main_cst (constant S_ .f32 0x00000000#32),
    StableHlo.unary main_cst main_v36 (broadcastInDim S16385x1024 ![] bcast_S_S16385x1024 : (⟨S_, .f32⟩ : BufTy).Contents (Elt F) → (⟨S16385x1024, .f32⟩ : BufTy).Contents (Elt F)),
    StableHlo.nullary main_c_5 (constantI S_ 32 0#32),
    StableHlo.unary main_c_5 main_v37 (broadcastInDim S16384 ![] bcast_S_S16384 : (⟨S_, .i32⟩ : BufTy).Contents (Elt F) → (⟨S16384, .i32⟩ : BufTy).Contents (Elt F)),
    StableHlo.binary main_v34 main_v37 main_v38 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16385#32),
    StableHlo.unary main_c_6 main_v39 (broadcastInDim S16384 ![] bcast_S_S16384 : (⟨S_, .i32⟩ : BufTy).Contents (Elt F) → (⟨S16384, .i32⟩ : BufTy).Contents (Elt F)),
    StableHlo.binary main_v34 main_v39 main_v40 (addi : (⟨S16384, .i32⟩ : BufTy).Contents (Elt F) → (⟨S16384, .i32⟩ : BufTy).Contents (Elt F) → (⟨S16384, .i32⟩ : BufTy).Contents (Elt F)),
    StableHlo.ternary main_v38 main_v40 main_v34 main_v41 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v41 main_v42 (broadcastInDim S16384x1 ![0] bcast_S16384_S16384x1_0 : (⟨S16384, .i32⟩ : BufTy).Contents (Elt F) → (⟨S16384x1, .i32⟩ : BufTy).Contents (Elt F)),
    StableHlo.ternary main_v36 main_v42 main_v35 main_v43 ((fun x i u => Host.scatter scatter_S16385x1024_S16384x1_S16384x1024_1_0_0_1 (fun _ b => b) x i u) : (⟨S16385x1024, .f32⟩ : BufTy).Contents (Elt F) → (⟨S16384x1, .i32⟩ : BufTy).Contents (Elt F) → (⟨S16384x1024, .f32⟩ : BufTy).Contents (Elt F) → (⟨S16385x1024, .f32⟩ : BufTy).Contents (Elt F)),
    StableHlo.unary main_v43 main_v44 ((extractStridedSlice S16384x1024 ![0, 0] · slices_S16385x1024_S16384x1024_0_0) : (⟨S16385x1024, .f32⟩ : BufTy).Contents (Elt F) → (⟨S16384x1024, .f32⟩ : BufTy).Contents (Elt F)),
    StableHlo.reshape main_v44 main_v45 rfl shapeCasts_S16384x1024_S16x1024x1024,
    StableHlo.binary main_v45 main_arg6 main_v46 ((fun l r => Host.dotGeneral dot_S16x1024x1024_S16x1024x2048_S16x1024x2048_2_1_1_2_0_0 none l r) : (⟨S16x1024x1024, .f32⟩ : BufTy).Contents (Elt F) → (⟨S16x1024x2048, .f32⟩ : BufTy).Contents (Elt F) → (⟨S16x1024x2048, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S16x1024x2048, .f32⟩) (broadcastInDim S16x1024x2048 ![] bcast_S_S16x1024x2048),
    StableHlo.TRef.binary (.of main_v46 : StableHlo.TRef sig ⟨S16x1024x2048, .f32⟩) (.of main_call4_v0 : StableHlo.TRef sig ⟨S16x1024x2048, .f32⟩) (.of main_v47 : StableHlo.TRef sig ⟨S16x1024x2048, .f32⟩) maximumf,
    StableHlo.binary main_v47 main_v47 main_v48 (mulf : (⟨S16x1024x2048, .f32⟩ : BufTy).Contents (Elt F) → (⟨S16x1024x2048, .f32⟩ : BufTy).Contents (Elt F) → (⟨S16x1024x2048, .f32⟩ : BufTy).Contents (Elt F)),
    StableHlo.binary main_v48 main_arg7 main_v49 ((fun l r => Host.dotGeneral dot_S16x1024x2048_S16x2048x1024_S16x1024x1024_2_1_1_2_0_0 none l r) : (⟨S16x1024x2048, .f32⟩ : BufTy).Contents (Elt F) → (⟨S16x2048x1024, .f32⟩ : BufTy).Contents (Elt F) → (⟨S16x1024x1024, .f32⟩ : BufTy).Contents (Elt F)),
    StableHlo.reshape main_v49 main_v50 rfl shapeCasts_S16x1024x1024_S16384x1024 ]

/-- The 23 operations from the zero row to the result `main_v68`. -/
abbrev opsC : List (HloOp τ sig (Elt F)) :=
  [ StableHlo.nullary main_cst_7 (constant S_ .f32 0x00000000#32),
    StableHlo.unary main_cst_7 main_v51 (broadcastInDim S1x1024 ![] bcast_S_S1x1024 : (⟨S_, .f32⟩ : BufTy).Contents (Elt F) → (⟨S1x1024, .f32⟩ : BufTy).Contents (Elt F)),
    StableHlo.binary main_v50 main_v51 main_v52 ((fun a b => concatenate S16385x1024 0 [⟨S16384x1024, a⟩, ⟨S1x1024, b⟩] concatenates_S16384x1024_S1x1024_S16385x1024_d0) : (⟨S16384x1024, .f32⟩ : BufTy).Contents (Elt F) → (⟨S1x1024, .f32⟩ : BufTy).Contents (Elt F) → (⟨S16385x1024, .f32⟩ : BufTy).Contents (Elt F)),
    StableHlo.nullary main_c_8 (constantI S_ 32 0#32),
    StableHlo.unary main_c_8 main_v53 (broadcastInDim S16384 ![] bcast_S_S16384 : (⟨S_, .i32⟩ : BufTy).Contents (Elt F) → (⟨S16384, .i32⟩ : BufTy).Contents (Elt F)),
    StableHlo.binary main_v34 main_v53 main_v54 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 16385#32),
    StableHlo.unary main_c_9 main_v55 (broadcastInDim S16384 ![] bcast_S_S16384 : (⟨S_, .i32⟩ : BufTy).Contents (Elt F) → (⟨S16384, .i32⟩ : BufTy).Contents (Elt F)),
    StableHlo.binary main_v34 main_v55 main_v56 (addi : (⟨S16384, .i32⟩ : BufTy).Contents (Elt F) → (⟨S16384, .i32⟩ : BufTy).Contents (Elt F) → (⟨S16384, .i32⟩ : BufTy).Contents (Elt F)),
    StableHlo.ternary main_v54 main_v56 main_v34 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v57 main_v58 (broadcastInDim S16384x1 ![0] bcast_S16384_S16384x1_0 : (⟨S16384, .i32⟩ : BufTy).Contents (Elt F) → (⟨S16384x1, .i32⟩ : BufTy).Contents (Elt F)),
    StableHlo.binary main_v52 main_v58 main_v59 ((fun x i => Host.gather gather_S16385x1024_S16384x1_S16384x1024_1_0_n_n_0_1_11024 x i) : (⟨S16385x1024, .f32⟩ : BufTy).Contents (Elt F) → (⟨S16384x1, .i32⟩ : BufTy).Contents (Elt F) → (⟨S16384x1024, .f32⟩ : BufTy).Contents (Elt F)),
    StableHlo.reshape main_v59 main_v60 rfl shapeCasts_S16384x1024_S8x2048x1024,
    StableHlo.binary main_v11 main_arg5 main_v61 ((fun l r => Host.dotGeneral dot_S8x2048x1024_S1024x1024_S8x2048x1024_2_1_01_0_n_n none l r) : (⟨S8x2048x1024, .f32⟩ : BufTy).Contents (Elt F) → (⟨S1024x1024, .f32⟩ : BufTy).Contents (Elt F) → (⟨S8x2048x1024, .f32⟩ : BufTy).Contents (Elt F)),
    StableHlo.unary main_v61 main_v62 (Host.negf : (⟨S8x2048x1024, .f32⟩ : BufTy).Contents (Elt F) → (⟨S8x2048x1024, .f32⟩ : BufTy).Contents (Elt F)),
    StableHlo.unary main_v62 main_v63 (Host.exp : (⟨S8x2048x1024, .f32⟩ : BufTy).Contents (Elt F) → (⟨S8x2048x1024, .f32⟩ : BufTy).Contents (Elt F)),
    StableHlo.nullary main_cst_10 (constant S_ .f32 0x3F800000#32),
    StableHlo.unary main_cst_10 main_v64 (broadcastInDim S8x2048x1024 ![] bcast_S_S8x2048x1024 : (⟨S_, .f32⟩ : BufTy).Contents (Elt F) → (⟨S8x2048x1024, .f32⟩ : BufTy).Contents (Elt F)),
    StableHlo.binary main_v64 main_v63 main_v65 (addf : (⟨S8x2048x1024, .f32⟩ : BufTy).Contents (Elt F) → (⟨S8x2048x1024, .f32⟩ : BufTy).Contents (Elt F) → (⟨S8x2048x1024, .f32⟩ : BufTy).Contents (Elt F)),
    StableHlo.nullary main_cst_11 (constant S_ .f32 0x3F800000#32),
    StableHlo.unary main_cst_11 main_v66 (broadcastInDim S8x2048x1024 ![] bcast_S_S8x2048x1024 : (⟨S_, .f32⟩ : BufTy).Contents (Elt F) → (⟨S8x2048x1024, .f32⟩ : BufTy).Contents (Elt F)),
    StableHlo.binary main_v66 main_v65 main_v67 (Host.divf : (⟨S8x2048x1024, .f32⟩ : BufTy).Contents (Elt F) → (⟨S8x2048x1024, .f32⟩ : BufTy).Contents (Elt F) → (⟨S8x2048x1024, .f32⟩ : BufTy).Contents (Elt F)),
    StableHlo.binary main_v67 main_v60 main_v68 (mulf : (⟨S8x2048x1024, .f32⟩ : BufTy).Contents (Elt F) → (⟨S8x2048x1024, .f32⟩ : BufTy).Contents (Elt F) → (⟨S8x2048x1024, .f32⟩ : BufTy).Contents (Elt F)) ]

/-- The whole line. -/
abbrev ops : List (HloOp τ sig (Elt F)) := opsA ++ opsB ++ opsC

theorem opsA_sub : (opsA : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub ..⟩
theorem opsB_sub : (opsB : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.binary_bufs_sub .., StableHlo.reshape_bufs_sub ..⟩
theorem opsC_sub : (opsC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem ops_sub : (ops : List (HloOp τ sig (Elt F))).Forall fun op => op.bufs ⊆ StableHlo.tcRefs τ sig :=
  List.forall_append.mpr ⟨List.forall_append.mpr ⟨opsA_sub, opsB_sub⟩, opsC_sub⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp (List.forall_append.mpr ⟨List.forall_append.mpr ⟨opsA_fresh, opsB_fresh⟩, opsC_fresh⟩)

/-- The fold over two lines run one after the other is the second's fold over the first's. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The whole line's fold is the three stretches' folds, one over the other. -/
theorem after_ops (V : Valuation τ sig (Elt F)) :
    StableHlo.after ops V = StableHlo.after opsC (StableHlo.after opsB (StableHlo.after opsA V)) := by
  rw [show (ops : List (HloOp τ sig (Elt F))) = (opsA ++ opsB) ++ opsC from rfl, after_append, after_append]

/-! ## The entry function is the line -/

/-- The first window of the entry function is the chain of its items, the last in tail position. -/
theorem main_part0_chain (c : Dev nD) : main_part0 (F := F) c = (Pipeline.chainK
  [ StableHlo.seq item0,
    StableHlo.seq item1,
    StableHlo.seq item2,
    StableHlo.seq item3,
    StableHlo.seq item4,
    StableHlo.seq item5,
    StableHlo.seq item6,
    StableHlo.seq item7,
    StableHlo.seq item8,
    StableHlo.seq item9 ]
  (StableHlo.seq item10) : Prog (TpuEff nD τ sig (Elt F) (Pipeline.Sig Λ₀ (Fin 0) fun p => (pcfgs (F := F) p).Adm) .tc) PUnit) := by
  chain_rfl

/-- The last window is the chain of its one item. -/
theorem main_part1_chain (c : Dev nD) : main_part1 (F := F) c = (Pipeline.chain
  [ StableHlo.seq item11 ] : Prog (TpuEff nD τ sig (Elt F) (Pipeline.Sig Λ₀ (Fin 0) fun p => (pcfgs (F := F) p).Adm) .tc) PUnit) := by
  chain_rfl

/-- The entry function is the chain of the three stretches: the two windows' equations joined, then the same
    operations regrouped. -/
theorem main_chain (c : Dev nD) : main (F := F) c = (Pipeline.chain
  [ StableHlo.seq opsA, StableHlo.seq opsB, StableHlo.seq opsC ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  chain_rfl

theorem main_eq (c : Dev nD) : main (F := F) c = StableHlo.seq ops := by
  rw [main_chain c]
  simp only [Pipeline.chain_cons, Pipeline.chain_nil, StableHlo.seq_append, bind_assoc, bind_pure_unit]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    the reference terminates, and every buffer ends at the fold of the line's results over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ (fun _ => ops_fresh)

end Cert.ReferenceIdeal.RefRun

end
-- ==== Proof.RefRunArgs.lean ====
import proofs.«162617_j10591389352191_2_alg».proof.Proof.RefRun

/-!
# The line writes no argument

No operation of the three stretches has an argument buffer as its result, so each argument's contents after
any stretch, and after the whole line, are the launch contents.
-/

set_option maxRecDepth 16384

noncomputable section

namespace Cert.ReferenceIdeal.RefRun

open Cert.ReferenceIdeal Cert.ReferenceIdeal.Gen Idealize.ShloMosaic Idealize.ShloMosaic.TcCoe Idealize.SL.Sem

variable {F : FTy → Type} [FloatOps F]

theorem after_opsA_main_arg0 (V : Valuation τ sig (Elt F)) :
    StableHlo.after opsA V (Proc.devRef .tc main_arg0) = V (Proc.devRef .tc main_arg0) := by
  after_results_simp

theorem after_opsA_main_arg1 (V : Valuation τ sig (Elt F)) :
    StableHlo.after opsA V (Proc.devRef .tc main_arg1) = V (Proc.devRef .tc main_arg1) := by
  after_results_simp

theorem after_opsA_main_arg2 (V : Valuation τ sig (Elt F)) :
    StableHlo.after opsA V (Proc.devRef .tc main_arg2) = V (Proc.devRef .tc main_arg2) := by
  after_results_simp

theorem after_opsA_main_arg3 (V : Valuation τ sig (Elt F)) :
    StableHlo.after opsA V (Proc.devRef .tc main_arg3) = V (Proc.devRef .tc main_arg3) := by
  after_results_simp

theorem after_opsA_main_arg4 (V : Valuation τ sig (Elt F)) :
    StableHlo.after opsA V (Proc.devRef .tc main_arg4) = V (Proc.devRef .tc main_arg4) := by
  after_results_simp

theorem after_opsA_main_arg5 (V : Valuation τ sig (Elt F)) :
    StableHlo.after opsA V (Proc.devRef .tc main_arg5) = V (Proc.devRef .tc main_arg5) := by
  after_results_simp

theorem after_opsA_main_arg6 (V : Valuation τ sig (Elt F)) :
    StableHlo.after opsA V (Proc.devRef .tc main_arg6) = V (Proc.devRef .tc main_arg6) := by
  after_results_simp

theorem after_opsA_main_arg7 (V : Valuation τ sig (Elt F)) :
    StableHlo.after opsA V (Proc.devRef .tc main_arg7) = V (Proc.devRef .tc main_arg7) := by
  after_results_simp

theorem after_opsB_main_arg0 (V : Valuation τ sig (Elt F)) :
    StableHlo.after opsB V (Proc.devRef .tc main_arg0) = V (Proc.devRef .tc main_arg0) := by
  after_results_simp

theorem after_opsB_main_arg1 (V : Valuation τ sig (Elt F)) :
    StableHlo.after opsB V (Proc.devRef .tc main_arg1) = V (Proc.devRef .tc main_arg1) := by
  after_results_simp

theorem after_opsB_main_arg2 (V : Valuation τ sig (Elt F)) :
    StableHlo.after opsB V (Proc.devRef .tc main_arg2) = V (Proc.devRef .tc main_arg2) := by
  after_results_simp

theorem after_opsB_main_arg3 (V : Valuation τ sig (Elt F)) :
    StableHlo.after opsB V (Proc.devRef .tc main_arg3) = V (Proc.devRef .tc main_arg3) := by
  after_results_simp

theorem after_opsB_main_arg4 (V : Valuation τ sig (Elt F)) :
    StableHlo.after opsB V (Proc.devRef .tc main_arg4) = V (Proc.devRef .tc main_arg4) := by
  after_results_simp

theorem after_opsB_main_arg5 (V : Valuation τ sig (Elt F)) :
    StableHlo.after opsB V (Proc.devRef .tc main_arg5) = V (Proc.devRef .tc main_arg5) := by
  after_results_simp

theorem after_opsB_main_arg6 (V : Valuation τ sig (Elt F)) :
    StableHlo.after opsB V (Proc.devRef .tc main_arg6) = V (Proc.devRef .tc main_arg6) := by
  after_results_simp

theorem after_opsB_main_arg7 (V : Valuation τ sig (Elt F)) :
    StableHlo.after opsB V (Proc.devRef .tc main_arg7) = V (Proc.devRef .tc main_arg7) := by
  after_results_simp

theorem after_opsC_main_arg0 (V : Valuation τ sig (Elt F)) :
    StableHlo.after opsC V (Proc.devRef .tc main_arg0) = V (Proc.devRef .tc main_arg0) := by
  after_results_simp

theorem after_opsC_main_arg1 (V : Valuation τ sig (Elt F)) :
    StableHlo.after opsC V (Proc.devRef .tc main_arg1) = V (Proc.devRef .tc main_arg1) := by
  after_results_simp

theorem after_opsC_main_arg2 (V : Valuation τ sig (Elt F)) :
    StableHlo.after opsC V (Proc.devRef .tc main_arg2) = V (Proc.devRef .tc main_arg2) := by
  after_results_simp

theorem after_opsC_main_arg3 (V : Valuation τ sig (Elt F)) :
    StableHlo.after opsC V (Proc.devRef .tc main_arg3) = V (Proc.devRef .tc main_arg3) := by
  after_results_simp

theorem after_opsC_main_arg4 (V : Valuation τ sig (Elt F)) :
    StableHlo.after opsC V (Proc.devRef .tc main_arg4) = V (Proc.devRef .tc main_arg4) := by
  after_results_simp

theorem after_opsC_main_arg5 (V : Valuation τ sig (Elt F)) :
    StableHlo.after opsC V (Proc.devRef .tc main_arg5) = V (Proc.devRef .tc main_arg5) := by
  after_results_simp

theorem after_opsC_main_arg6 (V : Valuation τ sig (Elt F)) :
    StableHlo.after opsC V (Proc.devRef .tc main_arg6) = V (Proc.devRef .tc main_arg6) := by
  after_results_simp

theorem after_opsC_main_arg7 (V : Valuation τ sig (Elt F)) :
    StableHlo.after opsC V (Proc.devRef .tc main_arg7) = V (Proc.devRef .tc main_arg7) := by
  after_results_simp

/-- Argument 0 is unchanged by the whole line. -/
theorem after_ops_main_arg0 (M : Valuation τ sig (Elt F)) :
    StableHlo.after ops M (Proc.devRef .tc main_arg0) = M (Proc.devRef .tc main_arg0) := by
  rw [after_ops, after_opsC_main_arg0, after_opsB_main_arg0, after_opsA_main_arg0]

/-- Argument 1 is unchanged by the whole line. -/
theorem after_ops_main_arg1 (M : Valuation τ sig (Elt F)) :
    StableHlo.after ops M (Proc.devRef .tc main_arg1) = M (Proc.devRef .tc main_arg1) := by
  rw [after_ops, after_opsC_main_arg1, after_opsB_main_arg1, after_opsA_main_arg1]

/-- Argument 2 is unchanged by the whole line. -/
theorem after_ops_main_arg2 (M : Valuation τ sig (Elt F)) :
    StableHlo.after ops M (Proc.devRef .tc main_arg2) = M (Proc.devRef .tc main_arg2) := by
  rw [after_ops, after_opsC_main_arg2, after_opsB_main_arg2, after_opsA_main_arg2]

/-- Argument 3 is unchanged by the whole line. -/
theorem after_ops_main_arg3 (M : Valuation τ sig (Elt F)) :
    StableHlo.after ops M (Proc.devRef .tc main_arg3) = M (Proc.devRef .tc main_arg3) := by
  rw [after_ops, after_opsC_main_arg3, after_opsB_main_arg3, after_opsA_main_arg3]

/-- Argument 4 is unchanged by the whole line. -/
theorem after_ops_main_arg4 (M : Valuation τ sig (Elt F)) :
    StableHlo.after ops M (Proc.devRef .tc main_arg4) = M (Proc.devRef .tc main_arg4) := by
  rw [after_ops, after_opsC_main_arg4, after_opsB_main_arg4, after_opsA_main_arg4]

/-- Argument 5 is unchanged by the whole line. -/
theorem after_ops_main_arg5 (M : Valuation τ sig (Elt F)) :
    StableHlo.after ops M (Proc.devRef .tc main_arg5) = M (Proc.devRef .tc main_arg5) := by
  rw [after_ops, after_opsC_main_arg5, after_opsB_main_arg5, after_opsA_main_arg5]

/-- Argument 6 is unchanged by the whole line. -/
theorem after_ops_main_arg6 (M : Valuation τ sig (Elt F)) :
    StableHlo.after ops M (Proc.devRef .tc main_arg6) = M (Proc.devRef .tc main_arg6) := by
  rw [after_ops, after_opsC_main_arg6, after_opsB_main_arg6, after_opsA_main_arg6]

/-- Argument 7 is unchanged by the whole line. -/
theorem after_ops_main_arg7 (M : Valuation τ sig (Elt F)) :
    StableHlo.after ops M (Proc.devRef .tc main_arg7) = M (Proc.devRef .tc main_arg7) := by
  rw [after_ops, after_opsC_main_arg7, after_opsB_main_arg7, after_opsA_main_arg7]

end Cert.ReferenceIdeal.RefRun

end
-- ==== Proof.RefRead.lean ====
import proofs.«162617_j10591389352191_2_alg».proof.Proof.RefRun

/-!
# What the second and third stretches compute, over the buffers they find

Each stretch's output is read as ONE term over the contents of the buffers the stretch reads from earlier
stretches (and the arguments), the earlier stretches left unexpanded:

* `opsB` writes `main_v50`: every token's mixed row scattered to its routing slot (a zero row for the slots no
  token has), the rows as sixteen blocks of 1024, each block through its expert — a matrix product, the rectifier
  squared, a second matrix product — and the blocks as rows again (`expertRows`);
* `opsC` writes `main_v68`: a zero row appended to those rows, every token's row gathered back from its slot,
  times the sigmoid of the second mix's product with the receptance matrix (`gatedRows`).

A slot is used as a row index after the usual wrap of a negative index (`wrapSlot`): a negative slot counts from
the end of the 16385 rows.
-/

set_option maxRecDepth 16384

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The slot column as the scatter and the gather take it: a negative slot counts from the end of the 16385 rows. -/
def wrapSlot (slot : (⟨S16384, .i32⟩ : BufTy).Contents (Elt F)) : (⟨S16384x1, .i32⟩ : BufTy).Contents (Elt F) :=
  broadcastInDim S16384x1 ![0] bcast_S16384_S16384x1_0
    (select (cmpi .slt slot (broadcastInDim S16384 ![] bcast_S_S16384 (constantI S_ 32 0#32)))
      (addi slot (broadcastInDim S16384 ![] bcast_S_S16384 (constantI S_ 32 16385#32))) slot)

/-- The tokens' rows at their slots, sixteen blocks of 1024 rows: the rows of the first mix scattered into 16385
    zero rows, the last row dropped. -/
def expertIn (x : (⟨S8x2048x1024, .f32⟩ : BufTy).Contents (Elt F)) (slot : (⟨S16384, .i32⟩ : BufTy).Contents (Elt F)) : (⟨S16x1024x1024, .f32⟩ : BufTy).Contents (Elt F) :=
  shapeCast S16x1024x1024
    (extractStridedSlice S16384x1024 ![0, 0]
      (Host.scatter scatter_S16385x1024_S16384x1_S16384x1024_1_0_0_1 (fun _ b => b)
        (broadcastInDim S16385x1024 ![] bcast_S_S16385x1024 (constant S_ .f32 0x00000000#32))
        (wrapSlot slot)
        (shapeCast S16384x1024 x shapeCasts_S8x2048x1024_S16384x1024))
      slices_S16385x1024_S16384x1024_0_0)
    shapeCasts_S16384x1024_S16x1024x1024

/-- Each expert's hidden activations: its block times its first matrix, rectified. -/
def expertHidden (x : (⟨S8x2048x1024, .f32⟩ : BufTy).Contents (Elt F)) (slot : (⟨S16384, .i32⟩ : BufTy).Contents (Elt F)) (w1 : (⟨S16x1024x2048, .f32⟩ : BufTy).Contents (Elt F)) :
    (⟨S16x1024x2048, .f32⟩ : BufTy).Contents (Elt F) :=
  maximumf (Host.dotGeneral dot_S16x1024x1024_S16x1024x2048_S16x1024x2048_2_1_1_2_0_0 none (expertIn x slot) w1)
    (broadcastInDim S16x1024x2048 ![] bcast_S_S16x1024x2048 (constant S_ .f32 0x00000000#32))

/-- The experts' outputs as 16384 rows: the squared hidden activations times each expert's second matrix. -/
def expertRows (x : (⟨S8x2048x1024, .f32⟩ : BufTy).Contents (Elt F)) (slot : (⟨S16384, .i32⟩ : BufTy).Contents (Elt F)) (w1 : (⟨S16x1024x2048, .f32⟩ : BufTy).Contents (Elt F))
    (w2 : (⟨S16x2048x1024, .f32⟩ : BufTy).Contents (Elt F)) : (⟨S16384x1024, .f32⟩ : BufTy).Contents (Elt F) :=
  shapeCast S16384x1024
    (Host.dotGeneral dot_S16x1024x2048_S16x2048x1024_S16x1024x1024_2_1_1_2_0_0 none
      (mulf (expertHidden x slot w1) (expertHidden x slot w1)) w2)
    shapeCasts_S16x1024x1024_S16384x1024

/-- The result: every token's row gathered from its slot (a zero row appended for the tokens without one), times
    the sigmoid of the second mix's product with the receptance matrix. -/
def gatedRows (xr : (⟨S8x2048x1024, .f32⟩ : BufTy).Contents (Elt F)) (wr : (⟨S1024x1024, .f32⟩ : BufTy).Contents (Elt F)) (rows : (⟨S16384x1024, .f32⟩ : BufTy).Contents (Elt F))
    (slot : (⟨S16384, .i32⟩ : BufTy).Contents (Elt F)) : (⟨S8x2048x1024, .f32⟩ : BufTy).Contents (Elt F) :=
  mulf
    (Host.divf (broadcastInDim S8x2048x1024 ![] bcast_S_S8x2048x1024 (constant S_ .f32 0x3F800000#32))
      (addf (broadcastInDim S8x2048x1024 ![] bcast_S_S8x2048x1024 (constant S_ .f32 0x3F800000#32))
        (Host.exp (Host.negf (Host.dotGeneral dot_S8x2048x1024_S1024x1024_S8x2048x1024_2_1_01_0_n_n none xr wr)))))
    (shapeCast S8x2048x1024
      (Host.gather gather_S16385x1024_S16384x1_S16384x1024_1_0_n_n_0_1_11024
        (concatenate S16385x1024 0
          [⟨S16384x1024, rows⟩, ⟨S1x1024, broadcastInDim S1x1024 ![] bcast_S_S1x1024 (constant S_ .f32 0x00000000#32)⟩]
          concatenates_S16384x1024_S1x1024_S16385x1024_d0)
        (wrapSlot slot))
      shapeCasts_S16384x1024_S8x2048x1024)

/-- The second stretch's output over the buffers it finds. -/
theorem after_opsB_main_v50 (X : Valuation τ sig (Elt F)) :
    StableHlo.after opsB X (Proc.devRef .tc main_v50)
      = expertRows (X (Proc.devRef .tc main_v7)) (X (Proc.devRef .tc main_v34)) (X (Proc.devRef .tc main_arg6))
          (X (Proc.devRef .tc main_arg7)) := by
  after_results_simp
  rfl

/-- The third stretch's output over the buffers it finds. -/
theorem after_opsC_main_v68 (X : Valuation τ sig (Elt F)) :
    StableHlo.after opsC X (Proc.devRef .tc main_v68)
      = gatedRows (X (Proc.devRef .tc main_v11)) (X (Proc.devRef .tc main_arg5)) (X (Proc.devRef .tc main_v50))
          (X (Proc.devRef .tc main_v34)) := by
  after_results_simp
  rfl

/-! ## Buffers a later stretch only reads -/

theorem after_opsB_main_v7 (V : Valuation τ sig (Elt F)) :
    StableHlo.after opsB V (Proc.devRef .tc main_v7) = V (Proc.devRef .tc main_v7) := by
  after_results_simp

theorem after_opsB_main_v11 (V : Valuation τ sig (Elt F)) :
    StableHlo.after opsB V (Proc.devRef .tc main_v11) = V (Proc.devRef .tc main_v11) := by
  after_results_simp

theorem after_opsB_main_v34 (V : Valuation τ sig (Elt F)) :
    StableHlo.after opsB V (Proc.devRef .tc main_v34) = V (Proc.devRef .tc main_v34) := by
  after_results_simp

theorem after_opsC_main_v7 (V : Valuation τ sig (Elt F)) :
    StableHlo.after opsC V (Proc.devRef .tc main_v7) = V (Proc.devRef .tc main_v7) := by
  after_results_simp

theorem after_opsC_main_v11 (V : Valuation τ sig (Elt F)) :
    StableHlo.after opsC V (Proc.devRef .tc main_v11) = V (Proc.devRef .tc main_v11) := by
  after_results_simp

theorem after_opsC_main_v34 (V : Valuation τ sig (Elt F)) :
    StableHlo.after opsC V (Proc.devRef .tc main_v34) = V (Proc.devRef .tc main_v34) := by
  after_results_simp

theorem after_opsC_main_v50 (V : Valuation τ sig (Elt F)) :
    StableHlo.after opsC V (Proc.devRef .tc main_v50) = V (Proc.devRef .tc main_v50) := by
  after_results_simp

end Cert.ReferenceIdeal.RefRun

end
-- ==== Proof.PrefixEq.lean ====
import proofs.«162617_j10591389352191_2_alg».proof.Proof.RefRun
import proofs.«162617_j10591389352191_2_alg».proof.Proof.Gen.KernelIdeal.Frame

/-!
# The two programs compute the same mixes and the same routing slots

Up to the buffer that holds every token's routing slot, the kernel program's entry function and the reference's are
the same operations on the same arguments: the two token-shift mixes (the input plus a per-channel multiple of its
difference with the previous token's row) and the slot of every token (its expert, a hash of the token id modulo
sixteen, times 1024 plus its rank among the tokens of that expert, or 16384 when the rank is past the capacity).
Read back through each program's fold to the arguments, the three buffers hold the same terms.
-/

set_option maxRecDepth 16384

noncomputable section

namespace Cert.PrefixEq

open Idealize.ShloMosaic Idealize.ShloMosaic.TcCoe Idealize.SL.Sem

variable {F : FTy → Type} [FloatOps F]

/-- The first mix. -/
theorem prefix_v7 (m : (ℓ : Loc Cert.KernelIdeal.nD Cert.KernelIdeal.τ Cert.KernelIdeal.sig) → Buf (Elt F) ℓ) (ρ : Dev Cert.KernelIdeal.nD → PrngReg) (c : Dev Cert.KernelIdeal.nD)
    (M' : Valuation Cert.ReferenceIdeal.τ Cert.ReferenceIdeal.sig (Elt F))
    (h0 : M' (Proc.devRef .tc Cert.ReferenceIdeal.main_arg0) = m ((c.tc : Thread Cert.KernelIdeal.nD Cert.KernelIdeal.τ).loc Cert.KernelIdeal.main_arg0))
    (h2 : M' (Proc.devRef .tc Cert.ReferenceIdeal.main_arg2) = m ((c.tc : Thread Cert.KernelIdeal.nD Cert.KernelIdeal.τ).loc Cert.KernelIdeal.main_arg2))
    (h3 : M' (Proc.devRef .tc Cert.ReferenceIdeal.main_arg3) = m ((c.tc : Thread Cert.KernelIdeal.nD Cert.KernelIdeal.τ).loc Cert.KernelIdeal.main_arg3)) :
    Cert.KernelIdeal.Gen.W8 m ρ c (Proc.devRef .tc Cert.KernelIdeal.main_v7) = StableHlo.after Cert.ReferenceIdeal.RefRun.opsA M' (Proc.devRef .tc Cert.ReferenceIdeal.main_v7) := by
  dsimp only [Cert.KernelIdeal.Gen.W8, Cert.KernelIdeal.Gen.W7, Cert.KernelIdeal.Gen.W6, Cert.KernelIdeal.Gen.W5, Cert.KernelIdeal.Gen.W4, Cert.KernelIdeal.Gen.W3, Cert.KernelIdeal.Gen.W2, Cert.KernelIdeal.Gen.W1, Cert.KernelIdeal.Gen.W0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h0, h2, h3]

/-- The second mix. -/
theorem prefix_v11 (m : (ℓ : Loc Cert.KernelIdeal.nD Cert.KernelIdeal.τ Cert.KernelIdeal.sig) → Buf (Elt F) ℓ) (ρ : Dev Cert.KernelIdeal.nD → PrngReg) (c : Dev Cert.KernelIdeal.nD)
    (M' : Valuation Cert.ReferenceIdeal.τ Cert.ReferenceIdeal.sig (Elt F))
    (h0 : M' (Proc.devRef .tc Cert.ReferenceIdeal.main_arg0) = m ((c.tc : Thread Cert.KernelIdeal.nD Cert.KernelIdeal.τ).loc Cert.KernelIdeal.main_arg0))
    (h2 : M' (Proc.devRef .tc Cert.ReferenceIdeal.main_arg2) = m ((c.tc : Thread Cert.KernelIdeal.nD Cert.KernelIdeal.τ).loc Cert.KernelIdeal.main_arg2))
    (h4 : M' (Proc.devRef .tc Cert.ReferenceIdeal.main_arg4) = m ((c.tc : Thread Cert.KernelIdeal.nD Cert.KernelIdeal.τ).loc Cert.KernelIdeal.main_arg4)) :
    Cert.KernelIdeal.Gen.W8 m ρ c (Proc.devRef .tc Cert.KernelIdeal.main_v11) = StableHlo.after Cert.ReferenceIdeal.RefRun.opsA M' (Proc.devRef .tc Cert.ReferenceIdeal.main_v11) := by
  dsimp only [Cert.KernelIdeal.Gen.W8, Cert.KernelIdeal.Gen.W7, Cert.KernelIdeal.Gen.W6, Cert.KernelIdeal.Gen.W5, Cert.KernelIdeal.Gen.W4, Cert.KernelIdeal.Gen.W3, Cert.KernelIdeal.Gen.W2, Cert.KernelIdeal.Gen.W1, Cert.KernelIdeal.Gen.W0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h0, h2, h4]

set_option maxHeartbeats 4000000 in
/-- Every token's routing slot. -/
theorem prefix_v34 (m : (ℓ : Loc Cert.KernelIdeal.nD Cert.KernelIdeal.τ Cert.KernelIdeal.sig) → Buf (Elt F) ℓ) (ρ : Dev Cert.KernelIdeal.nD → PrngReg) (c : Dev Cert.KernelIdeal.nD)
    (M' : Valuation Cert.ReferenceIdeal.τ Cert.ReferenceIdeal.sig (Elt F))
    (h1 : M' (Proc.devRef .tc Cert.ReferenceIdeal.main_arg1) = m ((c.tc : Thread Cert.KernelIdeal.nD Cert.KernelIdeal.τ).loc Cert.KernelIdeal.main_arg1)) :
    Cert.KernelIdeal.Gen.W8 m ρ c (Proc.devRef .tc Cert.KernelIdeal.main_v34) = StableHlo.after Cert.ReferenceIdeal.RefRun.opsA M' (Proc.devRef .tc Cert.ReferenceIdeal.main_v34) := by
  dsimp only [Cert.KernelIdeal.Gen.W8, Cert.KernelIdeal.Gen.W7, Cert.KernelIdeal.Gen.W6, Cert.KernelIdeal.Gen.W5, Cert.KernelIdeal.Gen.W4, Cert.KernelIdeal.Gen.W3, Cert.KernelIdeal.Gen.W2, Cert.KernelIdeal.Gen.W1, Cert.KernelIdeal.Gen.W0]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rw [h1]
  all_goals rfl

end Cert.PrefixEq

end
-- ==== Proof.BridgeRecept.lean ====
/-
  The reference's receptance gate against the kernel-side specification.

  The reference computes, on the [8, 2048, 1024] array of tokens,

      1 / (1 + exp (−(xr · wrᵀ))) · y            (contracting the last axis of xr with axis 1 of wr),

  where y is a [16384, 1024] array of rows viewed as [8, 2048, 1024].  The kernel program flattens xr to
  [16384, 1024] rows, forms `recept` there and views the result as [8, 2048, 1024] again.  Both views send (b, t) to
  the row 2048·b + t, the quotient 1 / (1 + exp (−s)) is the logistic function of s, and the word 0x3F800000 is the
  number one: so the two sides agree entry by entry.  No finiteness is used.
-/
import proofs.«162617_j10591389352191_2_alg».proof.Proof.Gen.KernelIdeal
import proofs.«162617_j10591389352191_2_alg».proof.Proof.Gen.ReferenceIdeal
import proofs.«162617_j10591389352191_2_alg».proof.Proof.ReceptSpec
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.Bridge

open Idealize.ShloMosaic Idealize.ShloMosaic.ValueIdx
open Cert.KernelIdeal.ReceptValue (recept recept_ix2)

/-- The reference's product: the last axis of the tokens against axis 1 of the weight; the token axes (0, 1) and the
    weight's axis 0 are kept, in that order. -/
abbrev dotGate : DotDims Cert.ReferenceIdeal.S8x2048x1024 Cert.ReferenceIdeal.S1024x1024 Cert.ReferenceIdeal.S8x2048x1024 :=
  Cert.ReferenceIdeal.dot_S8x2048x1024_S1024x1024_S8x2048x1024_2_1_01_0_n_n

/-! ## Where the reference's product reads its operands -/

theorem gate_lhs0 (i : Cert.ReferenceIdeal.S8x2048x1024.Idx) (k : dotGate.contr.Idx) :
    (dotGate.lhsIdx i k 0).val = (i 0).val := by
  unfold DotDims.lhsIdx
  rw [dif_neg (show ¬(0 : Fin Cert.ReferenceIdeal.S8x2048x1024.rank) ∈ dotGate.lhsBatch by decide),
    dif_pos (show (0 : Fin Cert.ReferenceIdeal.S8x2048x1024.rank) ∈ dotGate.lhsNonContracting by decide)]
  rfl

theorem gate_lhs1 (i : Cert.ReferenceIdeal.S8x2048x1024.Idx) (k : dotGate.contr.Idx) :
    (dotGate.lhsIdx i k 1).val = (i 1).val := by
  unfold DotDims.lhsIdx
  rw [dif_neg (show ¬(1 : Fin Cert.ReferenceIdeal.S8x2048x1024.rank) ∈ dotGate.lhsBatch by decide),
    dif_pos (show (1 : Fin Cert.ReferenceIdeal.S8x2048x1024.rank) ∈ dotGate.lhsNonContracting by decide)]
  rfl

theorem gate_lhs2 (i : Cert.ReferenceIdeal.S8x2048x1024.Idx) (k : dotGate.contr.Idx) :
    (dotGate.lhsIdx i k 2).val = (k ⟨0, by decide⟩).val :=
  dotGate.lhsIdx_val_of_single rfl i k

theorem gate_rhs0 (i : Cert.ReferenceIdeal.S8x2048x1024.Idx) (k : dotGate.contr.Idx) :
    (dotGate.rhsIdx i k 0).val = (i 2).val := by
  unfold DotDims.rhsIdx
  rw [dif_neg (show ¬(0 : Fin Cert.ReferenceIdeal.S1024x1024.rank) ∈ dotGate.rhsBatch by decide),
    dif_pos (show (0 : Fin Cert.ReferenceIdeal.S1024x1024.rank) ∈ dotGate.rhsNonContracting by decide)]
  rfl

theorem gate_rhs1 (i : Cert.ReferenceIdeal.S8x2048x1024.Idx) (k : dotGate.contr.Idx) :
    (dotGate.rhsIdx i k 1).val = (k ⟨0, by decide⟩).val :=
  dotGate.rhsIdx_val_of_single rfl i k

/-- The reference's product at (b, t, e): the inner product of token (b, t) with row e of the weight. -/
theorem dotGate_at (xr : FVec Ideal Cert.ReferenceIdeal.S8x2048x1024 .f32) (wr : FVec Ideal Cert.ReferenceIdeal.S1024x1024 .f32)
    (b : Fin 8) (t : Fin 2048) (e : Fin 1024) :
    Host.dotGeneral dotGate none xr wr (ix3 b t e) = ∑ d : Fin 1024, xr (ix3 b t d) * wr (ix2 e d) := by
  simp only [Host.dotGeneral]
  rw [Ideal.dotGeneral_apply, ← Equiv.sum_comp (contrEquiv1 dotGate 1024 rfl rfl).symm]
  refine Finset.sum_congr rfl fun d _ => ?_
  have hd := contrEquiv1_symm_val dotGate 1024 rfl rfl d
  have el : dotGate.lhsIdx (ix3 b t e) ((contrEquiv1 dotGate 1024 rfl rfl).symm d) = ix3 b t d := funext fun a => Fin.ext (by
    match a with
    | ⟨0, _⟩ => exact gate_lhs0 _ _
    | ⟨1, _⟩ => exact gate_lhs1 _ _
    | ⟨2, _⟩ => exact (gate_lhs2 _ _).trans hd)
  have er : dotGate.rhsIdx (ix3 b t e) ((contrEquiv1 dotGate 1024 rfl rfl).symm d) = ix2 e d := funext fun a => Fin.ext (by
    match a with
    | ⟨0, _⟩ => exact gate_rhs0 _ _
    | ⟨1, _⟩ => exact (gate_rhs1 _ _).trans hd)
  rw [el, er]

/-! ## The two sides, entry by entry -/

/-- The reference's gated output is the kernel-side `recept` of the flattened tokens, viewed as [8, 2048, 1024]. -/
theorem recept_bridge (xr : FVec Ideal Cert.ReferenceIdeal.S8x2048x1024 .f32) (wr : FVec Ideal Cert.ReferenceIdeal.S1024x1024 .f32)
    (y : (⟨2, ![16384, 1024]⟩ : Shape).Idx → EReal) :
    mulf (Host.divf (broadcastInDim Cert.ReferenceIdeal.S8x2048x1024 ![] Cert.ReferenceIdeal.Gen.bcast_S_S8x2048x1024
            (constant (F := Ideal) Cert.ReferenceIdeal.S_ .f32 0x3F800000#32))
          (addf (broadcastInDim Cert.ReferenceIdeal.S8x2048x1024 ![] Cert.ReferenceIdeal.Gen.bcast_S_S8x2048x1024
              (constant (F := Ideal) Cert.ReferenceIdeal.S_ .f32 0x3F800000#32))
            (Host.exp (Host.negf (Host.dotGeneral
              Cert.ReferenceIdeal.dot_S8x2048x1024_S1024x1024_S8x2048x1024_2_1_01_0_n_n none xr wr)))))
        (shapeCast Cert.ReferenceIdeal.S8x2048x1024 y Cert.ReferenceIdeal.Gen.shapeCasts_S16384x1024_S8x2048x1024)
      = shapeCast Cert.KernelIdeal.S8x2048x1024
          (recept (shapeCast Cert.KernelIdeal.S16384x1024 xr Cert.KernelIdeal.Gen.shapeCasts_S8x2048x1024_S16384x1024) wr y)
          Cert.KernelIdeal.Gen.shapeCasts_S16384x1024_S8x2048x1024 := by
  funext i
  obtain ⟨b, t, e, rfl⟩ : ∃ (b : Fin 8) (t : Fin 2048) (e : Fin 1024), i = ix3 b t e := ⟨i 0, i 1, i 2, eq_ix3 i⟩
  have hb : b.val < 8 := b.isLt
  have ht : t.val < 2048 := t.isLt
  have hn : b.val * 2048 + t.val < 16384 := by omega
  -- token (b, t) is row 2048·b + t of the flattened arrays
  have hy : shapeCast Cert.ReferenceIdeal.S8x2048x1024 y Cert.ReferenceIdeal.Gen.shapeCasts_S16384x1024_S8x2048x1024 (ix3 b t e)
      = y (ix2 ⟨b.val * 2048 + t.val, hn⟩ e) :=
    shapeCast_apply y _ (ix3 b t e) (ix2 ⟨b.val * 2048 + t.val, hn⟩ e) (by
      rw [Shape.rowMajor_val_two, Shape.rowMajor_val_three]
      show (b.val * 2048 + t.val) * 1024 + e.val = (b.val * 2048 + t.val) * 1024 + e.val
      rfl)
  have hx : ∀ d : Fin 1024,
      shapeCast Cert.KernelIdeal.S16384x1024 xr Cert.KernelIdeal.Gen.shapeCasts_S8x2048x1024_S16384x1024
        (ix2 ⟨b.val * 2048 + t.val, hn⟩ d) = xr (ix3 b t d) := fun d =>
    shapeCast_apply xr _ (ix2 ⟨b.val * 2048 + t.val, hn⟩ d) (ix3 b t d) (by
      rw [Shape.rowMajor_val_two, Shape.rowMajor_val_three]
      show (b.val * 2048 + t.val) * 1024 + d.val = (b.val * 2048 + t.val) * 1024 + d.val
      rfl)
  rw [shapeCast_apply _ Cert.KernelIdeal.Gen.shapeCasts_S16384x1024_S8x2048x1024 (ix3 b t e) (ix2 ⟨b.val * 2048 + t.val, hn⟩ e) (by
      rw [Shape.rowMajor_val_two, Shape.rowMajor_val_three]
      show (b.val * 2048 + t.val) * 1024 + e.val = (b.val * 2048 + t.val) * 1024 + e.val
      rfl), recept_ix2]
  simp only [hx]
  show Ideal.div (Ideal.ofBits .f32 0x3F800000#32)
      (Ideal.ofBits .f32 0x3F800000#32 + Ideal.exp (-(Host.dotGeneral dotGate none xr wr (ix3 b t e))))
      * shapeCast Cert.ReferenceIdeal.S8x2048x1024 y Cert.ReferenceIdeal.Gen.shapeCasts_S16384x1024_S8x2048x1024 (ix3 b t e) = _
  rw [Ideal.ofBits_one_f32, hy, dotGate_at]
  rfl

end Cert.Bridge

end
-- ==== Proof.BridgeFfn.lean ====
/-
  The reference's per-expert feed-forward against the kernel-side specification.

  For each of the 16 experts the reference multiplies the expert's [1024, 1024] block of rows by its [1024, 2048]
  key weight, clamps the product below at zero, squares it, and multiplies by the expert's [2048, 1024] value weight.
  Both products are batched over the expert axis and contract the last axis of the left operand with the middle
  axis of the right one.  Read entry by entry this is the specification `ffn`:

      ffn x wk wv (e, r, d) = ∑ f, (max (∑ k, x (e, r, k) · wk (e, k, f)) 0)² · wv (e, f, d).

  The word 0x00000000 is the number zero; no finiteness is used.
-/
import proofs.«162617_j10591389352191_2_alg».proof.Proof.Gen.KernelIdeal
import proofs.«162617_j10591389352191_2_alg».proof.Proof.Gen.ReferenceIdeal
import proofs.«162617_j10591389352191_2_alg».proof.Proof.FfnSpec
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.Bridge

open Idealize.ShloMosaic Idealize.ShloMosaic.ValueIdx
open Cert.KernelIdeal.FfnValue (ffn ffn_apply)

/-- The first product: rows [16, 1024, 1024] against key weights [16, 1024, 2048], batched over the expert axis. -/
abbrev dotUp : DotDims Cert.ReferenceIdeal.S16x1024x1024 Cert.ReferenceIdeal.S16x1024x2048 Cert.ReferenceIdeal.S16x1024x2048 :=
  Cert.ReferenceIdeal.dot_S16x1024x1024_S16x1024x2048_S16x1024x2048_2_1_1_2_0_0

/-- The second product: hidden [16, 1024, 2048] against value weights [16, 2048, 1024], batched over the expert axis. -/
abbrev dotDown : DotDims Cert.ReferenceIdeal.S16x1024x2048 Cert.ReferenceIdeal.S16x2048x1024 Cert.ReferenceIdeal.S16x1024x1024 :=
  Cert.ReferenceIdeal.dot_S16x1024x2048_S16x2048x1024_S16x1024x1024_2_1_1_2_0_0

/-! ## Where the first product reads its operands: (e, r, k) and (e, k, f) at the output (e, r, f) -/

theorem up_lhs0 (i : Cert.ReferenceIdeal.S16x1024x2048.Idx) (k : dotUp.contr.Idx) : (dotUp.lhsIdx i k 0).val = (i 0).val := by
  unfold DotDims.lhsIdx
  rw [dif_pos (show (0 : Fin Cert.ReferenceIdeal.S16x1024x1024.rank) ∈ dotUp.lhsBatch by decide)]
  rfl

theorem up_lhs1 (i : Cert.ReferenceIdeal.S16x1024x2048.Idx) (k : dotUp.contr.Idx) : (dotUp.lhsIdx i k 1).val = (i 1).val := by
  unfold DotDims.lhsIdx
  rw [dif_neg (show ¬(1 : Fin Cert.ReferenceIdeal.S16x1024x1024.rank) ∈ dotUp.lhsBatch by decide),
    dif_pos (show (1 : Fin Cert.ReferenceIdeal.S16x1024x1024.rank) ∈ dotUp.lhsNonContracting by decide)]
  rfl

theorem up_lhs2 (i : Cert.ReferenceIdeal.S16x1024x2048.Idx) (k : dotUp.contr.Idx) :
    (dotUp.lhsIdx i k 2).val = (k ⟨0, by decide⟩).val :=
  dotUp.lhsIdx_val_of_single rfl i k

theorem up_rhs0 (i : Cert.ReferenceIdeal.S16x1024x2048.Idx) (k : dotUp.contr.Idx) : (dotUp.rhsIdx i k 0).val = (i 0).val := by
  unfold DotDims.rhsIdx
  rw [dif_pos (show (0 : Fin Cert.ReferenceIdeal.S16x1024x2048.rank) ∈ dotUp.rhsBatch by decide)]
  rfl

theorem up_rhs1 (i : Cert.ReferenceIdeal.S16x1024x2048.Idx) (k : dotUp.contr.Idx) :
    (dotUp.rhsIdx i k 1).val = (k ⟨0, by decide⟩).val :=
  dotUp.rhsIdx_val_of_single rfl i k

theorem up_rhs2 (i : Cert.ReferenceIdeal.S16x1024x2048.Idx) (k : dotUp.contr.Idx) : (dotUp.rhsIdx i k 2).val = (i 2).val := by
  unfold DotDims.rhsIdx
  rw [dif_neg (show ¬(2 : Fin Cert.ReferenceIdeal.S16x1024x2048.rank) ∈ dotUp.rhsBatch by decide),
    dif_pos (show (2 : Fin Cert.ReferenceIdeal.S16x1024x2048.rank) ∈ dotUp.rhsNonContracting by decide)]
  rfl

/-- The first product at (e, r, f). -/
theorem dotUp_at (x : FVec Ideal Cert.ReferenceIdeal.S16x1024x1024 .f32) (wk : FVec Ideal Cert.ReferenceIdeal.S16x1024x2048 .f32)
    (e : Fin 16) (r : Fin 1024) (f : Fin 2048) :
    Host.dotGeneral dotUp none x wk (ix3 e r f) = ∑ k : Fin 1024, x (ix3 e r k) * wk (ix3 e k f) := by
  simp only [Host.dotGeneral]
  rw [Ideal.dotGeneral_apply, ← Equiv.sum_comp (contrEquiv1 dotUp 1024 rfl rfl).symm]
  refine Finset.sum_congr rfl fun k _ => ?_
  have hk := contrEquiv1_symm_val dotUp 1024 rfl rfl k
  have el : dotUp.lhsIdx (ix3 e r f) ((contrEquiv1 dotUp 1024 rfl rfl).symm k) = ix3 e r k := funext fun a => Fin.ext (by
    match a with
    | ⟨0, _⟩ => exact up_lhs0 _ _
    | ⟨1, _⟩ => exact up_lhs1 _ _
    | ⟨2, _⟩ => exact (up_lhs2 _ _).trans hk)
  have er : dotUp.rhsIdx (ix3 e r f) ((contrEquiv1 dotUp 1024 rfl rfl).symm k) = ix3 e k f := funext fun a => Fin.ext (by
    match a with
    | ⟨0, _⟩ => exact up_rhs0 _ _
    | ⟨1, _⟩ => exact (up_rhs1 _ _).trans hk
    | ⟨2, _⟩ => exact up_rhs2 _ _)
  rw [el, er]

/-! ## Where the second product reads its operands: (e, r, f) and (e, f, d) at the output (e, r, d) -/

theorem down_lhs0 (i : Cert.ReferenceIdeal.S16x1024x1024.Idx) (k : dotDown.contr.Idx) : (dotDown.lhsIdx i k 0).val = (i 0).val := by
  unfold DotDims.lhsIdx
  rw [dif_pos (show (0 : Fin Cert.ReferenceIdeal.S16x1024x2048.rank) ∈ dotDown.lhsBatch by decide)]
  rfl

theorem down_lhs1 (i : Cert.ReferenceIdeal.S16x1024x1024.Idx) (k : dotDown.contr.Idx) : (dotDown.lhsIdx i k 1).val = (i 1).val := by
  unfold DotDims.lhsIdx
  rw [dif_neg (show ¬(1 : Fin Cert.ReferenceIdeal.S16x1024x2048.rank) ∈ dotDown.lhsBatch by decide),
    dif_pos (show (1 : Fin Cert.ReferenceIdeal.S16x1024x2048.rank) ∈ dotDown.lhsNonContracting by decide)]
  rfl

theorem down_lhs2 (i : Cert.ReferenceIdeal.S16x1024x1024.Idx) (k : dotDown.contr.Idx) :
    (dotDown.lhsIdx i k 2).val = (k ⟨0, by decide⟩).val :=
  dotDown.lhsIdx_val_of_single rfl i k

theorem down_rhs0 (i : Cert.ReferenceIdeal.S16x1024x1024.Idx) (k : dotDown.contr.Idx) : (dotDown.rhsIdx i k 0).val = (i 0).val := by
  unfold DotDims.rhsIdx
  rw [dif_pos (show (0 : Fin Cert.ReferenceIdeal.S16x2048x1024.rank) ∈ dotDown.rhsBatch by decide)]
  rfl

theorem down_rhs1 (i : Cert.ReferenceIdeal.S16x1024x1024.Idx) (k : dotDown.contr.Idx) :
    (dotDown.rhsIdx i k 1).val = (k ⟨0, by decide⟩).val :=
  dotDown.rhsIdx_val_of_single rfl i k

theorem down_rhs2 (i : Cert.ReferenceIdeal.S16x1024x1024.Idx) (k : dotDown.contr.Idx) : (dotDown.rhsIdx i k 2).val = (i 2).val := by
  unfold DotDims.rhsIdx
  rw [dif_neg (show ¬(2 : Fin Cert.ReferenceIdeal.S16x2048x1024.rank) ∈ dotDown.rhsBatch by decide),
    dif_pos (show (2 : Fin Cert.ReferenceIdeal.S16x2048x1024.rank) ∈ dotDown.rhsNonContracting by decide)]
  rfl

/-- The second product at (e, r, d). -/
theorem dotDown_at (h : FVec Ideal Cert.ReferenceIdeal.S16x1024x2048 .f32) (wv : FVec Ideal Cert.ReferenceIdeal.S16x2048x1024 .f32)
    (e : Fin 16) (r : Fin 1024) (d : Fin 1024) :
    Host.dotGeneral dotDown none h wv (ix3 e r d) = ∑ f : Fin 2048, h (ix3 e r f) * wv (ix3 e f d) := by
  simp only [Host.dotGeneral]
  rw [Ideal.dotGeneral_apply, ← Equiv.sum_comp (contrEquiv1 dotDown 2048 rfl rfl).symm]
  refine Finset.sum_congr rfl fun f _ => ?_
  have hf := contrEquiv1_symm_val dotDown 2048 rfl rfl f
  have el : dotDown.lhsIdx (ix3 e r d) ((contrEquiv1 dotDown 2048 rfl rfl).symm f) = ix3 e r f := funext fun a => Fin.ext (by
    match a with
    | ⟨0, _⟩ => exact down_lhs0 _ _
    | ⟨1, _⟩ => exact down_lhs1 _ _
    | ⟨2, _⟩ => exact (down_lhs2 _ _).trans hf)
  have er : dotDown.rhsIdx (ix3 e r d) ((contrEquiv1 dotDown 2048 rfl rfl).symm f) = ix3 e f d := funext fun a => Fin.ext (by
    match a with
    | ⟨0, _⟩ => exact down_rhs0 _ _
    | ⟨1, _⟩ => exact (down_rhs1 _ _).trans hf
    | ⟨2, _⟩ => exact down_rhs2 _ _)
  rw [el, er]

/-! ## The two sides, entry by entry -/

/-- The reference's clamped, squared and projected product is the kernel-side `ffn`. -/
theorem ffn_bridge (x : FVec Ideal Cert.ReferenceIdeal.S16x1024x1024 .f32) (wk : FVec Ideal Cert.ReferenceIdeal.S16x1024x2048 .f32)
    (wv : FVec Ideal Cert.ReferenceIdeal.S16x2048x1024 .f32) :
    Host.dotGeneral Cert.ReferenceIdeal.dot_S16x1024x2048_S16x2048x1024_S16x1024x1024_2_1_1_2_0_0 none
        (mulf
          (maximumf (Host.dotGeneral Cert.ReferenceIdeal.dot_S16x1024x1024_S16x1024x2048_S16x1024x2048_2_1_1_2_0_0 none x wk)
            (broadcastInDim Cert.ReferenceIdeal.S16x1024x2048 ![] Cert.ReferenceIdeal.Gen.bcast_S_S16x1024x2048
              (constant (F := Ideal) Cert.ReferenceIdeal.S_ .f32 0x00000000#32)))
          (maximumf (Host.dotGeneral Cert.ReferenceIdeal.dot_S16x1024x1024_S16x1024x2048_S16x1024x2048_2_1_1_2_0_0 none x wk)
            (broadcastInDim Cert.ReferenceIdeal.S16x1024x2048 ![] Cert.ReferenceIdeal.Gen.bcast_S_S16x1024x2048
              (constant (F := Ideal) Cert.ReferenceIdeal.S_ .f32 0x00000000#32))))
        wv
      = ffn x wk wv := by
  funext i
  obtain ⟨e, r, d, rfl⟩ : ∃ (e : Fin 16) (r : Fin 1024) (d : Fin 1024), i = ix3 e r d := ⟨i 0, i 1, i 2, eq_ix3 i⟩
  refine (dotDown_at _ wv e r d).trans ?_
  rw [ffn_apply]
  refine Finset.sum_congr rfl fun f _ => ?_
  show (max (Host.dotGeneral dotUp none x wk (ix3 e r f)) (Ideal.ofBits .f32 0x00000000#32)
      * max (Host.dotGeneral dotUp none x wk (ix3 e r f)) (Ideal.ofBits .f32 0x00000000#32)) * wv (ix3 e f d) = _
  rw [dotUp_at, Ideal.ofBits_zero_f32]

end Cert.Bridge

end
-- ==== Proof.BridgeCombine.lean ====
/-
  The gather that brings the experts' output rows back to token order is one function in the two programs.

  Both programs append one zero row to the [16384, 1024] matrix of rows and gather, for every token, the row at the
  token's slot index (a negative index wrapped once by 16385, so that the sentinel slot reads the appended row).
  The kernel program does this on bf16 rows and the reference on f32 rows; over the extended reals a row is a row,
  and the appended row is the number zero in either format.  The dimension numbers, the shapes and the index
  column are spelt the same way in both programs.
-/
import proofs.«162617_j10591389352191_2_alg».proof.Proof.KRead
import proofs.«162617_j10591389352191_2_alg».proof.Proof.RefRead
import Idealize.ShloMosaic.PureOps.Ideal.Laws
import Idealize.ShloMosaic.Lib.IdealHost

noncomputable section

namespace Cert.Bridge

open Idealize.ShloMosaic

/-- The appended row: the bf16 zero pattern and the f32 zero pattern are both the number zero. -/
theorem zero_row_eq :
    (broadcastInDim Cert.KernelIdeal.S1x1024 ![] Cert.KernelIdeal.Gen.bcast_S_S1x1024
        (constant (F := Ideal) Cert.KernelIdeal.S_ .bf16 0x0000#16) : Cert.KernelIdeal.S1x1024.Idx → EReal)
      = broadcastInDim Cert.ReferenceIdeal.S1x1024 ![] Cert.ReferenceIdeal.Gen.bcast_S_S1x1024
          (constant (F := Ideal) Cert.ReferenceIdeal.S_ .f32 0x00000000#32) := by
  funext j
  show Ideal.ofBits .bf16 0x0000#16 = Ideal.ofBits .f32 0x00000000#32
  rw [Ideal.ofBits_zero_bf16, Ideal.ofBits_zero_f32]

/-- The kernel program's padded gather of the rows through the slot column is the reference's. -/
theorem combine_bridge (rows : FVec Ideal Cert.KernelIdeal.S16384x1024 .bf16) (s : IVec Cert.KernelIdeal.S16384 32) :
    (Cert.KernelIdeal.KRead.gatherPadded (F := Ideal) rows (Cert.KernelIdeal.KRead.idxCol s)
        : (⟨2, ![16384, 1024]⟩ : Shape).Idx → EReal)
      = Host.gather Cert.ReferenceIdeal.gather_S16385x1024_S16384x1_S16384x1024_1_0_n_n_0_1_11024
          (concatenate Cert.ReferenceIdeal.S16385x1024 0
            [⟨Cert.ReferenceIdeal.S16384x1024, rows⟩,
             ⟨Cert.ReferenceIdeal.S1x1024, broadcastInDim Cert.ReferenceIdeal.S1x1024 ![] Cert.ReferenceIdeal.Gen.bcast_S_S1x1024
                (constant (F := Ideal) Cert.ReferenceIdeal.S_ .f32 0x00000000#32)⟩]
            Cert.ReferenceIdeal.Gen.concatenates_S16384x1024_S1x1024_S16385x1024_d0)
          (Cert.ReferenceIdeal.RefRun.wrapSlot (F := Ideal) s) := by
  unfold Cert.KernelIdeal.KRead.gatherPadded
  exact congrArg (fun z : Cert.ReferenceIdeal.S1x1024.Idx → EReal =>
    Host.gather Cert.ReferenceIdeal.gather_S16385x1024_S16384x1_S16384x1024_1_0_n_n_0_1_11024
      (concatenate Cert.ReferenceIdeal.S16385x1024 0
        [⟨Cert.ReferenceIdeal.S16384x1024, rows⟩, ⟨Cert.ReferenceIdeal.S1x1024, z⟩]
        Cert.ReferenceIdeal.Gen.concatenates_S16384x1024_S1x1024_S16385x1024_d0)
      (Cert.ReferenceIdeal.RefRun.wrapSlot (F := Ideal) s)) zero_row_eq

end Cert.Bridge

end
-- ==== Proof.LibScatterSet.lean ====
/-
  A "set" scatter read at an index.

  `Host.scatter d (fun _ b => b) x idx upd` folds the updates into the operand in row-major order of the update
  indices; with the body "return the update" a later update to an element simply replaces an earlier one. So the
  result at an operand index `i` is the update at the LAST update index (in row-major order) whose result index is
  `i`, and the operand's own element when no update index lands on `i`. The two theorems below say exactly this,
  for any dimension numbers; they are proved from two facts about a left fold whose step either leaves an element
  alone (a miss) or overwrites it with a value that depends on the step's index only (a hit).
-/
import Mathlib.Data.List.OfFn
import Mathlib.Data.List.FinRange
import Idealize.ShloMosaic.PureOps.ShapeOps

namespace Cert.LibScatterSet

open Idealize.ShloMosaic

/-- A fold all of whose steps miss the element `i` leaves it as it was. -/
theorem foldl_miss {ι κ α : Type*} (step : (κ → α) → ι → κ → α) (P : ι → Prop) (i : κ)
    (hmiss : ∀ r n, ¬ P n → step r n i = r i) :
    ∀ (l : List ι) (x : κ → α), (∀ n ∈ l, ¬ P n) → l.foldl step x i = x i
  | [], _, _ => rfl
  | a :: l, x, h => by
    rw [List.foldl_cons, foldl_miss step P i hmiss l _ fun n hn => h n (List.mem_cons_of_mem _ hn),
      hmiss x a (h a List.mem_cons_self)]

/-- A fold with a hit at `n` and only misses after it ends with the hit's value at `i`. -/
theorem foldl_last_hit {ι κ α : Type*} (step : (κ → α) → ι → κ → α) (P : ι → Prop) (i : κ) (val : ι → α)
    (hmiss : ∀ r n, ¬ P n → step r n i = r i) (hhit : ∀ r n, P n → step r n i = val n)
    (l₁ l₂ : List ι) (n : ι) (x : κ → α) (hn : P n) (hl₂ : ∀ n' ∈ l₂, ¬ P n') :
    (l₁ ++ n :: l₂).foldl step x i = val n := by
  rw [List.foldl_append, List.foldl_cons, foldl_miss step P i hmiss l₂ _ hl₂, hhit _ n hn]

/-- The indices `0, 1, …, N − 1` in order: every index after a given one in the list is larger. -/
theorem finRange_split {N : Nat} (n : Fin N) :
    ∃ l₁ l₂ : List (Fin N), List.finRange N = l₁ ++ n :: l₂ ∧ ∀ n' ∈ l₂, n < n' := by
  obtain ⟨l₁, l₂, h⟩ := List.append_of_mem (List.mem_finRange n)
  refine ⟨l₁, l₂, h, ?_⟩
  have hp : (List.finRange N).Pairwise (· < ·) := by
    rw [← List.ofFn_id]; exact List.pairwise_ofFn.mpr fun i j hij => hij
  rw [h] at hp
  exact fun n' hn' => List.rel_of_pairwise_cons (List.pairwise_append.mp hp).2.1 hn'

variable {s si u : Shape} {w : Nat} {α : Type}

/-- No update index lands on `i`: the operand's element stays. -/
theorem scatter_set_of_none (d : ScatterDims s si u) (x : s.Idx → α) (idx : IVec si w) (upd : u.Idx → α) (i : s.Idx)
    (hnone : ∀ j : u.Idx, d.resultIdx? j idx ≠ some i) :
    Host.scatter d (fun _ b => b) x idx upd i = x i := by
  unfold Host.scatter
  refine foldl_miss _ (fun n => d.resultIdx? (u.rowMajor.symm n) idx = some i) i (fun r n hn => ?_) _ x
    (fun n _ => hnone _)
  dsimp only
  generalize d.resultIdx? (u.rowMajor.symm n) idx = o at hn ⊢
  cases o with
  | none => rfl
  | some k => exact if_neg fun e => hn (by rw [e])

/-- The update index `j` lands on `i` and no later one (in row-major order) does: the result there is `j`'s update. -/
theorem scatter_set_of_last (d : ScatterDims s si u) (x : s.Idx → α) (idx : IVec si w) (upd : u.Idx → α) (i : s.Idx)
    (j : u.Idx) (hj : d.resultIdx? j idx = some i)
    (hlast : ∀ j' : u.Idx, u.rowMajor j < u.rowMajor j' → d.resultIdx? j' idx ≠ some i) :
    Host.scatter d (fun _ b => b) x idx upd i = upd j := by
  unfold Host.scatter
  obtain ⟨l₁, l₂, hl, hgt⟩ := finRange_split (u.rowMajor j)
  rw [hl]
  refine (foldl_last_hit _ (fun n => d.resultIdx? (u.rowMajor.symm n) idx = some i) i
    (fun n => upd (u.rowMajor.symm n)) (fun r n hn => ?_) (fun r n hn => ?_) l₁ l₂ _ x ?_ ?_).trans ?_
  · dsimp only
    generalize d.resultIdx? (u.rowMajor.symm n) idx = o at hn ⊢
    cases o with
    | none => rfl
    | some k => exact if_neg fun e => hn (by rw [e])
  · dsimp only
    rw [hn]
    exact if_pos rfl
  · rw [Equiv.symm_apply_apply]; exact hj
  · intro n' hn'
    have := hlast (u.rowMajor.symm n') (by rw [Equiv.apply_symm_apply]; exact hgt n' hn')
    exact this
  · rw [Equiv.symm_apply_apply]

end Cert.LibScatterSet
-- ==== Proof.Routing.lean ====
/-
  Dispatch by scatter, two ways.

  Tokens `n = 0 … 16383` carry a slot index `idx n` (any 32-bit integer; a slot is one of the rows `0 … 16384` of a
  buffer, other values are dropped). The reference scatters the token ROWS into a zero buffer: row `s` ends holding the
  row of the last token whose index is `s`, or zeros. The kernel scatters the token NUMBERS into a table filled with
  the sentinel 16384, and then gathers rows of the token matrix extended by one zero row through that table: row `s`
  is the row of the last token whose index is `s`, or the zero row. Both scatters replace earlier updates by later ones
  in the same (row-major) order, so the two buffers agree row by row — whether or not two tokens share a slot.
-/
import proofs.«162617_j10591389352191_2_alg».proof.Proof.Gen.KernelIdeal
import proofs.«162617_j10591389352191_2_alg».proof.Proof.Gen.ReferenceIdeal
import proofs.«162617_j10591389352191_2_alg».proof.Proof.LibScatterSet
import Idealize.ShloMosaic.Lib.ValueIdx

namespace Cert.Routing

open Idealize.ShloMosaic Idealize.ShloMosaic.ValueIdx Cert.LibScatterSet

abbrev d1 := Cert.KernelIdeal.scatter_S16385_S16384x1_S16384_n_0_0_1
abbrev d2 := Cert.ReferenceIdeal.scatter_S16385x1024_S16384x1_S16384x1024_1_0_0_1
abbrev g2 := Cert.KernelIdeal.gather_S16385x1024_S16384x1_S16384x1024_1_0_n_n_0_1_11024

/-- Among finitely many indices with a property there is a last one. -/
theorem exists_last {N : Nat} (P : Fin N → Prop) (h : ∃ n, P n) : ∃ n, P n ∧ ∀ n', n < n' → ¬ P n' := by
  classical
  obtain ⟨n, hn⟩ := h
  obtain ⟨b, hb, hmax⟩ := Finset.exists_max_image (Finset.univ.filter P) id ⟨n, by simp [hn]⟩
  refine ⟨b, (Finset.mem_filter.mp hb).2, fun n' hlt hP => ?_⟩
  have := hmax n' (by simp [hP])
  exact absurd hlt (not_lt.mpr this)

/-- The table scatter: token `n` lands on slot `s` exactly when its index reads `s`. -/
theorem result1_iff (n : Fin 16384) (idx : IVec (⟨2, ![16384, 1]⟩ : Shape) 32) (s : Fin 16385) :
    d1.resultIdx? (ix1 n) idx = some (ix1 s) ↔ (idx (ix2 n 0)).toInt = (s.val : Int) := by
  have hs : d1.start (ix1 n) idx 0 = (idx (ix2 n 0)).toInt := by
    unfold ScatterDims.start
    rw [dif_pos (show (0 : Fin 1) ∈ d1.scatterDimsToOperandDims from List.mem_singleton.mpr rfl)]
    refine congrArg (fun i => (idx i).toInt) ?_
    funext b; refine Fin.ext ?_
    match b with
    | ⟨0, _⟩ => rfl
    | ⟨1, _⟩ => rfl
  have hw : d1.window (ix1 n) 0 = 0 := rfl
  unfold ScatterDims.resultIdx?
  split
  · rename_i h
    rw [Option.some.injEq]
    constructor
    · intro e
      have := congrArg (fun i => (i 0).val) e
      simp only at this
      have h0 := h 0
      rw [hs, hw] at h0
      change (d1.start (ix1 n) idx 0 + (d1.window (ix1 n) 0 : Int)).toNat = s.val at this
      rw [hs, hw] at this
      omega
    · intro e
      funext a
      obtain rfl : a = 0 := Subsingleton.elim _ _
      refine Fin.ext ?_
      change (d1.start (ix1 n) idx 0 + (d1.window (ix1 n) 0 : Int)).toNat = s.val
      rw [hs, hw, e]; simp
  · rename_i h
    constructor
    · intro e; exact absurd e (by simp)
    · intro e
      exfalso; apply h
      intro a
      obtain rfl : a = 0 := Subsingleton.elim _ _
      rw [hs, hw, e]
      have := s.isLt
      constructor
      · omega
      · show (s.val : Int) + 0 < 16385; omega

/-- The row scatter: element `(n, k)` of the token matrix lands on `(s, k')` exactly when token `n`'s index reads `s` and
    the columns agree. -/
theorem result2_iff (n : Fin 16384) (k : Fin 1024) (idx : IVec (⟨2, ![16384, 1]⟩ : Shape) 32) (s : Fin 16385) (k' : Fin 1024) :
    d2.resultIdx? (ix2 n k) idx = some (ix2 s k') ↔ (idx (ix2 n 0)).toInt = (s.val : Int) ∧ k = k' := by
  have hs0 : d2.start (ix2 n k) idx 0 = (idx (ix2 n 0)).toInt := by
    unfold ScatterDims.start
    rw [dif_pos (show (0 : Fin 2) ∈ d2.scatterDimsToOperandDims from List.mem_singleton.mpr rfl)]
    refine congrArg (fun i => (idx i).toInt) ?_
    funext b; refine Fin.ext ?_
    match b with
    | ⟨0, _⟩ => rfl
    | ⟨1, _⟩ => rfl
  have hs1 : d2.start (ix2 n k) idx 1 = 0 := by
    unfold ScatterDims.start
    rw [dif_neg (show (1 : Fin 2) ∉ d2.scatterDimsToOperandDims by decide)]
  have hw0 : d2.window (ix2 n k) 0 = 0 := rfl
  have hw1 : d2.window (ix2 n k) 1 = k.val := rfl
  unfold ScatterDims.resultIdx?
  split
  · rename_i h
    rw [Option.some.injEq]
    constructor
    · intro e
      have e0 := congrArg (fun i => (i 0).val) e
      have e1 := congrArg (fun i => (i 1).val) e
      simp only at e0 e1
      have h0 := h 0
      rw [hs0, hw0] at h0
      change (d2.start (ix2 n k) idx 0 + (d2.window (ix2 n k) 0 : Int)).toNat = s.val at e0
      change (d2.start (ix2 n k) idx 1 + (d2.window (ix2 n k) 1 : Int)).toNat = k'.val at e1
      rw [hs0, hw0] at e0
      rw [hs1, hw1] at e1
      refine ⟨by omega, Fin.ext (by omega)⟩
    · rintro ⟨e, rfl⟩
      funext a
      refine Fin.ext ?_
      match a with
      | ⟨0, _⟩ =>
        change (d2.start (ix2 n k) idx 0 + (d2.window (ix2 n k) 0 : Int)).toNat = s.val
        rw [hs0, hw0, e]; simp
      | ⟨1, _⟩ =>
        change (d2.start (ix2 n k) idx 1 + (d2.window (ix2 n k) 1 : Int)).toNat = k.val
        rw [hs1, hw1]; simp
  · rename_i h
    constructor
    · intro e; exact absurd e (by simp)
    · rintro ⟨e, rfl⟩
      exfalso; apply h
      intro a
      match a with
      | ⟨0, _⟩ =>
        change 0 ≤ d2.start (ix2 n k) idx 0 + (d2.window (ix2 n k) 0 : Int) ∧ d2.start (ix2 n k) idx 0 + (d2.window (ix2 n k) 0 : Int) < 16385
        rw [hs0, hw0, e]
        have := s.isLt
        omega
      | ⟨1, _⟩ =>
        change 0 ≤ d2.start (ix2 n k) idx 1 + (d2.window (ix2 n k) 1 : Int) ∧ d2.start (ix2 n k) idx 1 + (d2.window (ix2 n k) 1 : Int) < 1024
        rw [hs1, hw1]
        have := k.isLt
        omega

/-- The row gather read at `(n, k)`: the operand's row at the start index `idx[n, 0]`, read signed and clamped into
    `[0, 16384]`, column `k`. -/
theorem gather_row_apply {α : Type} (x : (⟨2, ![16385, 1024]⟩ : Shape).Idx → α) (idx : IVec (⟨2, ![16384, 1]⟩ : Shape) 32)
    (n : Fin 16384) (k : Fin 1024) :
    Host.gather g2 x idx (ix2 n k) = x (ix2 ⟨min (idx (ix2 n 0)).toInt.toNat 16384, by omega⟩ k) := by
  unfold Host.gather
  refine congrArg x ?_
  funext a
  refine Fin.ext ?_
  match a with
  | ⟨0, _⟩ =>
    show g2.start (ix2 n k) idx 0 + g2.batchCoord (ix2 n k) 0 + g2.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ g2.startIndexMap from List.mem_singleton.mpr rfl)]
    have hsi : g2.siIdx (ix2 n k) ⟨List.idxOf (0 : Fin 2) g2.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show g2.start (ix2 n k) idx 1 + g2.batchCoord (ix2 n k) 1 + g2.offCoord (ix2 n k) 1 = k.val
    rw [GatherDims.batchCoord_eq_zero _ _ _ List.not_mem_nil]
    have h0 : g2.start (ix2 n k) idx 1 = 0 := by
      unfold GatherDims.start
      rw [dif_neg (show (1 : Fin 2) ∉ g2.startIndexMap by decide)]
    rw [h0]
    show 0 + 0 + g2.offCoord (ix2 n k) 1 = k.val
    simp only [Nat.zero_add]
    rfl

/-- A token number below 16384, stored as a 32-bit integer, reads back signed as itself. -/
theorem toInt_ofNat_small (n : Nat) (hn : n < 16385) : (BitVec.ofNat 32 n).toInt = (n : Int) := by
  rw [BitVec.toInt_eq_toNat_cond, BitVec.toNat_ofNat]
  have h2 : n % 2 ^ 32 = n := Nat.mod_eq_of_lt (by omega)
  rw [h2]
  split <;> omega

/-- THE TWO DISPATCHES AGREE. `pad` is the token matrix `xk` with one more row, holding `z`; `inv` is the table the
    kernel scatters the token numbers into, over the sentinel 16384; `idxK` reads `inv` wherever `inv` is not
    negative (it never is). Then gathering `pad` through `idxK` gives, at row `s` below 16384, what scattering the
    rows of `xk` into a buffer of `z` leaves at row `s`. -/
theorem dispatch_eq {α : Type} (idx : IVec (⟨2, ![16384, 1]⟩ : Shape) 32)
    (xk : (⟨2, ![16384, 1024]⟩ : Shape).Idx → α) (z : α)
    (pad : (⟨2, ![16385, 1024]⟩ : Shape).Idx → α)
    (hpad1 : ∀ (n : Fin 16384) (k : Fin 1024), pad (ix2 (⟨n.val, by omega⟩ : Fin 16385) k) = xk (ix2 n k))
    (hpad2 : ∀ k : Fin 1024, pad (ix2 (⟨16384, by omega⟩ : Fin 16385) k) = z)
    (tok : (⟨1, ![16384]⟩ : Shape).Idx → BitVec 32) (htok : ∀ n : Fin 16384, tok (ix1 n) = BitVec.ofNat 32 n.val)
    (inv : (⟨1, ![16385]⟩ : Shape).Idx → BitVec 32)
    (hinv : inv = Host.scatter d1 (fun _ b => b) (fun _ => 16384#32) idx tok)
    (idxK : IVec (⟨2, ![16384, 1]⟩ : Shape) 32)
    (hidxK : ∀ s : Fin 16384, 0 ≤ (inv (ix1 (⟨s.val, by omega⟩ : Fin 16385))).toInt →
      idxK (ix2 s 0) = inv (ix1 (⟨s.val, by omega⟩ : Fin 16385)))
    (s : Fin 16384) (k : Fin 1024) :
    Host.gather g2 pad idxK (ix2 s k)
      = Host.scatter d2 (fun _ b => b) (fun _ => z) idx xk (ix2 (⟨s.val, by omega⟩ : Fin 16385) k) := by
  classical
  rw [gather_row_apply]
  have hs' : s.val < 16385 := by omega
  by_cases hex : ∃ n : Fin 16384, (idx (ix2 n 0)).toInt = (s.val : Int)
  · obtain ⟨n, hn, hlast⟩ := exists_last _ hex
    have hinv_s : inv (ix1 (⟨s.val, hs'⟩ : Fin 16385)) = BitVec.ofNat 32 n.val := by
      rw [hinv, scatter_set_of_last d1 _ idx tok (ix1 ⟨s.val, hs'⟩) (ix1 n) ((result1_iff n idx ⟨s.val, hs'⟩).mpr hn) ?_, htok]
      intro j' hlt
      obtain ⟨n', rfl⟩ : ∃ n' : Fin 16384, j' = ix1 n' := ⟨j' 0, eq_ix1 j'⟩
      rw [Fin.lt_def, Shape.rowMajor_val_one, Shape.rowMajor_val_one] at hlt
      intro e
      exact hlast n' (Fin.lt_def.mpr hlt) ((result1_iff n' idx ⟨s.val, hs'⟩).mp e)
    have hto := toInt_ofNat_small n.val (by omega)
    have hk := hidxK s (by rw [hinv_s, hto]; omega)
    have hrow : (⟨min (idxK (ix2 s 0)).toInt.toNat 16384, by omega⟩ : Fin 16385) = ⟨n.val, by omega⟩ :=
      Fin.ext (by show min (idxK (ix2 s 0)).toInt.toNat 16384 = n.val; rw [hk, hinv_s, hto]; have := n.isLt; omega)
    rw [hrow, hpad1]
    refine (scatter_set_of_last d2 _ idx xk (ix2 ⟨s.val, hs'⟩ k) (ix2 n k) ((result2_iff n k idx ⟨s.val, hs'⟩ k).mpr ⟨hn, rfl⟩) ?_).symm
    intro j' hlt e
    obtain ⟨n', k', rfl⟩ : ∃ (n' : Fin 16384) (k' : Fin 1024), j' = ix2 n' k' := ⟨j' 0, j' 1, eq_ix2 j'⟩
    rw [Fin.lt_def, Shape.rowMajor_val_two, Shape.rowMajor_val_two] at hlt
    obtain ⟨hP, rfl⟩ := (result2_iff n' k' idx ⟨s.val, hs'⟩ k).mp e
    have hle : n'.val ≤ n.val := by
      by_contra hgt
      exact hlast n' (Fin.lt_def.mpr (by omega)) hP
    change n.val * 1024 + k'.val < n'.val * 1024 + k'.val at hlt
    omega
  · have hno : ∀ n : Fin 16384, (idx (ix2 n 0)).toInt ≠ (s.val : Int) := fun n hn => hex ⟨n, hn⟩
    have hinv_s : inv (ix1 (⟨s.val, hs'⟩ : Fin 16385)) = 16384#32 := by
      rw [hinv, scatter_set_of_none d1 _ idx tok (ix1 ⟨s.val, hs'⟩) ?_]
      intro j' e
      obtain ⟨n', rfl⟩ : ∃ n' : Fin 16384, j' = ix1 n' := ⟨j' 0, eq_ix1 j'⟩
      exact hno n' ((result1_iff n' idx ⟨s.val, hs'⟩).mp e)
    have hto : (16384#32 : BitVec 32).toInt = 16384 := by decide
    have hk := hidxK s (by rw [hinv_s, hto]; omega)
    have hrow : (⟨min (idxK (ix2 s 0)).toInt.toNat 16384, by omega⟩ : Fin 16385) = ⟨16384, by omega⟩ :=
      Fin.ext (by show min (idxK (ix2 s 0)).toInt.toNat 16384 = 16384; rw [hk, hinv_s, hto]; omega)
    rw [hrow, hpad2]
    refine (scatter_set_of_none d2 (fun _ => z) idx xk (ix2 ⟨s.val, hs'⟩ k) ?_).symm
    intro j' e
    obtain ⟨n', k', rfl⟩ : ∃ (n' : Fin 16384) (k' : Fin 1024), j' = ix2 n' k' := ⟨j' 0, j' 1, eq_ix2 j'⟩
    exact hno n' ((result2_iff n' k' idx ⟨s.val, hs'⟩ k).mp e).1

end Cert.Routing
-- ==== Proof.DispatchEq.lean ====
/-
  The experts' input is one array in the two programs.

  The reference scatters the rows of the mixed tokens to their slots in a zero buffer of 16385 rows, drops the last row
  and cuts the rest into sixteen blocks of 1024 rows. The kernel program gathers the rows of the same matrix (narrowed
  to bf16, which changes nothing over the extended reals, and extended by a zero row) through the table of token
  numbers it scattered to the same slots. Row by row the two are equal: the dispatch lemma, applied at row
  `e · 1024 + r` of the flat buffer, after the reshapes, the slice, the concatenation, the broadcasts and the wrap of
  negative indices have been read at an index.
-/
import proofs.«162617_j10591389352191_2_alg».proof.Proof.Routing
import proofs.«162617_j10591389352191_2_alg».proof.Proof.KRead
import proofs.«162617_j10591389352191_2_alg».proof.Proof.RefRead
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.DispatchEq

open Idealize.ShloMosaic Idealize.ShloMosaic.ValueIdx

/-- The slot column is spelt the same way in the two programs. -/
theorem idxCol_eq (s : IVec Cert.KernelIdeal.S16384 32) :
    Cert.KernelIdeal.KRead.idxCol s = Cert.ReferenceIdeal.RefRun.wrapSlot (F := Ideal) s := rfl

/-- The slot column at row `n`: the slot itself when it is not negative. -/
theorem idxCol_apply_of_nonneg (t : IVec Cert.KernelIdeal.S16384 32) (n : Fin 16384) (h : 0 ≤ (t (ix1 n)).toInt) :
    Cert.KernelIdeal.KRead.idxCol t (ix2 n 0) = t (ix1 n) := by
  unfold Cert.KernelIdeal.KRead.idxCol
  rw [broadcastInDim_apply _ _ _ (ix2 n 0) (ix1 n) (by intro a; match a with | ⟨0, _⟩ => rfl)]
  rw [select_apply]
  have hc : cmpi CmpIPredicate.slt t
      (broadcastInDim Cert.KernelIdeal.S16384 ![] Cert.KernelIdeal.Gen.bcast_S_S16384 (constantI Cert.KernelIdeal.S_ 32 0#32)) (ix1 n) = 0#1 := by
    show IntOp.cmpi CmpIPredicate.slt (t (ix1 n)) 0#32 = 0#1
    unfold IntOp.cmpi
    simp only [BitVec.slt]
    have h0 : (0#32 : BitVec 32).toInt = 0 := by decide
    have : ¬ (t (ix1 n)).toInt < 0 := by omega
    simp [h0, this]
  rw [hc, select_zero]

/-- The slot table at row `n` is the scattered table at row `n` (the slice keeps the first 16384 rows). -/
theorem slotTable_apply (s : IVec Cert.KernelIdeal.S16384 32) (n : Fin 16384) :
    Cert.KernelIdeal.KRead.slotTable s (ix1 n)
      = Host.scatter Cert.KernelIdeal.scatter_S16385_S16384x1_S16384_n_0_0_1 (fun _ b => b)
          (broadcastInDim Cert.KernelIdeal.S16385 ![] Cert.KernelIdeal.Gen.bcast_S_S16385 (constantI Cert.KernelIdeal.S_ 32 16384#32))
          (Cert.KernelIdeal.KRead.idxCol s) (iotaInDim Cert.KernelIdeal.S16384 32 0) (ix1 (⟨n.val, by omega⟩ : Fin 16385)) := by
  unfold Cert.KernelIdeal.KRead.slotTable
  exact extractStridedSlice_apply _ _ _ (ix1 n) (ix1 (⟨n.val, by omega⟩ : Fin 16385))
    (by intro a; match a with | ⟨0, _⟩ => exact (Nat.zero_add _).symm)

/-- THE EXPERTS' INPUT of the kernel program is the reference's, element by element. -/
theorem dispatch_bridge (s : IVec Cert.KernelIdeal.S16384 32) (xk : FVec Ideal Cert.KernelIdeal.S8x2048x1024 .f32) :
    (Cert.KernelIdeal.KRead.dispatchK (F := Ideal) s xk : (⟨3, ![16, 1024, 1024]⟩ : Shape).Idx → EReal)
      = Cert.ReferenceIdeal.RefRun.expertIn (F := Ideal) xk s := by
  funext i
  obtain ⟨e, r, k, rfl⟩ : ∃ (e : Fin 16) (r : Fin 1024) (k : Fin 1024), i = ix3 e r k := ⟨i 0, i 1, i 2, eq_ix3 i⟩
  have hrow : e.val * 1024 + r.val < 16384 := by have := e.isLt; have := r.isLt; omega
  have hrow' : e.val * 1024 + r.val < 16385 := by omega
  unfold Cert.KernelIdeal.KRead.dispatchK Cert.ReferenceIdeal.RefRun.expertIn
  -- the two reshapes into sixteen blocks of 1024 rows
  rw [shapeCast_apply _ _ (ix3 e r k) (ix2 (⟨e.val * 1024 + r.val, hrow⟩ : Fin 16384) k)
      (by rw [Shape.rowMajor_val_two, Shape.rowMajor_val_three]; rfl)]
  rw [shapeCast_apply _ Cert.ReferenceIdeal.Gen.shapeCasts_S16384x1024_S16x1024x1024 (ix3 e r k) (ix2 (⟨e.val * 1024 + r.val, hrow⟩ : Fin 16384) k)
      (by rw [Shape.rowMajor_val_two, Shape.rowMajor_val_three]; rfl)]
  -- the slice that drops the trash row
  rw [extractStridedSlice_apply _ _ Cert.ReferenceIdeal.Gen.slices_S16385x1024_S16384x1024_0_0
      (ix2 (⟨e.val * 1024 + r.val, hrow⟩ : Fin 16384) k) (ix2 (⟨e.val * 1024 + r.val, hrow'⟩ : Fin 16385) k)
      (by intro a; match a with | ⟨0, _⟩ => exact (Nat.zero_add _).symm | ⟨1, _⟩ => exact (Nat.zero_add _).symm)]
  unfold Cert.KernelIdeal.KRead.gatherPadded
  rw [← idxCol_eq]
  have hz : (broadcastInDim Cert.ReferenceIdeal.S16385x1024 ![] Cert.ReferenceIdeal.Gen.bcast_S_S16385x1024
      (constant (F := Ideal) Cert.ReferenceIdeal.S_ .f32 0x00000000#32)) = fun _ => Ideal.ofBits .f32 0x00000000#32 := funext fun _ => rfl
  rw [hz]
  refine Cert.Routing.dispatch_eq (Cert.KernelIdeal.KRead.idxCol s) _ (Ideal.ofBits .f32 0x00000000#32) _ ?_ ?_
    (iotaInDim Cert.KernelIdeal.S16384 32 0) (fun n => rfl)
    (Host.scatter Cert.KernelIdeal.scatter_S16385_S16384x1_S16384_n_0_0_1 (fun _ b => b)
      (broadcastInDim Cert.KernelIdeal.S16385 ![] Cert.KernelIdeal.Gen.bcast_S_S16385 (constantI Cert.KernelIdeal.S_ 32 16384#32))
      (Cert.KernelIdeal.KRead.idxCol s) (iotaInDim Cert.KernelIdeal.S16384 32 0)) rfl
    (Cert.KernelIdeal.KRead.idxCol (Cert.KernelIdeal.KRead.slotTable s)) ?_ ⟨e.val * 1024 + r.val, hrow⟩ k
  · intro n k'
    rw [concatenate_pair_apply_left (t := Cert.KernelIdeal.S16385x1024) (s₁ := Cert.KernelIdeal.S16384x1024) (s₂ := Cert.KernelIdeal.S1x1024) (0 : Fin 2) _ _ Cert.KernelIdeal.Gen.concatenates_S16384x1024_S1x1024_S16385x1024_d0
      (ix2 (⟨n.val, by omega⟩ : Fin 16385) k') rfl (ix2 n k') (by intro b; match b with | ⟨0, _⟩ => rfl | ⟨1, _⟩ => rfl)]
    rfl
  · intro k'
    rw [concatenate_pair_apply_right (t := Cert.KernelIdeal.S16385x1024) (s₁ := Cert.KernelIdeal.S16384x1024) (s₂ := Cert.KernelIdeal.S1x1024) (0 : Fin 2) _ _ Cert.KernelIdeal.Gen.concatenates_S16384x1024_S1x1024_S16385x1024_d0
      (ix2 (⟨16384, by omega⟩ : Fin 16385) k') rfl rfl (ix2 (0 : Fin 1) k')
      (by intro b hb; match b with | ⟨0, _⟩ => exact absurd rfl hb | ⟨1, _⟩ => rfl) (by rfl)]
    show Ideal.ofBits .bf16 0x0000#16 = Ideal.ofBits .f32 0x00000000#32
    rw [Ideal.ofBits_zero_bf16, Ideal.ofBits_zero_f32]
  · intro n hn
    rw [idxCol_apply_of_nonneg _ n (by rw [slotTable_apply]; exact hn), slotTable_apply]

end Cert.DispatchEq

end
-- ==== Proof.Assemble.lean ====
/-
  The two programs compute one function of the prefix values and the weights.

  With the first mix `xk`, the second mix `xr`, the slot vector `s` and the three weight arrays as variables: the
  reference's gated rows of its experts' rows, and the kernel program's reshape of its second region's value of the
  combined first region's value of the dispatched rows, are the same array. The steps: the gate and the last reshape
  (the receptance lemma); the combine gather (one function of the rows it gathers); the experts' rows (the two
  batched products with the rectifier and the square between them are the feed-forward sum); the experts' input
  (the two dispatches agree).
-/
import proofs.«162617_j10591389352191_2_alg».proof.Proof.BridgeRecept
import proofs.«162617_j10591389352191_2_alg».proof.Proof.BridgeFfn
import proofs.«162617_j10591389352191_2_alg».proof.Proof.BridgeCombine
import proofs.«162617_j10591389352191_2_alg».proof.Proof.DispatchEq

set_option maxRecDepth 16384

noncomputable section

namespace Cert.Assemble

open Idealize.ShloMosaic Idealize.ShloMosaic.ValueIdx
open Cert.KernelIdeal.ReceptValue Cert.KernelIdeal.FfnValue

/-- The experts' rows: the reference's, and the kernel program's feed-forward value of its dispatched rows, flattened. -/
theorem rows_eq (xk : FVec Ideal Cert.KernelIdeal.S8x2048x1024 .f32) (s : IVec Cert.KernelIdeal.S16384 32)
    (wk : FVec Ideal Cert.ReferenceIdeal.S16x1024x2048 .f32) (wv : FVec Ideal Cert.ReferenceIdeal.S16x2048x1024 .f32) :
    Cert.ReferenceIdeal.RefRun.expertRows (F := Ideal) xk s wk wv
      = shapeCast Cert.KernelIdeal.S16384x1024 (ffn (Cert.KernelIdeal.KRead.dispatchK (F := Ideal) s xk) wk wv)
          Cert.KernelIdeal.Gen.shapeCasts_S16x1024x1024_S16384x1024 := by
  unfold Cert.ReferenceIdeal.RefRun.expertRows Cert.ReferenceIdeal.RefRun.expertHidden
  exact congrArg (fun z => shapeCast Cert.KernelIdeal.S16384x1024 z Cert.KernelIdeal.Gen.shapeCasts_S16x1024x1024_S16384x1024)
    ((Cert.Bridge.ffn_bridge (Cert.ReferenceIdeal.RefRun.expertIn (F := Ideal) xk s) wk wv).trans
      (congrArg (fun x => ffn x wk wv) (Cert.DispatchEq.dispatch_bridge s xk).symm))

/-- THE RESULTS as functions of the prefix values and the weights. -/
theorem result_eq (xr xk : FVec Ideal Cert.KernelIdeal.S8x2048x1024 .f32) (s : IVec Cert.KernelIdeal.S16384 32)
    (wr : FVec Ideal Cert.ReferenceIdeal.S1024x1024 .f32)
    (wk : FVec Ideal Cert.ReferenceIdeal.S16x1024x2048 .f32) (wv : FVec Ideal Cert.ReferenceIdeal.S16x2048x1024 .f32) :
    Cert.ReferenceIdeal.RefRun.gatedRows (F := Ideal) xr wr (Cert.ReferenceIdeal.RefRun.expertRows (F := Ideal) xk s wk wv) s
      = shapeCast Cert.KernelIdeal.S8x2048x1024
          (recept (shapeCast Cert.KernelIdeal.S16384x1024 xr Cert.KernelIdeal.Gen.shapeCasts_S8x2048x1024_S16384x1024) wr
            (Cert.KernelIdeal.KRead.combineK (F := Ideal) s (ffn (Cert.KernelIdeal.KRead.dispatchK (F := Ideal) s xk) wk wv)))
          Cert.KernelIdeal.Gen.shapeCasts_S16384x1024_S8x2048x1024 := by
  unfold Cert.ReferenceIdeal.RefRun.gatedRows
  refine (Cert.Bridge.recept_bridge xr wr _).trans ?_
  refine congrArg (fun y => shapeCast Cert.KernelIdeal.S8x2048x1024
    (recept (shapeCast Cert.KernelIdeal.S16384x1024 xr Cert.KernelIdeal.Gen.shapeCasts_S8x2048x1024_S16384x1024) wr y)
    Cert.KernelIdeal.Gen.shapeCasts_S16384x1024_S8x2048x1024) ?_
  unfold Cert.KernelIdeal.KRead.combineK
  rw [rows_eq]
  exact (Cert.Bridge.combine_bridge _ s).symm

end Cert.Assemble

end
-- ==== Proof.lean ====
/-
  A token-shift mix, hash routing into sixteen experts of capacity 1024, a per-expert squared-rectifier feed-forward
  network, a combine and a sigmoid gate: the kernel program (two pallas_calls among host operations) against the plain
  reference, over the extended reals.

  Both programs start with the same integer routing (the expert of a token is its id times 5099 modulo 16; its slot is the
  expert's block plus its rank among the expert's tokens, or the trash slot 16384 past the capacity) and the same two
  mixes `xk`, `xr` of each token with its predecessor. The reference scatters the rows of `xk` to their slots, multiplies
  each expert's block by its first matrix, rectifies, squares, multiplies by its second matrix, gathers the rows back
  through the slots (a zero row for the dropped tokens) and gates them by `sigmoid (xr · w_receptᵀ)`. The kernel program
  scatters the token NUMBERS to their slots and gathers the rows of `xk` through that table (a zero row for empty slots),
  runs the feed-forward network block by block in its first pallas_call, gathers the rows back, and computes the gate and
  the product in its second. Over the extended reals the two results are equal element by element:
    * a set-scatter replaces earlier updates by later ones in one fixed order, so the row a slot ends with is the row of
      the LAST token sent to it — in the reference's buffer and, through the table, in the kernel's gather alike;
    * each pallas_call's output array is the feed-forward sum, respectively the gated product, of the arrays it reads,
      whatever the tiling (every block is the same function of the array index, and the blocks cover the array);
    * a matrix product into a zero accumulator is the plain sum of products, the narrowings to bf16 are the identity,
      the kernel's logistic is `1 / (1 + exp (-x))` by definition, and both zero patterns denote 0.
  No law used here needs the inputs to be finite. The idealization pass rewrote nothing, so the kernel's idealization
  is sanctioned trivially; the three frames are the generated frame theorems and the reference's run.
-/
import proofs.«162617_j10591389352191_2_alg».proof.Defs
import proofs.«162617_j10591389352191_2_alg».proof.Proof.Gen.Kernel
import proofs.«162617_j10591389352191_2_alg».proof.Proof.Gen.Kernel.Skeleton
import proofs.«162617_j10591389352191_2_alg».proof.Proof.Gen.Kernel.Launch
import proofs.«162617_j10591389352191_2_alg».proof.Proof.Gen.Kernel.Points
import proofs.«162617_j10591389352191_2_alg».proof.Proof.Gen.Kernel.Frame
import proofs.«162617_j10591389352191_2_alg».proof.Proof.Gen.KernelIdeal
import proofs.«162617_j10591389352191_2_alg».proof.Proof.Gen.KernelIdeal.Skeleton
import proofs.«162617_j10591389352191_2_alg».proof.Proof.Gen.KernelIdeal.Launch
import proofs.«162617_j10591389352191_2_alg».proof.Proof.Gen.KernelIdeal.Points
import proofs.«162617_j10591389352191_2_alg».proof.Proof.Gen.KernelIdeal.Frame
import proofs.«162617_j10591389352191_2_alg».proof.Proof.Gen.ReferenceIdeal
import proofs.«162617_j10591389352191_2_alg».proof.Proof.Gen.Pre_finite_inputs
import proofs.«162617_j10591389352191_2_alg».proof.Proof.KRun
import proofs.«162617_j10591389352191_2_alg».proof.Proof.KOut
import proofs.«162617_j10591389352191_2_alg».proof.Proof.FfnBlocks
import proofs.«162617_j10591389352191_2_alg».proof.Proof.RefRun
import proofs.«162617_j10591389352191_2_alg».proof.Proof.RefRunArgs
import proofs.«162617_j10591389352191_2_alg».proof.Proof.RefRead
import proofs.«162617_j10591389352191_2_alg».proof.Proof.PrefixEq
import proofs.«162617_j10591389352191_2_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem

/-- The reference's result as a function of its prefix values and its weight arguments. -/
theorem ref_result (M : Valuation Cert.ReferenceIdeal.τ Cert.ReferenceIdeal.sig (Elt Ideal)) :
    StableHlo.after Cert.ReferenceIdeal.RefRun.ops M (Proc.devRef .tc Cert.ReferenceIdeal.main_v68)
      = Cert.ReferenceIdeal.RefRun.gatedRows
          (StableHlo.after Cert.ReferenceIdeal.RefRun.opsA M (Proc.devRef .tc Cert.ReferenceIdeal.main_v11))
          (M (Proc.devRef .tc Cert.ReferenceIdeal.main_arg5))
          (Cert.ReferenceIdeal.RefRun.expertRows
            (StableHlo.after Cert.ReferenceIdeal.RefRun.opsA M (Proc.devRef .tc Cert.ReferenceIdeal.main_v7))
            (StableHlo.after Cert.ReferenceIdeal.RefRun.opsA M (Proc.devRef .tc Cert.ReferenceIdeal.main_v34))
            (M (Proc.devRef .tc Cert.ReferenceIdeal.main_arg6)) (M (Proc.devRef .tc Cert.ReferenceIdeal.main_arg7)))
          (StableHlo.after Cert.ReferenceIdeal.RefRun.opsA M (Proc.devRef .tc Cert.ReferenceIdeal.main_v34)) := by
  rw [Cert.ReferenceIdeal.RefRun.after_ops, Cert.ReferenceIdeal.RefRun.after_opsC_main_v68,
    Cert.ReferenceIdeal.RefRun.after_opsB_main_v11, Cert.ReferenceIdeal.RefRun.after_opsB_main_v34,
    Cert.ReferenceIdeal.RefRun.after_opsB_main_arg5, Cert.ReferenceIdeal.RefRun.after_opsB_main_v50,
    Cert.ReferenceIdeal.RefRun.after_opsA_main_arg5, Cert.ReferenceIdeal.RefRun.after_opsA_main_arg6,
    Cert.ReferenceIdeal.RefRun.after_opsA_main_arg7]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.after_ops_main_arg0 _),
     (h c Cert.ReferenceIdeal.main_arg1).trans (Cert.ReferenceIdeal.RefRun.after_ops_main_arg1 _),
     (h c Cert.ReferenceIdeal.main_arg2).trans (Cert.ReferenceIdeal.RefRun.after_ops_main_arg2 _),
     (h c Cert.ReferenceIdeal.main_arg3).trans (Cert.ReferenceIdeal.RefRun.after_ops_main_arg3 _),
     (h c Cert.ReferenceIdeal.main_arg4).trans (Cert.ReferenceIdeal.RefRun.after_ops_main_arg4 _),
     (h c Cert.ReferenceIdeal.main_arg5).trans (Cert.ReferenceIdeal.RefRun.after_ops_main_arg5 _),
     (h c Cert.ReferenceIdeal.main_arg6).trans (Cert.ReferenceIdeal.RefRun.after_ops_main_arg6 _),
     (h c Cert.ReferenceIdeal.main_arg7).trans (Cert.ReferenceIdeal.RefRun.after_ops_main_arg7 _)⟩)
    (Cert.ReferenceIdeal.RefRun.run (F := Ideal) m ρ)

theorem preserves : Cert.preserves_Kernel_KernelIdeal := trivial

/-- From memories that agree on the eight arguments the two idealized programs end with one result: the kernel program's
    last boundary contents at its result buffer. -/
theorem algebraic : Cert.algebraic_KernelIdeal_ReferenceIdeal := by
  intro m ρ m' ρ' _ hagree
  refine ⟨fun c => Cert.KernelIdeal.Gen.W13 m ρ c (Proc.devRef .tc Cert.KernelIdeal.main_v70),
    Cert.KernelIdeal.KRun.run_named (F := Ideal) m ρ, ?_⟩
  refine (θ_run Cert.ReferenceIdeal.defs _ _).mono (fun _ h c =>
    ⟨(h c Cert.ReferenceIdeal.main_v68).trans ?_,
     (h c Cert.ReferenceIdeal.main_arg0).trans (Cert.ReferenceIdeal.RefRun.after_ops_main_arg0 _),
     (h c Cert.ReferenceIdeal.main_arg1).trans (Cert.ReferenceIdeal.RefRun.after_ops_main_arg1 _),
     (h c Cert.ReferenceIdeal.main_arg2).trans (Cert.ReferenceIdeal.RefRun.after_ops_main_arg2 _),
     (h c Cert.ReferenceIdeal.main_arg3).trans (Cert.ReferenceIdeal.RefRun.after_ops_main_arg3 _),
     (h c Cert.ReferenceIdeal.main_arg4).trans (Cert.ReferenceIdeal.RefRun.after_ops_main_arg4 _),
     (h c Cert.ReferenceIdeal.main_arg5).trans (Cert.ReferenceIdeal.RefRun.after_ops_main_arg5 _),
     (h c Cert.ReferenceIdeal.main_arg6).trans (Cert.ReferenceIdeal.RefRun.after_ops_main_arg6 _),
     (h c Cert.ReferenceIdeal.main_arg7).trans (Cert.ReferenceIdeal.RefRun.after_ops_main_arg7 _)⟩)
    (Cert.ReferenceIdeal.RefRun.run (F := Ideal) m' ρ')
  obtain ⟨a0, a1, a2, a3, a4, a5, a6, a7⟩ := hagree c
  show _ = Cert.KernelIdeal.Gen.W13 m ρ c (Proc.devRef .tc Cert.KernelIdeal.main_v70)
  rw [ref_result, Cert.KernelIdeal.KOut.out_eq m ρ Cert.KernelIdeal.FfnValue.final0 c,
    Cert.PrefixEq.prefix_v7 m ρ c (StableHlo.launchContents m' c) a0 a2 a3,
    Cert.PrefixEq.prefix_v11 m ρ c (StableHlo.launchContents m' c) a0 a2 a4,
    Cert.PrefixEq.prefix_v34 m ρ c (StableHlo.launchContents m' c) a1]
  have e5 : StableHlo.launchContents m' c (Proc.devRef .tc Cert.ReferenceIdeal.main_arg5)
      = m ((c.tc : Thread Cert.KernelIdeal.nD Cert.KernelIdeal.τ).loc Cert.KernelIdeal.main_arg5) := a5
  have e6 : StableHlo.launchContents m' c (Proc.devRef .tc Cert.ReferenceIdeal.main_arg6)
      = m ((c.tc : Thread Cert.KernelIdeal.nD Cert.KernelIdeal.τ).loc Cert.KernelIdeal.main_arg6) := a6
  have e7 : StableHlo.launchContents m' c (Proc.devRef .tc Cert.ReferenceIdeal.main_arg7)
      = m ((c.tc : Thread Cert.KernelIdeal.nD Cert.KernelIdeal.τ).loc Cert.KernelIdeal.main_arg7) := a7
  rw [e5, e6, e7]
  exact Cert.Assemble.result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
